-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S8192x8192 : Shape := ⟨2, ![8192, 8192]⟩
abbrev S8192 : Shape := ⟨1, ![8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S256x8192 .f32) (main_arg1 : FVec F S8192x8192 .f32) (main_arg2 : FVec F S8192 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S128x128 : Shape := ⟨2, ![128, 128]⟩
abbrev S128x1 : Shape := ⟨2, ![128, 1]⟩
abbrev S128 : Shape := ⟨1, ![128]⟩
abbrev S64 : Shape := ⟨1, ![64]⟩
abbrev S_ : Shape := ⟨0, ![]⟩
abbrev S64x1 : Shape := ⟨2, ![64, 1]⟩
abbrev S64x2 : Shape := ⟨2, ![64, 2]⟩
abbrev S1 : Shape := ⟨1, ![1]⟩
abbrev S1x8192 : Shape := ⟨2, ![1, 8192]⟩
abbrev S64x8192 : Shape := ⟨2, ![64, 8192]⟩

abbrev nBuf : Space → Nat
  | .hbm => 162
  | .vmem => 15
  | .smem => 0
  | _ => 0

abbrev hbmTy0_0 (i : Nat) : BufTy := match i % 128 with
  | 0 => ⟨S256x8192, .f32⟩
  | 1 => ⟨S8192x8192, .f32⟩
  | 2 => ⟨S8192, .f32⟩
  | 3 => ⟨S8192x1, .f32⟩
  | 4 => ⟨S8192x1, .f32⟩
  | 5 => ⟨S8192x1, .f32⟩
  | 6 => ⟨S8192, .f32⟩
  | 7 => ⟨S8192, .f32⟩
  | 8 => ⟨S8192, .f32⟩
  | 9 => ⟨S64, .i32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S_, .i32⟩
  | 17 => ⟨S64, .i32⟩
  | 18 => ⟨S64, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S64, .i32⟩
  | 26 => ⟨S64, .i32⟩
  | 27 => ⟨S_, .i32⟩
  | 28 => ⟨S64, .i32⟩
  | 29 => ⟨S64, .i1⟩
  | 30 => ⟨S_, .i32⟩
  | 31 => ⟨S64, .i32⟩
  | 32 => ⟨S64, .i1⟩
  | 33 => ⟨S_, .i32⟩
  | 34 => ⟨S_, .i1⟩
  | 35 => ⟨S64, .i1⟩
  | 36 => ⟨S64, .i1⟩
  | 37 => ⟨S64, .i1⟩
  | 38 => ⟨S64, .i32⟩
  | 39 => ⟨S64, .i32⟩
  | 40 => ⟨S64, .i32⟩
  | 41 => ⟨S_, .i32⟩
  | 42 => ⟨S64, .i32⟩
  | 43 => ⟨S64, .i1⟩
  | 44 => ⟨S_, .i32⟩
  | 45 => ⟨S64, .i32⟩
  | 46 => ⟨S64, .i32⟩
  | 47 => ⟨S64, .i32⟩
  | 48 => ⟨S_, .i32⟩
  | 49 => ⟨S64, .i32⟩
  | 50 => ⟨S64, .i1⟩
  | 51 => ⟨S_, .i32⟩
  | 52 => ⟨S64, .i32⟩
  | 53 => ⟨S64, .i32⟩
  | 54 => ⟨S64, .i32⟩
  | 55 => ⟨S64x1, .i32⟩
  | 56 => ⟨S64x1, .i32⟩
  | 57 => ⟨S64x2, .i32⟩
  | 58 => ⟨S64, .f32⟩
  | 59 => ⟨S_, .i32⟩
  | 60 => ⟨S64, .i32⟩
  | 61 => ⟨S64, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S64, .i32⟩
  | 69 => ⟨S64, .i32⟩
  | 70 => ⟨S_, .i32⟩
  | 71 => ⟨S64, .i32⟩
  | 72 => ⟨S64, .i1⟩
  | 73 => ⟨S_, .i32⟩
  | 74 => ⟨S64, .i32⟩
  | 75 => ⟨S64, .i1⟩
  | 76 => ⟨S_, .i32⟩
  | 77 => ⟨S_, .i1⟩
  | 78 => ⟨S64, .i1⟩
  | 79 => ⟨S64, .i1⟩
  | 80 => ⟨S64, .i1⟩
  | 81 => ⟨S64, .i32⟩
  | 82 => ⟨S64, .i32⟩
  | 83 => ⟨S64, .i32⟩
  | 84 => ⟨S_, .i32⟩
  | 85 => ⟨S64, .i32⟩
  | 86 => ⟨S64, .i1⟩
  | 87 => ⟨S_, .i32⟩
  | 88 => ⟨S64, .i32⟩
  | 89 => ⟨S64, .i32⟩
  | 90 => ⟨S64, .i32⟩
  | 91 => ⟨S_, .i32⟩
  | 92 => ⟨S64, .i32⟩
  | 93 => ⟨S64, .i1⟩
  | 94 => ⟨S_, .i32⟩
  | 95 => ⟨S64, .i32⟩
  | 96 => ⟨S64, .i32⟩
  | 97 => ⟨S64, .i32⟩
  | 98 => ⟨S64x1, .i32⟩
  | 99 => ⟨S64x1, .i32⟩
  | 100 => ⟨S64x2, .i32⟩
  | 101 => ⟨S64, .f32⟩
  | 102 => ⟨S_, .i32⟩
  | 103 => ⟨S64, .i32⟩
  | 104 => ⟨S64, .i1⟩
  | 105 => ⟨S_, .i32⟩
  | 106 => ⟨S64, .i32⟩
  | 107 => ⟨S64, .i32⟩
  | 108 => ⟨S64, .i32⟩
  | 109 => ⟨S64x1, .i32⟩
  | 110 => ⟨S8192, .f32⟩
  | 111 => ⟨S_, .i32⟩
  | 112 => ⟨S64, .i32⟩
  | 113 => ⟨S64, .i1⟩
  | 114 => ⟨S_, .i32⟩
  | 115 => ⟨S64, .i32⟩
  | 116 => ⟨S64, .i32⟩
  | 117 => ⟨S64, .i32⟩
  | 118 => ⟨S64x1, .i32⟩
  | 119 => ⟨S8192, .f32⟩
  | 120 => ⟨S_, .f32⟩
  | 121 => ⟨S8192, .f32⟩
  | 122 => ⟨S8192, .f32⟩
  | 123 => ⟨S8192, .f32⟩
  | 124 => ⟨S8192, .f32⟩
  | 125 => ⟨S1, .f32⟩
  | 126 => ⟨S_, .f32⟩
  | 127 => ⟨S_, .i32⟩
  | _ => ⟨S256x8192, .f32⟩

abbrev hbmTy0_1 (i : Nat) : BufTy := match i % 128 with
  | 0 => ⟨S1, .i32⟩
  | 1 => ⟨S8192, .f32⟩
  | 2 => ⟨S1, .f32⟩
  | 3 => ⟨S_, .f32⟩
  | 4 => ⟨S_, .i32⟩
  | 5 => ⟨S1, .i32⟩
  | 6 => ⟨S8192, .f32⟩
  | 7 => ⟨S1, .f32⟩
  | 8 => ⟨S_, .f32⟩
  | 9 => ⟨S_, .i32⟩
  | 10 => ⟨S1, .i32⟩
  | 11 => ⟨S8192, .f32⟩
  | 12 => ⟨S1, .f32⟩
  | 13 => ⟨S_, .f32⟩
  | 14 => ⟨S_, .i32⟩
  | 15 => ⟨S1, .i32⟩
  | 16 => ⟨S8192, .f32⟩
  | 17 => ⟨S1, .f32⟩
  | 18 => ⟨S_, .f32⟩
  | 19 => ⟨S_, .i32⟩
  | 20 => ⟨S1, .i32⟩
  | 21 => ⟨S8192, .f32⟩
  | 22 => ⟨S1, .f32⟩
  | 23 => ⟨S_, .f32⟩
  | 24 => ⟨S_, .i32⟩
  | 25 => ⟨S1, .i32⟩
  | 26 => ⟨S8192, .f32⟩
  | 27 => ⟨S8192, .f32⟩
  | 28 => ⟨S1x8192, .f32⟩
  | 29 => ⟨S8192, .f32⟩
  | 30 => ⟨S1x8192, .f32⟩
  | 31 => ⟨S8192, .f32⟩
  | 32 => ⟨S1x8192, .f32⟩
  | 33 => ⟨S256x8192, .f32⟩
  | _ => ⟨S256x8192, .f32⟩

abbrev hbmTy (i : Nat) : BufTy := match i / 128 with
  | 0 => hbmTy0_0 i
  | 1 => hbmTy0_1 i
  | _ => ⟨S256x8192, .f32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S64x8192, .f32⟩
  | .local _ .vmem, ⟨9, _⟩ => ⟨S64x8192, .f32⟩
  | .local _ .vmem, ⟨10, _⟩ => ⟨S1x8192, .f32⟩
  | .local _ .vmem, ⟨11, _⟩ => ⟨S1x8192, .f32⟩
  | .local _ .vmem, ⟨12, _⟩ => ⟨S1x8192, .f32⟩
  | .local _ .vmem, ⟨13, _⟩ => ⟨S64x8192, .f32⟩
  | .local _ .vmem, ⟨14, _⟩ => ⟨S64x8192, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v11 : Ref sig .tc := ⟨.hbm, 40, rfl⟩
abbrev main_c_3 : Ref sig .tc := ⟨.hbm, 41, rfl⟩
abbrev main_v12 : Ref sig .tc := ⟨.hbm, 42, rfl⟩
abbrev main_v13 : Ref sig .tc := ⟨.hbm, 43, rfl⟩
abbrev main_c_4 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_5 : Ref sig .tc := ⟨.hbm, 48, rfl⟩
abbrev main_v17 : Ref sig .tc := ⟨.hbm, 49, rfl⟩
abbrev main_v18 : Ref sig .tc := ⟨.hbm, 50, rfl⟩
abbrev main_c_6 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_7 : Ref sig .tc := ⟨.hbm, 59, rfl⟩
abbrev main_v26 : Ref sig .tc := ⟨.hbm, 60, rfl⟩
abbrev main_v27 : Ref sig .tc := ⟨.hbm, 61, rfl⟩
abbrev main_c_8 : Ref sig .tc := ⟨.hbm, 62, rfl⟩
abbrev main_call1_v0 : Ref sig .tc := ⟨.hbm, 63, rfl⟩
abbrev main_call1_c : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_c_1 : Ref sig .tc := ⟨.hbm, 70, rfl⟩
abbrev main_call1_v5 : Ref sig .tc := ⟨.hbm, 71, rfl⟩
abbrev main_call1_v6 : Ref sig .tc := ⟨.hbm, 72, rfl⟩
abbrev main_call1_c_2 : Ref sig .tc := ⟨.hbm, 73, rfl⟩
abbrev main_call1_v7 : Ref sig .tc := ⟨.hbm, 74, rfl⟩
abbrev main_call1_v8 : Ref sig .tc := ⟨.hbm, 75, rfl⟩
abbrev main_call1_c_3 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_v28 : Ref sig .tc := ⟨.hbm, 83, rfl⟩
abbrev main_c_9 : Ref sig .tc := ⟨.hbm, 84, rfl⟩
abbrev main_v29 : Ref sig .tc := ⟨.hbm, 85, rfl⟩
abbrev main_v30 : Ref sig .tc := ⟨.hbm, 86, rfl⟩
abbrev main_c_10 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_c_11 : Ref sig .tc := ⟨.hbm, 91, rfl⟩
abbrev main_v34 : Ref sig .tc := ⟨.hbm, 92, rfl⟩
abbrev main_v35 : Ref sig .tc := ⟨.hbm, 93, rfl⟩
abbrev main_c_12 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_c_13 : Ref sig .tc := ⟨.hbm, 102, rfl⟩
abbrev main_v43 : Ref sig .tc := ⟨.hbm, 103, rfl⟩
abbrev main_v44 : Ref sig .tc := ⟨.hbm, 104, rfl⟩
abbrev main_c_14 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_c_15 : Ref sig .tc := ⟨.hbm, 111, rfl⟩
abbrev main_v50 : Ref sig .tc := ⟨.hbm, 112, rfl⟩
abbrev main_v51 : Ref sig .tc := ⟨.hbm, 113, rfl⟩
abbrev main_c_16 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_c_17 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_c_18 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_c_19 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_c_20 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_c_21 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_c_22 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  ![arg0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  iota_S128x128_d0_w32 : S128x128.Iotas .tc 32 [0]
  iota_S128x128_d1_w32 : S128x128.Iotas .tc 32 [1]
  inb_S128x128_S128x128_0_0 : ∀ a, (![0, 0] : Fin 2 → Nat) a + S128x128.size a ≤ S128x128.size a
  h_S128x128 : 0 < S128x128.numel
  reduces_S128x128_S128 : S128x128.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S8192x1_S8192 : S8192x1.ShapeCasts S8192
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S_S8192 : S_.BroadcastsInDim S8192 (![] : Fin 0 → Fin S8192.rank)
  slices_S8192_S1_0 : S8192.Slices ![0] S1
  shapeCasts_S1_S_ : S1.ShapeCasts S_
  bcast_S_S1 : S_.BroadcastsInDim S1 (![] : Fin 0 → Fin S1.rank)
  slices_S8192_S1_8191 : S8192.Slices ![8191] S1
  shapeCasts_S8192_S1x8192 : S8192.ShapeCasts S1x8192
  inb_S64x8192_S64x8192_0_0 : ∀ a, (![0, 0] : Fin 2 → Nat) a + S64x8192.size a ≤ S64x8192.size a
  h_S64x8192 : 0 < S64x8192.numel
  rotates_S64x8192_d1 : S64x8192.Rotates 1 none
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S64x8192 : S1x8192.Broadcasts S64x8192
  gather_S8192x8192_S64x2_S64_n_01_n_n_01_1_11_wf : GatherDims.WF S8192x8192 S64x2 S64 [] [0, 1] [] [0, 1] [] 1 ![1, 1]
  scatter_S8192_S64x1_S64_n_0_0_1_wf : ScatterDims.WF S8192 S64x1 S64 [] [0] [0] 1
  scatter_S8192_S1_S__n_0_0_0_wf : ScatterDims.WF S8192 S1 S_ [] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x8192.size a
  hwx0_0 : ∀ i : grid0.Coords, EltTy.bits .f32 = 32 ∨ (Rect.block (s := S8192x8192) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .f32 = 32 ∨ (Rect.block (s := S8192x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .f32 = 32 ∨ (Rect.block (s := S8192x1) S128x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S256x8192.size a
  hwx1_0 : ∀ i : grid1.Coords, EltTy.bits .f32 = 32 ∨ (Rect.block (s := S256x8192) S64x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x8192.size a ≤ S256x8192.size a
  hwx1_4 : ∀ i : grid1.Coords, EltTy.bits .f32 = 32 ∨ (Rect.block (s := S256x8192) S64x8192.size (cc1_transform_4 i) (hinb1_4 i)).WholeWords (EltTy.packing .f32)

variable [Facts₀]

def gather_S8192x8192_S64x2_S64_n_01_n_n_01_1_11 : GatherDims S8192x8192 S64x2 S64 where
  offsetDims := []
  collapsedSliceDims := [0, 1]
  operandBatchingDims := []
  startIndicesBatchingDims := []
  startIndexMap := [0, 1]
  indexVectorDim := 1
  sliceSizes := ![1, 1]
  wf := gather_S8192x8192_S64x2_S64_n_01_n_n_01_1_11_wf
def scatter_S8192_S64x1_S64_n_0_0_1 : ScatterDims S8192 S64x1 S64 where
  updateWindowDims := []
  insertedWindowDims := [0]
  scatterDimsToOperandDims := [0]
  indexVectorDim := 1
  wf := scatter_S8192_S64x1_S64_n_0_0_1_wf
def scatter_S8192_S1_S__n_0_0_0 : ScatterDims S8192 S1 S_ where
  updateWindowDims := []
  insertedWindowDims := [0]
  scatterDimsToOperandDims := [0]
  indexVectorDim := 0
  wf := scatter_S8192_S1_S__n_0_0_0_wf

abbrev win0_0 : Pipeline.Window sig grid0 :=
  Pipeline.Window.ofSpec (Memref.whole main_arg1) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S128x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v86) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v88) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v90) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v91) S64x8192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S256x8192 : Shape := ⟨2, ![256, 8192]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1 : Shape := ⟨1, ![1]⟩
abbrev S256x1 : Shape := ⟨2, ![256, 1]⟩
abbrev S256x8191 : Shape := ⟨2, ![256, 8191]⟩
abbrev S1x8192 : Shape := ⟨2, ![1, 8192]⟩

abbrev nBuf : Space → Nat
  | .hbm => 163
  | .vmem => 0
  | .smem => 0
  | _ => 0

abbrev hbmTy0_0 (i : Nat) : BufTy := match i % 128 with
  | 0 => ⟨S256x8192, .f32⟩
  | 1 => ⟨S8192x8192, .f32⟩
  | 2 => ⟨S8192, .f32⟩
  | 3 => ⟨S8192, .i32⟩
  | 4 => ⟨S_, .i32⟩
  | 5 => ⟨S8192, .i32⟩
  | 6 => ⟨S8192, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i1⟩
  | 18 => ⟨S_, .i32⟩
  | 19 => ⟨S8192, .i32⟩
  | 20 => ⟨S8192, .i1⟩
  | 21 => ⟨S_, .i32⟩
  | 22 => ⟨S_, .i1⟩
  | 23 => ⟨S8192, .i1⟩
  | 24 => ⟨S8192, .i1⟩
  | 25 => ⟨S8192, .i1⟩
  | 26 => ⟨S8192, .i32⟩
  | 27 => ⟨S8192, .i32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192x1, .i32⟩
  | 45 => ⟨S8192x2, .i32⟩
  | 46 => ⟨S8192, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x1, .i32⟩
  | 63 => ⟨S8192x2, .i32⟩
  | 64 => ⟨S8192, .f32⟩
  | 65 => ⟨S_, .i32⟩
  | 66 => ⟨S8192, .i32⟩
  | 67 => ⟨S8192, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i1⟩
  | 79 => ⟨S_, .i32⟩
  | 80 => ⟨S8192, .i32⟩
  | 81 => ⟨S8192, .i1⟩
  | 82 => ⟨S_, .i32⟩
  | 83 => ⟨S_, .i1⟩
  | 84 => ⟨S8192, .i1⟩
  | 85 => ⟨S8192, .i1⟩
  | 86 => ⟨S8192, .i1⟩
  | 87 => ⟨S8192, .i32⟩
  | 88 => ⟨S8192, .i32⟩
  | 89 => ⟨S8192, .i32⟩
  | 90 => ⟨S_, .i32⟩
  | 91 => ⟨S8192, .i32⟩
  | 92 => ⟨S8192, .i1⟩
  | 93 => ⟨S_, .i32⟩
  | 94 => ⟨S8192, .i32⟩
  | 95 => ⟨S8192, .i32⟩
  | 96 => ⟨S8192, .i32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S8192x1, .i32⟩
  | 106 => ⟨S8192x2, .i32⟩
  | 107 => ⟨S8192, .f32⟩
  | 108 => ⟨S_, .f32⟩
  | 109 => ⟨S8192, .f32⟩
  | 110 => ⟨S8192, .f32⟩
  | 111 => ⟨S8192, .f32⟩
  | 112 => ⟨S8192, .f32⟩
  | 113 => ⟨S1, .f32⟩
  | 114 => ⟨S_, .f32⟩
  | 115 => ⟨S_, .i32⟩
  | 116 => ⟨S1, .i32⟩
  | 117 => ⟨S8192, .f32⟩
  | 118 => ⟨S1, .f32⟩
  | 119 => ⟨S_, .f32⟩
  | 120 => ⟨S_, .i32⟩
  | 121 => ⟨S1, .i32⟩
  | 122 => ⟨S8192, .f32⟩
  | 123 => ⟨S1, .f32⟩
  | 124 => ⟨S_, .f32⟩
  | 125 => ⟨S_, .i32⟩
  | 126 => ⟨S1, .i32⟩
  | 127 => ⟨S8192, .f32⟩
  | _ => ⟨S256x8192, .f32⟩

abbrev hbmTy0_1 (i : Nat) : BufTy := match i % 128 with
  | 0 => ⟨S1, .f32⟩
  | 1 => ⟨S_, .f32⟩
  | 2 => ⟨S_, .i32⟩
  | 3 => ⟨S1, .i32⟩
  | 4 => ⟨S8192, .f32⟩
  | 5 => ⟨S1, .f32⟩
  | 6 => ⟨S_, .f32⟩
  | 7 => ⟨S_, .i32⟩
  | 8 => ⟨S1, .i32⟩
  | 9 => ⟨S8192, .f32⟩
  | 10 => ⟨S1, .f32⟩
  | 11 => ⟨S_, .f32⟩
  | 12 => ⟨S_, .i32⟩
  | 13 => ⟨S1, .i32⟩
  | 14 => ⟨S8192, .f32⟩
  | 15 => ⟨S256x1, .f32⟩
  | 16 => ⟨S256x8191, .f32⟩
  | 17 => ⟨S256x8192, .f32⟩
  | 18 => ⟨S256x8191, .f32⟩
  | 19 => ⟨S256x1, .f32⟩
  | 20 => ⟨S256x8192, .f32⟩
  | 21 => ⟨S8192, .f32⟩
  | 22 => ⟨S1x8192, .f32⟩
  | 23 => ⟨S256x8192, .f32⟩
  | 24 => ⟨S256x8192, .f32⟩
  | 25 => ⟨S8192, .f32⟩
  | 26 => ⟨S1x8192, .f32⟩
  | 27 => ⟨S256x8192, .f32⟩
  | 28 => ⟨S256x8192, .f32⟩
  | 29 => ⟨S256x8192, .f32⟩
  | 30 => ⟨S8192, .f32⟩
  | 31 => ⟨S1x8192, .f32⟩
  | 32 => ⟨S256x8192, .f32⟩
  | 33 => ⟨S256x8192, .f32⟩
  | 34 => ⟨S256x8192, .f32⟩
  | _ => ⟨S256x8192, .f32⟩

abbrev hbmTy (i : Nat) : BufTy := match i / 128 with
  | 0 => hbmTy0_0 i
  | 1 => hbmTy0_1 i
  | _ => ⟨S256x8192, .f32⟩

abbrev bufTy : (tb : Table) → Fin (tcTables nBuf tb) → BufTy
  | .hbm, ⟨i, _⟩ => hbmTy i
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v3 : Ref sig .tc := ⟨.hbm, 28, rfl⟩
abbrev main_c_1 : Ref sig .tc := ⟨.hbm, 29, rfl⟩
abbrev main_v4 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_c_4 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_c_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_v23 : Ref sig .tc := ⟨.hbm, 55, rfl⟩
abbrev main_v24 : Ref sig .tc := ⟨.hbm, 56, rfl⟩
abbrev main_c_8 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_v32 : Ref sig .tc := ⟨.hbm, 66, rfl⟩
abbrev main_v33 : Ref sig .tc := ⟨.hbm, 67, rfl⟩
abbrev main_c_10 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_1 : Ref sig .tc := ⟨.hbm, 76, rfl⟩
abbrev main_call1_v5 : Ref sig .tc := ⟨.hbm, 77, rfl⟩
abbrev main_call1_v6 : Ref sig .tc := ⟨.hbm, 78, rfl⟩
abbrev main_call1_c_2 : Ref sig .tc := ⟨.hbm, 79, rfl⟩
abbrev main_call1_v7 : Ref sig .tc := ⟨.hbm, 80, rfl⟩
abbrev main_call1_v8 : Ref sig .tc := ⟨.hbm, 81, rfl⟩
abbrev main_call1_c_3 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_v34 : Ref sig .tc := ⟨.hbm, 89, rfl⟩
abbrev main_c_11 : Ref sig .tc := ⟨.hbm, 90, rfl⟩
abbrev main_v35 : Ref sig .tc := ⟨.hbm, 91, rfl⟩
abbrev main_v36 : Ref sig .tc := ⟨.hbm, 92, rfl⟩
abbrev main_c_12 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_c_13 : Ref sig .tc := ⟨.hbm, 97, rfl⟩
abbrev main_v40 : Ref sig .tc := ⟨.hbm, 98, rfl⟩
abbrev main_v41 : Ref sig .tc := ⟨.hbm, 99, rfl⟩
abbrev main_c_14 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_cst : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_c_15 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_c_16 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_c_17 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_c_18 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_c_19 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_c_20 : Ref sig .tc := ⟨.hbm, 140, rfl⟩
abbrev main_v75 : Ref sig .tc := ⟨.hbm, 141, rfl⟩
abbrev main_v76 : Ref sig .tc := ⟨.hbm, 142, rfl⟩
abbrev main_call2_v0 : Ref sig .tc := ⟨.hbm, 143, rfl⟩
abbrev main_call2_v1 : Ref sig .tc := ⟨.hbm, 144, rfl⟩
abbrev main_v77 : Ref sig .tc := ⟨.hbm, 145, rfl⟩
abbrev main_call3_v0 : Ref sig .tc := ⟨.hbm, 146, rfl⟩
abbrev main_call3_v1 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  slices_S8192_S1_0 : S8192.Slices ![0] S1
  shapeCasts_S1_S_ : S1.ShapeCasts S_
  bcast_S_S1 : S_.BroadcastsInDim S1 (![] : Fin 0 → Fin S1.rank)
  slices_S8192_S1_8191 : S8192.Slices ![8191] S1
  slices_S256x8192_S256x1_0_8191 : S256x8192.Slices ![0, 8191] S256x1
  slices_S256x8192_S256x8191_0_0 : S256x8192.Slices ![0, 0] S256x8191
  concatenates_S256x1_S256x8191_S256x8192_d1 : Shape.Concatenates [S256x1, S256x8191] S256x8192 1
  slices_S256x8192_S256x8191_0_1 : S256x8192.Slices ![0, 1] S256x8191
  slices_S256x8192_S256x1_0_0 : S256x8192.Slices ![0, 0] S256x1
  concatenates_S256x8191_S256x1_S256x8192_d1 : Shape.Concatenates [S256x8191, S256x1] S256x8192 1
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  gather_S8192x8192_S8192x2_S8192_n_01_n_n_01_1_11_wf : GatherDims.WF S8192x8192 S8192x2 S8192 [] [0, 1] [] [0, 1] [] 1 ![1, 1]
  scatter_S8192_S1_S__n_0_0_0_wf : ScatterDims.WF S8192 S1 S_ [] [0] [0] 0

variable [Facts₀]

def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf
def scatter_S8192_S1_S__n_0_0_0 : ScatterDims S8192 S1 S_ where
  updateWindowDims := []
  insertedWindowDims := [0]
  scatterDimsToOperandDims := [0]
  indexVectorDim := 0
  wf := scatter_S8192_S1_S__n_0_0_0_wf

class Facts : Prop extends Facts₀ where

variable [Facts]
-- ==== Proof.KernelRun.lean ====
/-
  The idealized kernel program's run with its result named.

  The program is two pipelined passes with host operations between them. Its run is a chain of seven segments;
  at each boundary every buffer's contents are a fold of the operations so far over the launch memory. This module
  reads the LAST boundary at the result buffer as well as at the three arguments: every weakly fair execution
  terminates, the result array holds the last fold's contents at it, and the arguments are as launched.
-/
import proofs.«126676_j37838661878516_2_alg».proof.Proof.Gen.KernelIdeal.Frame

noncomputable section

namespace Cert.KernelIdeal.BandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds what the
    second pass's write-backs leave (the contents named `W7` at the result buffer), and the three argument arrays
    are as launched. -/
theorem run_result : θ_run defs (onTc (τ := τ) (main (F := F))) ⟨m, fun _ => 0, ρ⟩ (fun r => ∀ c : Dev nD,
      r.2.mem ((c.tc : Thread nD τ).loc main_v91) = W7 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v91 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.BandValue

end
-- ==== Proof.Spec.lean ====
/-
  The ring band: what both programs compute, stated once over extended-real arrays of the literal shapes.

  The 8192 columns form a ring. Column `q`'s left neighbour is `prev q` and its right neighbour `next q` (the
  ends wrap). Of the square matrix `W` only three ring diagonals matter: `W (q, prev q)`, `W (q, q)` and
  `W (q, next q)`. Each output entry `(p, q)` is

      x (p, prev q) · aL q  +  x (p, q) · aD q  +  x (p, next q) · aU q

  with `aL q = cL q · W (q, prev q)`, `aD q = cD q · W (q, q)`, `aU q = cU q · W (q, next q)`, the factors
  `cL, cD, cU` being functions of the bias alone. The sum is grouped as written: the first two products are added
  first. Nothing here needs finiteness: the two sides are compared term by term, never rearranged.
-/
import Idealize.ShloMosaic.PureOps.Ideal
import Idealize.ShloMosaic.Lib.ValueIdx

noncomputable section

namespace Cert.Band

open Idealize.ShloMosaic Idealize.ShloMosaic.ValueIdx

/-- The input `x` and the output: 256 rows of 8192 columns. -/
abbrev SX : Shape := ⟨2, ![256, 8192]⟩
/-- The square matrix `W`. -/
abbrev SW : Shape := ⟨2, ![8192, 8192]⟩
/-- A vector over the columns (the bias, a diagonal, a coefficient). -/
abbrev SB : Shape := ⟨1, ![8192]⟩
/-- The same as one column of 8192 rows (how the first pass writes a diagonal). -/
abbrev SC : Shape := ⟨2, ![8192, 1]⟩
/-- The same as one row of 8192 columns (how the second pass reads a coefficient). -/
abbrev SR : Shape := ⟨2, ![1, 8192]⟩

/-- The left neighbour of column `q` on the ring: `q - 1`, and `8191` for `q = 0`. -/
def prev (q : Fin 8192) : Fin 8192 := ⟨(q.val + 8191) % 8192, Nat.mod_lt _ (by decide)⟩
/-- The right neighbour of column `q` on the ring: `q + 1`, and `0` for `q = 8191`. -/
def next (q : Fin 8192) : Fin 8192 := ⟨(q.val + 1) % 8192, Nat.mod_lt _ (by decide)⟩

theorem prev_val (q : Fin 8192) : (prev q).val = (q.val + 8191) % 8192 := rfl
theorem next_val (q : Fin 8192) : (next q).val = (q.val + 1) % 8192 := rfl

/-- Away from column 0 the left neighbour is `q - 1`. -/
theorem prev_val_of_pos (q : Fin 8192) (h : q.val ≠ 0) : (prev q).val = q.val - 1 := by
  have := q.isLt; rw [prev_val]; omega
/-- Away from column 8191 the right neighbour is `q + 1`. -/
theorem next_val_of_lt (q : Fin 8192) (h : q.val ≠ 8191) : (next q).val = q.val + 1 := by
  have := q.isLt; rw [next_val]; omega

/-- One output entry from the input and the three per-column factors. -/
def combineAt (x : SX.Idx → EReal) (aL aD aU : Fin 8192 → EReal) (p : Fin 256) (q : Fin 8192) : EReal :=
  x (ix2 p (prev q)) * aL q + x (ix2 p q) * aD q + x (ix2 p (next q)) * aU q

/-- The output array from the input and the three per-column factors. -/
def combine (x : SX.Idx → EReal) (aL aD aU : Fin 8192 → EReal) : SX.Idx → EReal :=
  fun j => combineAt x aL aD aU (j 0) (j 1)

theorem combine_apply (x : SX.Idx → EReal) (aL aD aU : Fin 8192 → EReal) (p : Fin 256) (q : Fin 8192) :
    combine x aL aD aU (ix2 p q) = combineAt x aL aD aU p q := rfl

/-- The output array when the three factors arrive as rows `[1, 8192]` (the second pass's operands). -/
def combineRows (x : SX.Idx → EReal) (rL rD rU : SR.Idx → EReal) : SX.Idx → EReal :=
  combine x (fun q => rL (ix2 0 q)) (fun q => rD (ix2 0 q)) (fun q => rU (ix2 0 q))

/-- The whole result: the factors are a bias-only coefficient times the matrix's ring diagonal. The three
    coefficient arrays `cL cD cU` are parameters: both programs build them from the bias by the same operations,
    and they are never opened. -/
def out (cL cD cU : SB.Idx → EReal) (x : SX.Idx → EReal) (W : SW.Idx → EReal) : SX.Idx → EReal :=
  combine x (fun q => cL (ix1 q) * W (ix2 q (prev q))) (fun q => cD (ix1 q) * W (ix2 q q))
    (fun q => cU (ix1 q) * W (ix2 q (next q)))

end Cert.Band

end
-- ==== Proof.Region0Payload.lean ====
/-
  The first pass at one row of a tile.

  The body takes a 128 x 128 tile of the matrix and, for each of its rows `a`, adds up the row under a mask that
  keeps one column: column `a` (the diagonal entry), column `a - 1` (the entry left of it), or column `a + 1` (the
  entry right of it). A sum of 128 terms of which all but one are zero is the remaining term, in the extended reals as
  anywhere else (only additions of zero are involved). In the tile's first row no column equals `a - 1`, and in its last
  row none equals `a + 1`: there the sum is zero.

  The masks compare 32-bit words: column and row numbers below 128, one of them moved by one. Such small numbers
  are compared as words exactly as they are as numbers; `0 - 1` wraps to the largest word, which is no column.
-/
import proofs.«126676_j37838661878516_2_alg».proof.Proof.Gen.KernelIdeal.Frame
import proofs.«126676_j37838661878516_2_alg».proof.Proof.Spec
import Idealize.ShloMosaic.Lib.ValueLayout
import Idealize.ShloMosaic.Lib.Pipeline.Value
import Idealize.ShloMosaic.PureOps.Ideal.Laws

noncomputable section

namespace Cert.KernelIdeal.BandValue

open Cert.KernelIdeal Cert.KernelIdeal.Gen Idealize.ShloMosaic Idealize.ShloMosaic.TcCoe Idealize.SL.Sem
open Idealize.ShloMosaic.ValueIdx Cert.Band

/-! ## The layout and the sum -/

/-- A vector of `a` entries cast to one column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the columns of a tile, at row `a`, is the sum of the row's 128 entries. -/
theorem lane_sum_apply (v : FVec Ideal S128x128 .f32) (a : Fin 128) :
    multiReduction .add [1] S128 v 0x00000000#32 reduces_S128x128_S128 (.inl rfl) rfl (ix1 a)
      = ∑ k : Fin 128, v (ix2 a k) := by
  refine (Ideal.multiReduction_add_single v 0x00000000#32 reduces_S128x128_S128 (.inl rfl) rfl (ix1 a)).trans ?_
  refine Finset.sum_congr rfl fun k _ => congrArg v (funext fun b => Fin.ext ?_)
  match b with
  | ⟨0, _⟩ => rfl
  | ⟨1, _⟩ => rfl

/-- The zero the masked-out entries are replaced by. -/
theorem zero_word : (Scalar.ofBits .f32 0x00000000#32 : Ideal .f32) = 0 := Ideal.ofBits_zero_f32

/-- A row summed under a mask that keeps exactly column `b` is the row's entry at `b`. -/
theorem masked_sum_single (x0 : Vec Ideal S128x128 .f32) (M : IVec S128x128 1) (z : Ideal .f32) (hz : z = 0)
    (a b : Fin 128) (hb : M (ix2 a b) = 1#1) (hne : ∀ k : Fin 128, k ≠ b → M (ix2 a k) = 0#1) :
    ∑ k : Fin 128, (select M x0 (broadcast S128x128 z) : S128x128.Idx → EReal) (ix2 a k) = x0 (ix2 a b) := by
  refine (Finset.sum_eq_single b (fun k _ hk => ?_) (fun h => absurd (Finset.mem_univ b) h)).trans ?_
  · rw [select_apply, hne k hk, select_zero, broadcast_apply, hz]
  · rw [select_apply, hb, select_one]

/-- A row summed under a mask that keeps no column is zero. -/
theorem masked_sum_none (x0 : Vec Ideal S128x128 .f32) (M : IVec S128x128 1) (z : Ideal .f32) (hz : z = 0)
    (a : Fin 128) (hall : ∀ k : Fin 128, M (ix2 a k) = 0#1) :
    ∑ k : Fin 128, (select M x0 (broadcast S128x128 z) : S128x128.Idx → EReal) (ix2 a k) = 0 :=
  Finset.sum_eq_zero fun k _ => by rw [select_apply, hall k, select_zero, broadcast_apply, hz]

/-! ## The masks: words of small numbers -/

/-- Equality of two 32-bit words as the mask bit. -/
theorem cmpi_eq_word (x y : BitVec 32) : IntOp.cmpi .eq x y = if x = y then 1#1 else 0#1 := by
  unfold IntOp.cmpi
  by_cases h : x = y
  · simp [h]
  · have hb : (x == y) = false := beq_eq_false_iff_ne.mpr h
    simp [h, hb]

/-- Numbers below 2^32 are equal as words only if equal. -/
theorem word_inj (m n : Nat) (hm : m < 4294967296) (hn : n < 4294967296)
    (h : BitVec.ofNat 32 m = BitVec.ofNat 32 n) : m = n := by
  have e := congrArg BitVec.toNat h
  rw [BitVec.toNat_ofNat, BitVec.toNat_ofNat] at e
  omega

/-- One less than a positive small number, as words. -/
theorem word_pred (m : Nat) (h0 : 0 < m) (hm : m < 4294967296) :
    IntOp.subi (BitVec.ofNat 32 m) 1#32 = BitVec.ofNat 32 (m - 1) := by
  apply BitVec.eq_of_toNat_eq
  unfold IntOp.subi
  rw [BitVec.toNat_sub, BitVec.toNat_ofNat, BitVec.toNat_ofNat, BitVec.toNat_ofNat]
  omega

/-- Zero less one wraps to the largest word. -/
theorem word_pred_zero : IntOp.subi (BitVec.ofNat 32 0) 1#32 = BitVec.ofNat 32 4294967295 := by decide

/-- One more than a small number, as words. -/
theorem word_succ (m : Nat) (hm : m + 1 < 4294967296) :
    IntOp.addi (BitVec.ofNat 32 m) 1#32 = BitVec.ofNat 32 (m + 1) := by
  apply BitVec.eq_of_toNat_eq
  unfold IntOp.addi
  rw [BitVec.toNat_add, BitVec.toNat_ofNat, BitVec.toNat_ofNat, BitVec.toNat_ofNat]
  omega

/-- The diagonal mask at row `a`, column `k`: column = row. -/
theorem diag_mask (a k : Fin 128) :
    cmpi .eq (iota .tc S128x128 32 [0] iota_S128x128_d0_w32) (iota .tc S128x128 32 [1] iota_S128x128_d1_w32) (ix2 a k)
      = if a = k then 1#1 else 0#1 := by
  show IntOp.cmpi .eq (iota .tc S128x128 32 [0] iota_S128x128_d0_w32 (ix2 a k))
      (iota .tc S128x128 32 [1] iota_S128x128_d1_w32 (ix2 a k)) = _
  rw [iota_single_apply, iota_single_apply, cmpi_eq_word]
  show (if BitVec.ofNat 32 a.val = BitVec.ofNat 32 k.val then 1#1 else 0#1) = _
  have ha := a.isLt; have hk := k.isLt
  by_cases h : a = k
  · subst h; rw [if_pos rfl, if_pos rfl]
  · rw [if_neg h, if_neg (fun e => h (Fin.ext (word_inj _ _ (by omega) (by omega) e)))]

/-- The mask of the entry left of the diagonal at row `a`, column `k`: column = row - 1. -/
theorem lower_mask (a k : Fin 128) :
    cmpi .eq (iota .tc S128x128 32 [1] iota_S128x128_d1_w32)
      (subi (iota .tc S128x128 32 [0] iota_S128x128_d0_w32) (broadcast S128x128 1#32)) (ix2 a k)
      = if k.val + 1 = a.val then 1#1 else 0#1 := by
  show IntOp.cmpi .eq (iota .tc S128x128 32 [1] iota_S128x128_d1_w32 (ix2 a k))
      (IntOp.subi (iota .tc S128x128 32 [0] iota_S128x128_d0_w32 (ix2 a k)) 1#32) = _
  rw [iota_single_apply, iota_single_apply, cmpi_eq_word]
  show (if BitVec.ofNat 32 k.val = IntOp.subi (BitVec.ofNat 32 a.val) 1#32 then 1#1 else 0#1) = _
  have ha := a.isLt; have hk := k.isLt
  by_cases h0 : a.val = 0
  · rw [h0, word_pred_zero, if_neg (fun e => by have := word_inj _ _ (by omega) (by omega) e; omega),
      if_neg (by omega)]
  · rw [word_pred _ (by omega) (by omega)]
    by_cases h : k.val + 1 = a.val
    · rw [if_pos h, if_pos (congrArg (BitVec.ofNat 32) (by omega))]
    · rw [if_neg h, if_neg (fun e => h (by have := word_inj _ _ (by omega) (by omega) e; omega))]

/-- The mask of the entry right of the diagonal at row `a`, column `k`: column = row + 1. -/
theorem upper_mask (a k : Fin 128) :
    cmpi .eq (iota .tc S128x128 32 [1] iota_S128x128_d1_w32)
      (addi (iota .tc S128x128 32 [0] iota_S128x128_d0_w32) (broadcast S128x128 1#32)) (ix2 a k)
      = if k.val = a.val + 1 then 1#1 else 0#1 := by
  show IntOp.cmpi .eq (iota .tc S128x128 32 [1] iota_S128x128_d1_w32 (ix2 a k))
      (IntOp.addi (iota .tc S128x128 32 [0] iota_S128x128_d0_w32 (ix2 a k)) 1#32) = _
  rw [iota_single_apply, iota_single_apply, cmpi_eq_word]
  show (if BitVec.ofNat 32 k.val = IntOp.addi (BitVec.ofNat 32 a.val) 1#32 then 1#1 else 0#1) = _
  have ha := a.isLt; have hk := k.isLt
  rw [word_succ _ (by omega)]
  by_cases h : k.val = a.val + 1
  · rw [if_pos h, if_pos (congrArg (BitVec.ofNat 32) h)]
  · rw [if_neg h, if_neg (fun e => h (word_inj _ _ (by omega) (by omega) e))]

/-! ## The three results at a row -/

/-- The diagonal output at row `a` of the tile is the tile's entry `(a, a)`. -/
theorem k0_pay1_apply (x0 : Vec Ideal S128x128 .f32) (a : Fin 128) :
    (k0_pay1 x0 : S128x1.Idx → EReal) (ix2 a 0) = x0 (ix2 a a) := by
  unfold k0_pay1
  refine (shapeCast_a_a1_apply _ shapeCasts_S128_S128x1 a 0).trans ?_
  refine (lane_sum_apply _ a).trans ?_
  refine masked_sum_single x0 _ _ zero_word a a ?_ ?_
  · rw [diag_mask, if_pos rfl]
  · intro k hk; rw [diag_mask, if_neg (fun e => hk e.symm)]

/-- The left-neighbour output at row `a` is the tile's entry `(a, a - 1)`, away from the first row. -/
theorem k0_pay2_apply (x0 : Vec Ideal S128x128 .f32) (a b : Fin 128) (hb : b.val + 1 = a.val) :
    (k0_pay2 x0 : S128x1.Idx → EReal) (ix2 a 0) = x0 (ix2 a b) := by
  unfold k0_pay2
  refine (shapeCast_a_a1_apply _ shapeCasts_S128_S128x1 a 0).trans ?_
  refine (lane_sum_apply _ a).trans ?_
  refine masked_sum_single x0 _ _ zero_word a b ?_ ?_
  · rw [lower_mask, if_pos hb]
  · intro k hk; rw [lower_mask, if_neg (fun e => hk (Fin.ext (by omega)))]

/-- In the tile's first row the left-neighbour output is zero. -/
theorem k0_pay2_first (x0 : Vec Ideal S128x128 .f32) (a : Fin 128) (h0 : a.val = 0) :
    (k0_pay2 x0 : S128x1.Idx → EReal) (ix2 a 0) = 0 := by
  unfold k0_pay2
  refine (shapeCast_a_a1_apply _ shapeCasts_S128_S128x1 a 0).trans ?_
  refine (lane_sum_apply _ a).trans ?_
  refine masked_sum_none x0 _ _ zero_word a fun k => ?_
  rw [lower_mask, if_neg (by omega)]

/-- The right-neighbour output at row `a` is the tile's entry `(a, a + 1)`, away from the last row. -/
theorem k0_pay3_apply (x0 : Vec Ideal S128x128 .f32) (a b : Fin 128) (hb : b.val = a.val + 1) :
    (k0_pay3 x0 : S128x1.Idx → EReal) (ix2 a 0) = x0 (ix2 a b) := by
  unfold k0_pay3
  refine (shapeCast_a_a1_apply _ shapeCasts_S128_S128x1 a 0).trans ?_
  refine (lane_sum_apply _ a).trans ?_
  refine masked_sum_single x0 _ _ zero_word a b ?_ ?_
  · rw [upper_mask, if_pos hb]
  · intro k hk; rw [upper_mask, if_neg (fun e => hk (Fin.ext (by omega)))]

/-- In the tile's last row the right-neighbour output is zero. -/
theorem k0_pay3_last (x0 : Vec Ideal S128x128 .f32) (a : Fin 128) (h1 : a.val = 127) :
    (k0_pay3 x0 : S128x1.Idx → EReal) (ix2 a 0) = 0 := by
  unfold k0_pay3
  refine (shapeCast_a_a1_apply _ shapeCasts_S128_S128x1 a 0).trans ?_
  refine (lane_sum_apply _ a).trans ?_
  refine masked_sum_none x0 _ _ zero_word a fun k => ?_
  have hk := k.isLt
  rw [upper_mask, if_neg (by omega)]

end Cert.KernelIdeal.BandValue

end
-- ==== Proof.Region0Blocks.lean ====
/-
  The first pass over its whole grid.

  The grid has 64 points. Point `t` stages the diagonal tile of the matrix — rows and columns `128 t … 128 t + 127`
  — and writes rows `128 t … 128 t + 127` of three one-column arrays. By the reading of the body at one row of a
  tile, row `r = 128 t + a` of those arrays receives the matrix's entry `(r, r)`, its entry `(r, r - 1)` unless `a = 0`
  (then zero), and its entry `(r, r + 1)` unless `a = 127` (then zero). Away from the ends of the ring `r - 1` and
  `r + 1` are the ring neighbours `prev r` and `next r`, and a row that is not the first of its tile is not row 0,
  one that is not the last of its tile is not row 8191. The 64 row blocks tile the 8192 rows, so each array ends
  holding one function of the matrix everywhere.
-/
import proofs.«126676_j37838661878516_2_alg».proof.Proof.Gen.KernelIdeal.Frame
import proofs.«126676_j37838661878516_2_alg».proof.Proof.Spec
import proofs.«126676_j37838661878516_2_alg».proof.Proof.Region0Payload
import Idealize.ShloMosaic.Lib.Pipeline.Value

noncomputable section

namespace Cert.KernelIdeal.BandValue

open Cert.KernelIdeal Cert.KernelIdeal.Gen Idealize.ShloMosaic Idealize.ShloMosaic.TcCoe Idealize.SL.Sem
open Idealize.ShloMosaic.ValueIdx Cert.Band

open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- Where each window's block sits at point `t`: the matrix's at the diagonal tile `(t, t)`, the three outputs at
    block row `t`. -/
theorem block_indices0 : ∀ t : Fin cfg0.N,
    win0_0.index t (0 : Fin 2) = t.val ∧ win0_0.index t (1 : Fin 2) = t.val
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The matrix's block at point `t` is its diagonal tile: rows and columns `128 t … 128 t + 127`. -/
theorem tile_apply (c : Dev nD) (t : Fin cfg0.N) (y : S128x128.Idx) (k : SW.Idx)
    (hk0 : (k 0).val = t.val * 128 + (y 0).val) (hk1 : (k 1).val = t.val * 128 + (y 1).val) :
    (iblk0 V c 0 t : Vec Ideal S128x128 .f32) y = (V c main_arg1 : SW.Idx → EReal) k := by
  obtain ⟨e0, e1, -⟩ := block_indices0 t
  unfold iblk0
  rw [View.read_apply]
  show V c main_arg1 _ = V c main_arg1 _
  refine congrArg (V c main_arg1) (funext fun a => Fin.ext ?_)
  match a with
  | ⟨0, _⟩ => show win0_0.index t (0 : Fin 2) * 128 + 1 * (y 0).val = (k 0).val; omega
  | ⟨1, _⟩ => show win0_0.index t (1 : Fin 2) * 128 + 1 * (y 1).val = (k 1).val; omega

/-! ## The diagonal -/

/-- The matrix's diagonal as one column. -/
def diagOf (W : SW.Idx → EReal) : SC.Idx → EReal := fun j => W (ix2 (j 0) (j 0))

/-- One entry of the diagonal output of a point whose tile is the diagonal tile `T` of `W`. -/
theorem diag_entry (W : SW.Idx → EReal) (x0 : Vec Ideal S128x128 .f32) (T : Nat)
    (hx : ∀ (y : S128x128.Idx) (k : SW.Idx), (k 0).val = T * 128 + (y 0).val → (k 1).val = T * 128 + (y 1).val →
      x0 y = W k)
    (j : S128x1.Idx) (i : SC.Idx) (hi0 : (i 0).val = T * 128 + (j 0).val) :
    (k0_pay1 x0 : S128x1.Idx → EReal) j = diagOf W i := by
  obtain ⟨a, u, rfl⟩ : ∃ (a : Fin 128) (u : Fin 1), j = ix2 a u := ⟨j 0, j 1, eq_ix2 j⟩
  obtain rfl : u = 0 := Subsingleton.elim _ _
  obtain ⟨r, u', rfl⟩ : ∃ (r : Fin 8192) (u' : Fin 1), i = ix2 r u' := ⟨i 0, i 1, eq_ix2 i⟩
  rw [k0_pay1_apply]
  exact hx (ix2 a a) (ix2 r r) hi0 hi0

/-- What point `t` writes back to the diagonal output is rows `128 t … 128 t + 127` of the matrix's diagonal. -/
theorem written_diag (c : Dev nD) (t : Fin cfg0.N) :
    (dat0 V c).flushed 2 t = ((cfg0.win 2).blk t).view.read (Elt Ideal) (diagOf (V c main_arg1)) := by
  show (cfg0.win 2).cut (grid0.coords t) ((dat0 V c).after 2 t) = _
  rw [after0_2]
  unfold out0_2
  rw [View.canon_unit_zero zero_offsets0]
  simp only [View.ld_unit_zero (S := S128x128) zero_offsets0]
  obtain ⟨-, -, -, -, e4, e5, -⟩ := block_indices0 t
  funext j
  refine diag_entry (V c main_arg1) (iblk0 V c 0 t) t.val (fun y k h0 h1 => tile_apply V c t y k h0 h1) j
    (((cfg0.win 2).blk t).view.emb j) ?_
  show win0_2.index t (0 : Fin 2) * 128 + 1 * (j 0).val = t.val * 128 + (j 0).val; omega

/-- An index of the diagonal output is in point `t`'s block iff each coordinate is in the block's range. -/
theorem mem_diag_block (t : Fin cfg0.N) (i : SC.Idx) :
    i ∈ ((cfg0.win 2).blk t).view.set ↔ ∀ a : Fin 2, win0_2.index t a * S128x1.size a ≤ (i a).val
      ∧ (i a).val < win0_2.index t a * S128x1.size a + S128x1.size a := by
  show i ∈ ((View.whole main_v0_1).slice (win0_2.rect t)).set ↔ _
  rw [View.set_slice_whole, Rect.mem_set_unit]
  exact Iff.rfl

/-- Every index of the diagonal output is in the block of the point its row falls to: row `r` to point `r / 128`. -/
theorem diag_covered (i : SC.Idx) :
    ∃ t : Fin cfg0.N, (cfg0.win 2).flush t = true ∧ i ∈ ((cfg0.win 2).blk t).view.set := by
  have hN : grid0.N = 64 := N_0
  have h0 : (i 0).val < 8192 := idx2_lt0 i
  have h1 : (i 1).val < 1 := idx2_lt1 i
  obtain ⟨t, ht⟩ : ∃ t : Fin cfg0.N, t.val = (i 0).val / 128 :=
    ⟨⟨(i 0).val / 128, by show (i 0).val / 128 < grid0.N; omega⟩, rfl⟩
  obtain ⟨-, -, -, -, e4, e5, -⟩ := block_indices0 t
  refine ⟨t, flush0_2 t, ?_⟩
  rw [mem_diag_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 1 ≤ (i 1).val ∧ (i 1).val < win0_2.index t (1 : Fin 2) * 1 + 1
    omega

/-- After the first pass, row `r` of the diagonal output is the matrix's entry `(r, r)`. -/
theorem region0_diag (c : Dev nD) (r : Fin 8192) :
    ((dat0 V c).arrAt 2 cfg0.N : SC.Idx → EReal) (ix2 r 0) = (V c main_arg1 : SW.Idx → EReal) (ix2 r r) :=
  congrFun ((dat0 V c).arrAt_eq_of_cover 2 (diagOf (V c main_arg1)) (fun t _ => written_diag V c t) diag_covered)
    (ix2 r 0)

/-! ## The entry left of the diagonal -/

/-- Per row, the matrix's entry left of the diagonal — zero in the first row of each tile. -/
def lowerOf (W : SW.Idx → EReal) : SC.Idx → EReal :=
  fun j => if (j 0).val % 128 = 0 then 0 else W (ix2 (j 0) (prev (j 0)))

/-- One entry of that output of a point whose tile is the diagonal tile `T` of `W`. -/
theorem lower_entry (W : SW.Idx → EReal) (x0 : Vec Ideal S128x128 .f32) (T : Nat)
    (hx : ∀ (y : S128x128.Idx) (k : SW.Idx), (k 0).val = T * 128 + (y 0).val → (k 1).val = T * 128 + (y 1).val →
      x0 y = W k)
    (j : S128x1.Idx) (i : SC.Idx) (hi0 : (i 0).val = T * 128 + (j 0).val) :
    (k0_pay2 x0 : S128x1.Idx → EReal) j = lowerOf W i := by
  obtain ⟨a, u, rfl⟩ : ∃ (a : Fin 128) (u : Fin 1), j = ix2 a u := ⟨j 0, j 1, eq_ix2 j⟩
  obtain rfl : u = 0 := Subsingleton.elim _ _
  obtain ⟨r, u', rfl⟩ : ∃ (r : Fin 8192) (u' : Fin 1), i = ix2 r u' := ⟨i 0, i 1, eq_ix2 i⟩
  have ha := a.isLt
  have hr : r.val = T * 128 + a.val := hi0
  show _ = if r.val % 128 = 0 then 0 else W (ix2 r (prev r))
  by_cases he : a.val = 0
  · rw [k0_pay2_first x0 a he, if_pos (by omega)]
  · rw [if_neg (by omega), k0_pay2_apply x0 a ⟨a.val - 1, by omega⟩ (by show a.val - 1 + 1 = a.val; omega)]
    refine hx (ix2 a ⟨a.val - 1, by omega⟩) (ix2 r (prev r)) hi0 ?_
    show (prev r).val = T * 128 + (a.val - 1)
    rw [prev_val_of_pos r (by omega)]; omega

/-- What point `t` writes back to that output is rows `128 t … 128 t + 127` of it. -/
theorem written_lower (c : Dev nD) (t : Fin cfg0.N) :
    (dat0 V c).flushed 1 t = ((cfg0.win 1).blk t).view.read (Elt Ideal) (lowerOf (V c main_arg1)) := by
  show (cfg0.win 1).cut (grid0.coords t) ((dat0 V c).after 1 t) = _
  rw [after0_1]
  unfold out0_1
  rw [View.canon_unit_zero zero_offsets0]
  simp only [View.ld_unit_zero (S := S128x128) zero_offsets0]
  obtain ⟨-, -, e2, e3, -⟩ := block_indices0 t
  funext j
  refine lower_entry (V c main_arg1) (iblk0 V c 0 t) t.val (fun y k h0 h1 => tile_apply V c t y k h0 h1) j
    (((cfg0.win 1).blk t).view.emb j) ?_
  show win0_1.index t (0 : Fin 2) * 128 + 1 * (j 0).val = t.val * 128 + (j 0).val; omega

/-- An index of that output is in point `t`'s block iff each coordinate is in the block's range. -/
theorem mem_lower_block (t : Fin cfg0.N) (i : SC.Idx) :
    i ∈ ((cfg0.win 1).blk t).view.set ↔ ∀ a : Fin 2, win0_1.index t a * S128x1.size a ≤ (i a).val
      ∧ (i a).val < win0_1.index t a * S128x1.size a + S128x1.size a := by
  show i ∈ ((View.whole main_v0_0).slice (win0_1.rect t)).set ↔ _
  rw [View.set_slice_whole, Rect.mem_set_unit]
  exact Iff.rfl

/-- Every index of that output is in the block of the point its row falls to: row `r` to point `r / 128`. -/
theorem lower_covered (i : SC.Idx) :
    ∃ t : Fin cfg0.N, (cfg0.win 1).flush t = true ∧ i ∈ ((cfg0.win 1).blk t).view.set := by
  have hN : grid0.N = 64 := N_0
  have h0 : (i 0).val < 8192 := idx2_lt0 i
  have h1 : (i 1).val < 1 := idx2_lt1 i
  obtain ⟨t, ht⟩ : ∃ t : Fin cfg0.N, t.val = (i 0).val / 128 :=
    ⟨⟨(i 0).val / 128, by show (i 0).val / 128 < grid0.N; omega⟩, rfl⟩
  obtain ⟨-, -, e2, e3, -⟩ := block_indices0 t
  refine ⟨t, flush0_1 t, ?_⟩
  rw [mem_lower_block]
  intro a
  match a with
  | ⟨0, _⟩ =>
    show win0_1.index t (0 : Fin 2) * 128 ≤ (i 0).val ∧ (i 0).val < win0_1.index t (0 : Fin 2) * 128 + 128
    omega
  | ⟨1, _⟩ =>
    show win0_1.index t (1 : Fin 2) * 1 ≤ (i 1).val ∧ (i 1).val < win0_1.index t (1 : Fin 2) * 1 + 1
    omega

/-- After the first pass, row `r` of the left-neighbour output is the matrix's entry `(r, prev r)`, unless `r` is the first row of a tile. -/
theorem region0_lower (c : Dev nD) (r : Fin 8192) (h : r.val % 128 ≠ 0) :
    ((dat0 V c).arrAt 1 cfg0.N : SC.Idx → EReal) (ix2 r 0) = (V c main_arg1 : SW.Idx → EReal) (ix2 r (prev r)) :=
  (congrFun ((dat0 V c).arrAt_eq_of_cover 1 (lowerOf (V c main_arg1)) (fun t _ => written_lower V c t) lower_covered)
    (ix2 r 0)).trans (if_neg h)

/-! ## The entry right of the diagonal -/

/-- Per row, the matrix's entry right of the diagonal — zero in the last row of each tile. -/
def upperOf (W : SW.Idx → EReal) : SC.Idx → EReal :=
  fun j => if (j 0).val % 128 = 127 then 0 else W (ix2 (j 0) (next (j 0)))

/-- One entry of that output of a point whose tile is the diagonal tile `T` of `W`. -/
theorem upper_entry (W : SW.Idx → EReal) (x0 : Vec Ideal S128x128 .f32) (T : Nat)
    (hx : ∀ (y : S128x128.Idx) (k : SW.Idx), (k 0).val = T * 128 + (y 0).val → (k 1).val = T * 128 + (y 1).val →
      x0 y = W k)
    (j : S128x1.Idx) (i : SC.Idx) (hi0 : (i 0).val = T * 128 + (j 0).val) :
    (k0_pay3 x0 : S128x1.Idx → EReal) j = upperOf W i := by
  obtain ⟨a, u, rfl⟩ : ∃ (a : Fin 128) (u : Fin 1), j = ix2 a u := ⟨j 0, j 1, eq_ix2 j⟩
  obtain rfl : u = 0 := Subsingleton.elim _ _
  obtain ⟨r, u', rfl⟩ : ∃ (r : Fin 8192) (u' : Fin 1), i = ix2 r u' := ⟨i 0, i 1, eq_ix2 i⟩
  have ha := a.isLt
  have hr : r.val = T * 128 + a.val := hi0
  show _ = if r.val % 128 = 127 then 0 else W (ix2 r (next r))
  by_cases he : a.val = 127
  · rw [k0_pay3_last x0 a he, if_pos (by omega)]
  · rw [if_neg (by omega), k0_pay3_apply x0 a ⟨a.val + 1, by omega⟩ (by show a.val + 1 = a.val + 1; omega)]
    refine hx (ix2 a ⟨a.val + 1, by omega⟩) (ix2 r (next r)) hi0 ?_
    show (next r).val = T * 128 + (a.val + 1)
    rw [next_val_of_lt r (by omega)]; omega

/-- What point `t` writes back to that output is rows `128 t … 128 t + 127` of it. -/
theorem written_upper (c : Dev nD) (t : Fin cfg0.N) :
    (dat0 V c).flushed 3 t = ((cfg0.win 3).blk t).view.read (Elt Ideal) (upperOf (V c main_arg1)) := by
  show (cfg0.win 3).cut (grid0.coords t) ((dat0 V c).after 3 t) = _
  rw [after0_3]
  unfold out0_3
  rw [View.canon_unit_zero zero_offsets0]
  simp only [View.ld_unit_zero (S := S128x128) zero_offsets0]
  obtain ⟨-, -, -, -, -, -, e6, e7⟩ := block_indices0 t
  funext j
  refine upper_entry (V c main_arg1) (iblk0 V c 0 t) t.val (fun y k h0 h1 => tile_apply V c t y k h0 h1) j
    (((cfg0.win 3).blk t).view.emb j) ?_
  show win0_3.index t (0 : Fin 2) * 128 + 1 * (j 0).val = t.val * 128 + (j 0).val; omega

/-- An index of that output is in point `t`'s block iff each coordinate is in the block's range. -/
theorem mem_upper_block (t : Fin cfg0.N) (i : SC.Idx) :
    i ∈ ((cfg0.win 3).blk t).view.set ↔ ∀ a : Fin 2, win0_3.index t a * S128x1.size a ≤ (i a).val
      ∧ (i a).val < win0_3.index t a * S128x1.size a + S128x1.size a := by
  show i ∈ ((View.whole main_v0_2).slice (win0_3.rect t)).set ↔ _
  rw [View.set_slice_whole, Rect.mem_set_unit]
  exact Iff.rfl

/-- Every index of that output is in the block of the point its row falls to: row `r` to point `r / 128`. -/
theorem upper_covered (i : SC.Idx) :
    ∃ t : Fin cfg0.N, (cfg0.win 3).flush t = true ∧ i ∈ ((cfg0.win 3).blk t).view.set := by
  have hN : grid0.N = 64 := N_0
  have h0 : (i 0).val < 8192 := idx2_lt0 i
  have h1 : (i 1).val < 1 := idx2_lt1 i
  obtain ⟨t, ht⟩ : ∃ t : Fin cfg0.N, t.val = (i 0).val / 128 :=
    ⟨⟨(i 0).val / 128, by show (i 0).val / 128 < grid0.N; omega⟩, rfl⟩
  obtain ⟨-, -, -, -, -, -, e6, e7⟩ := block_indices0 t
  refine ⟨t, flush0_3 t, ?_⟩
  rw [mem_upper_block]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 1 ≤ (i 1).val ∧ (i 1).val < win0_3.index t (1 : Fin 2) * 1 + 1
    omega

/-- After the first pass, row `r` of the right-neighbour output is the matrix's entry `(r, next r)`, unless `r` is the last row of a tile. -/
theorem region0_upper (c : Dev nD) (r : Fin 8192) (h : r.val % 128 ≠ 127) :
    ((dat0 V c).arrAt 3 cfg0.N : SC.Idx → EReal) (ix2 r 0) = (V c main_arg1 : SW.Idx → EReal) (ix2 r (next r)) :=
  (congrFun ((dat0 V c).arrAt_eq_of_cover 3 (upperOf (V c main_arg1)) (fun t _ => written_upper V c t) upper_covered)
    (ix2 r 0)).trans (if_neg h)

end Cert.KernelIdeal.BandValue

end
-- ==== Proof.Region1Payload.lean ====
/-
  The second pass at one entry.

  The body takes its block of the input (64 rows, all 8192 columns), rotates it along the columns by one step and by
  8191 steps, and combines the three copies with the three coefficient rows. A rotation by `s` puts at column `q` the
  entry that stood at column `q - s` on the ring of 8192 columns: by one step that is the left neighbour `prev q`, by
  8191 steps (one step the other way) the right neighbour `next q`. So the body's result at `(a, q)` is

      x (a, prev q) · rL q  +  x (a, q) · rD q  +  x (a, next q) · rU q,

  the first two products added first.
-/
import proofs.«126676_j37838661878516_2_alg».proof.Proof.Gen.KernelIdeal.Frame
import proofs.«126676_j37838661878516_2_alg».proof.Proof.Spec
import Idealize.ShloMosaic.Lib.ValueLayout
import Idealize.ShloMosaic.Lib.Pipeline.Value

noncomputable section

namespace Cert.KernelIdeal.BandValue

open Cert.KernelIdeal Cert.KernelIdeal.Gen Idealize.ShloMosaic Idealize.ShloMosaic.TcCoe Idealize.SL.Sem
open Idealize.ShloMosaic.ValueIdx Cert.Band

/-- A block rotated by one step along its columns holds at column `q` the entry of column `prev q`. -/
theorem rotate_one_apply {α : Type} (x : S64x8192.Idx → α) (h : S64x8192.Rotates 1 none) (a : Fin 64) (q : Fin 8192) :
    dynamicRotate 1 1#32 none x h (ix2 a q) = x (ix2 a (prev q)) := by
  unfold dynamicRotate
  refine congrArg x (funext fun b => ?_)
  match b with
  | ⟨0, _⟩ => rfl
  | ⟨1, _⟩ =>
    refine Fin.ext ?_
    show (q.val + 8192 - ((1#32 : BitVec 32).toNat + 0) % 8192) % 8192 = (q.val + 8191) % 8192
    have e : (1#32 : BitVec 32).toNat = 1 := rfl
    rw [e]; omega

/-- A block rotated by 8191 steps along its columns holds at column `q` the entry of column `next q`. -/
theorem rotate_last_apply {α : Type} (x : S64x8192.Idx → α) (h : S64x8192.Rotates 1 none) (a : Fin 64) (q : Fin 8192) :
    dynamicRotate 1 8191#32 none x h (ix2 a q) = x (ix2 a (next q)) := by
  unfold dynamicRotate
  refine congrArg x (funext fun b => ?_)
  match b with
  | ⟨0, _⟩ => rfl
  | ⟨1, _⟩ =>
    refine Fin.ext ?_
    show (q.val + 8192 - ((8191#32 : BitVec 32).toNat + 0) % 8192) % 8192 = (q.val + 1) % 8192
    have e : (8191#32 : BitVec 32).toNat = 8191 := rfl
    rw [e]; omega

/-- The body's result at row `a` of its block and column `q`. -/
theorem k1_pay1_apply (x0 : Vec Ideal S64x8192 .f32) (r1 r2 r3 : Vec Ideal S1x8192 .f32) (a : Fin 64) (q : Fin 8192) :
    (k1_pay1 x0 r1 r2 r3 : S64x8192.Idx → EReal) (ix2 a q)
      = x0 (ix2 a (prev q)) * r1 (ix2 0 q) + x0 (ix2 a q) * r2 (ix2 0 q) + x0 (ix2 a (next q)) * r3 (ix2 0 q) := by
  unfold k1_pay1
  simp only [addf_apply, mulf_apply, shapeCast_self, broadcastTo_1b_ab_apply]
  rw [rotate_one_apply x0 rotates_S64x8192_d1 a q, rotate_last_apply x0 rotates_S64x8192_d1 a q]

end Cert.KernelIdeal.BandValue

end
-- ==== Proof.Region1Blocks.lean ====
/-
  The second pass over its whole grid.

  The grid has four points. Point `t` stages rows `64 t … 64 t + 63` of the input (all 8192 columns) and the three
  coefficient rows whole, and writes rows `64 t … 64 t + 63` of the result. What it writes is, entry by entry, the
  ring-band combination of the input's own row with the three coefficient rows (the body's result at an entry only
  looks along the entry's row). The four row blocks tile the 256 rows, so the result array ends holding that
  combination everywhere.
-/
import proofs.«126676_j37838661878516_2_alg».proof.Proof.Gen.KernelIdeal.Frame
import proofs.«126676_j37838661878516_2_alg».proof.Proof.Spec
import proofs.«126676_j37838661878516_2_alg».proof.Proof.Region1Payload
import Idealize.ShloMosaic.Lib.Pipeline.Value

noncomputable section

namespace Cert.KernelIdeal.BandValue

open Cert.KernelIdeal Cert.KernelIdeal.Gen Idealize.ShloMosaic Idealize.ShloMosaic.TcCoe Idealize.SL.Sem
open Idealize.ShloMosaic.ValueIdx Cert.Band

open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at point `t`: the input and the result at block row `t`, the three coefficient
    rows at the one block there is. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The input's block at point `t` is rows `64 t … 64 t + 63` of the input. -/
theorem input_block_apply (c : Dev nD) (t : Fin cfg1.N) (y : S64x8192.Idx) (k : SX.Idx)
    (hk0 : (k 0).val = t.val * 64 + (y 0).val) (hk1 : (k 1).val = (y 1).val) :
    (iblk1 V c 0 t : Vec Ideal S64x8192 .f32) y = (V c main_arg0 : SX.Idx → EReal) k := by
  obtain ⟨e0, e1, -⟩ := block_indices1 t
  unfold iblk1
  rw [View.read_apply]
  show V c main_arg0 _ = V c main_arg0 _
  refine congrArg (V c main_arg0) (funext fun a => Fin.ext ?_)
  match a with
  | ⟨0, _⟩ => show win1_0.index t (0 : Fin 2) * 64 + 1 * (y 0).val = (k 0).val; omega
  | ⟨1, _⟩ => show win1_0.index t (1 : Fin 2) * 8192 + 1 * (y 1).val = (k 1).val; omega

/-- Each coefficient row's one block is the row itself, at every point. -/
theorem lower_row_block (c : Dev nD) (t : Fin cfg1.N) :
    (iblk1 V c 1 t : Vec Ideal S1x8192 .f32) = (V c main_v86 : SR.Idx → EReal) := by
  obtain ⟨-, -, e2, e3, -⟩ := block_indices1 t
  funext y
  unfold iblk1
  rw [View.read_apply]
  show V c main_v86 _ = V c main_v86 _
  refine congrArg (V c main_v86) (funext fun a => Fin.ext ?_)
  match a with
  | ⟨0, _⟩ => show win1_1.index t (0 : Fin 2) * 1 + 1 * (y 0).val = (y 0).val; omega
  | ⟨1, _⟩ => show win1_1.index t (1 : Fin 2) * 8192 + 1 * (y 1).val = (y 1).val; omega

theorem diag_row_block (c : Dev nD) (t : Fin cfg1.N) :
    (iblk1 V c 2 t : Vec Ideal S1x8192 .f32) = (V c main_v88 : SR.Idx → EReal) := by
  obtain ⟨-, -, -, -, e4, e5, -⟩ := block_indices1 t
  funext y
  unfold iblk1
  rw [View.read_apply]
  show V c main_v88 _ = V c main_v88 _
  refine congrArg (V c main_v88) (funext fun a => Fin.ext ?_)
  match a with
  | ⟨0, _⟩ => show win1_2.index t (0 : Fin 2) * 1 + 1 * (y 0).val = (y 0).val; omega
  | ⟨1, _⟩ => show win1_2.index t (1 : Fin 2) * 8192 + 1 * (y 1).val = (y 1).val; omega

theorem upper_row_block (c : Dev nD) (t : Fin cfg1.N) :
    (iblk1 V c 3 t : Vec Ideal S1x8192 .f32) = (V c main_v90 : SR.Idx → EReal) := by
  obtain ⟨-, -, -, -, -, -, e6, e7, -⟩ := block_indices1 t
  funext y
  unfold iblk1
  rw [View.read_apply]
  show V c main_v90 _ = V c main_v90 _
  refine congrArg (V c main_v90) (funext fun a => Fin.ext ?_)
  match a with
  | ⟨0, _⟩ => show win1_3.index t (0 : Fin 2) * 1 + 1 * (y 0).val = (y 0).val; omega
  | ⟨1, _⟩ => show win1_3.index t (1 : Fin 2) * 8192 + 1 * (y 1).val = (y 1).val; omega

/-- One entry of what a point computes, when its input block is rows `64 T …` of an array `X`: the ring-band
    combination of `X`'s row `64 T + a` with the three coefficient rows. -/
theorem block_entry (X : SX.Idx → EReal) (R1 R2 R3 : SR.Idx → EReal)
    (x0 : Vec Ideal S64x8192 .f32) (T : Nat)
    (hx : ∀ (y : S64x8192.Idx) (k : SX.Idx), (k 0).val = T * 64 + (y 0).val → (k 1).val = (y 1).val → x0 y = X k)
    (j : S64x8192.Idx) (i : SX.Idx) (hi0 : (i 0).val = T * 64 + (j 0).val) (hi1 : (i 1).val = (j 1).val) :
    (k1_pay1 x0 R1 R2 R3 : S64x8192.Idx → EReal) j = combineRows X R1 R2 R3 i := by
  obtain ⟨a, q, rfl⟩ : ∃ (a : Fin 64) (q : Fin 8192), j = ix2 a q := ⟨j 0, j 1, eq_ix2 j⟩
  obtain ⟨p, q', rfl⟩ : ∃ (p : Fin 256) (q' : Fin 8192), i = ix2 p q' := ⟨i 0, i 1, eq_ix2 i⟩
  obtain rfl : q' = q := Fin.ext hi1
  rw [k1_pay1_apply, hx (ix2 a (prev q')) (ix2 p (prev q')) hi0 rfl, hx (ix2 a q') (ix2 p q') hi0 rfl,
    hx (ix2 a (next q')) (ix2 p (next q')) hi0 rfl]
  rfl

/-- What point `t` writes back is rows `64 t … 64 t + 63` of the ring-band combination of the arrays the pass finds. -/
theorem written_block1 (c : Dev nD) (t : Fin cfg1.N) :
    (dat1 V c).flushed 4 t = ((cfg1.win 4).blk t).view.read (Elt Ideal)
      (combineRows (V c main_arg0) (V c main_v86) (V c main_v88) (V c main_v90)) := by
  show (cfg1.win 4).cut (grid1.coords t) ((dat1 V c).after 4 t) = _
  rw [after1_4]
  unfold out1_4
  rw [View.canon_unit_zero zero_offsets]
  simp only [View.ld_unit_zero (S := S64x8192) zero_offsets, View.ld_unit_zero (S := S1x8192) zero_offsets]
  rw [lower_row_block V c t, diag_row_block V c t, upper_row_block V c t]
  obtain ⟨-, -, -, -, -, -, -, -, e8, e9⟩ := block_indices1 t
  funext j
  refine block_entry (V c main_arg0) (V c main_v86) (V c main_v88) (V c main_v90) (iblk1 V c 0 t) t.val
    (fun y k h0 h1 => input_block_apply V c t y k h0 h1) j (((cfg1.win 4).blk t).view.emb j) ?_ ?_
  · show win1_4.index t (0 : Fin 2) * 64 + 1 * (j 0).val = t.val * 64 + (j 0).val; omega
  · show win1_4.index t (1 : Fin 2) * 8192 + 1 * (j 1).val = (j 1).val; omega

/-- An index of the result is in point `t`'s block iff each coordinate is in the block's range on its axis. -/
theorem mem_written_block1 (t : Fin cfg1.N) (i : SX.Idx) :
    i ∈ ((cfg1.win 4).blk t).view.set ↔ ∀ a : Fin 2, win1_4.index t a * S64x8192.size a ≤ (i a).val
      ∧ (i a).val < win1_4.index t a * S64x8192.size a + S64x8192.size a := by
  show i ∈ ((View.whole main_v91).slice (win1_4.rect t)).set ↔ _
  rw [View.set_slice_whole, Rect.mem_set_unit]
  exact Iff.rfl

/-- Every index of the result is in the block of the point its row falls to: row `r` to point `r / 64`. -/
theorem rows_covered1 (i : SX.Idx) :
    ∃ t : Fin cfg1.N, (cfg1.win 4).flush t = true ∧ i ∈ ((cfg1.win 4).blk t).view.set := by
  have hN : grid1.N = 4 := N_1
  have h0 : (i 0).val < 256 := idx2_lt0 i
  have h1 : (i 1).val < 8192 := idx2_lt1 i
  obtain ⟨t, ht⟩ : ∃ t : Fin cfg1.N, t.val = (i 0).val / 64 :=
    ⟨⟨(i 0).val / 64, by show (i 0).val / 64 < grid1.N; omega⟩, rfl⟩
  obtain ⟨-, -, -, -, -, -, -, -, e8, e9⟩ := block_indices1 t
  refine ⟨t, flush1_4 t, ?_⟩
  rw [mem_written_block1]
  intro a
  match a with
  | ⟨0, _⟩ =>
    show win1_4.index t (0 : Fin 2) * 64 ≤ (i 0).val ∧ (i 0).val < win1_4.index t (0 : Fin 2) * 64 + 64
    omega
  | ⟨1, _⟩ =>
    show win1_4.index t (1 : Fin 2) * 8192 ≤ (i 1).val ∧ (i 1).val < win1_4.index t (1 : Fin 2) * 8192 + 8192
    omega

/-- After the second pass the result array is the ring-band combination of the arrays the pass found. -/
theorem region1_value (c : Dev nD) :
    ((dat1 V c).arrAt 4 cfg1.N : SX.Idx → EReal)
      = combineRows (V c main_arg0) (V c main_v86) (V c main_v88) (V c main_v90) :=
  (dat1 V c).arrAt_eq_of_cover 4 (combineRows (V c main_arg0) (V c main_v86) (V c main_v88) (V c main_v90))
    (fun t _ => written_block1 V c t) rows_covered1

end Cert.KernelIdeal.BandValue

end
-- ==== Proof.HostTerms.lean ====
/-
  The host operations between the two passes, as terms.

  Between the pass that extracts the three diagonals tile by tile and the pass that combines them with the input,
  the program repairs the 64 + 64 entries the first pass could not see (a tile's first row has its left ring
  neighbour in another tile, a tile's last row its right one) and multiplies each diagonal by its coefficient.
  This module names the pieces of that computation, each EXACTLY the composition of the program's operations:

  * the row numbers `128 k` (`rowLo`) and `128 k + 127` (`rowHi`) of the tile edges, as vectors of 64 words;
  * the floored remainder by a scalar (`remV`), the way the program's call inlines it;
  * "add `8192` if negative" (`fixNegV`), the index column and the two-column index table built from it;
  * the 64-entry read of the matrix at a table of (row, column) pairs (`gath`) and the 64-entry overwrite of a
    diagonal at a column of rows (`patch`);
  * the three coefficient vectors as functions of the bias (`coefLower`, `coefDiag`, `coefUpper`): one plus the
    bias, its square and its cube, each with its first and last entry replaced by an entry of another of the three.
    These are carried as opaque functions of the bias: nothing below looks inside them.
-/
import proofs.«126676_j37838661878516_2_alg».proof.Proof.Gen.KernelIdeal.Frame
import proofs.«126676_j37838661878516_2_alg».proof.Proof.Spec

noncomputable section

namespace Cert.KernelIdeal.BandValue

open Cert.KernelIdeal Cert.KernelIdeal.Gen Idealize.ShloMosaic Idealize.ShloMosaic.TcCoe Idealize.SL.Sem
open Idealize.ShloMosaic.ValueIdx Cert.Band

/-- A word repeated 64 times. -/
def splat64 (w : BitVec 32) : IVec S64 32 := broadcastInDim S64 ![] bcast_S_S64 (constantI S_ 32 w)

/-- The first row of each tile: `128 k`. -/
def rowLo : IVec S64 32 := muli (iotaInDim S64 32 0) (splat64 128#32)
/-- The last row of each tile: `128 k + 127`. -/
def rowHi : IVec S64 32 := addi rowLo (splat64 127#32)
/-- One less than the first row. -/
def rowLoPred : IVec S64 32 := subi rowLo (splat64 1#32)
/-- One more than the last row. -/
def rowHiSucc : IVec S64 32 := addi rowHi (splat64 1#32)

/-- The divisor of the floored remainder: `n`, or `1` when `n = 0`. -/
def divisorV (n : IVec S_ 32) : IVec S_ 32 :=
  select (cmpi .eq (id n) (constantI S_ 32 0#32)) (constantI S_ 32 1#32) (id n)
/-- The truncated remainder of each word by the divisor. -/
def truncRemV (a : IVec S64 32) (n : IVec S_ 32) : IVec S64 32 :=
  Host.remsi a (broadcastInDim S64 ![] bcast_S_S64 (divisorV n))
/-- The floored remainder of each word by `n`: the truncated remainder, plus the divisor where the remainder is not
    zero and its sign differs from the divisor's. -/
def remV (a : IVec S64 32) (n : IVec S_ 32) : IVec S64 32 :=
  select
    (andi
      (cmpi .ne (cmpi .slt (truncRemV a n) (splat64 0#32))
        (broadcastInDim S64 ![] bcast_S_S64 (cmpi .slt (divisorV n) (constantI S_ 32 0#32))))
      (cmpi .ne (truncRemV a n) (splat64 0#32)))
    (addi (truncRemV a n) (broadcastInDim S64 ![] bcast_S_S64 (divisorV n)))
    (truncRemV a n)

/-- "Add `8192` if negative", word by word. -/
def fixNegV (a : IVec S64 32) : IVec S64 32 :=
  select (cmpi .slt a (splat64 0#32)) (addi a (splat64 8192#32)) a
/-- The normalised words as a column `[64, 1]`. -/
def colV (a : IVec S64 32) : IVec S64x1 32 := broadcastInDim S64x1 ![0] bcast_S64_S64x1_0 (fixNegV a)
/-- The table `[64, 2]` of (row, column) pairs. -/
def tableV (a b : IVec S64 32) : IVec S64x2 32 :=
  concatenate S64x2 1 [⟨S64x1, colV a⟩, ⟨S64x1, colV b⟩] concatenates_S64x1_S64x1_S64x2_d1

/-- The matrix read at the 64 (row, column) pairs. -/
def gath (W : S8192x8192.Idx → EReal) (a b : IVec S64 32) : S64.Idx → EReal :=
  Host.gather gather_S8192x8192_S64x2_S64_n_01_n_n_01_1_11 W (tableV a b)
/-- A diagonal with its entries at the 64 rows `a` overwritten by `u`. -/
def patch (v : S8192.Idx → EReal) (a : IVec S64 32) (u : S64.Idx → EReal) : S8192.Idx → EReal :=
  Host.scatter scatter_S8192_S64x1_S64_n_0_0_1 (fun _ b => b) v (colV a) u

/-- The coefficient of the lower diagonal, from the bias. -/
def coefLower (b : SB.Idx → EReal) : SB.Idx → EReal :=
  (Host.scatter scatter_S8192_S1_S__n_0_0_0 (fun _ u => u) (Host.scatter scatter_S8192_S1_S__n_0_0_0 (fun _ u => u) (mulf (mulf (addf (broadcastInDim S8192 ![] bcast_S_S8192 (constant (F := Ideal) S_ .f32 0x3F800000#32)) b) (addf (broadcastInDim S8192 ![] bcast_S_S8192 (constant (F := Ideal) S_ .f32 0x3F800000#32)) b)) (addf (broadcastInDim S8192 ![] bcast_S_S8192 (constant (F := Ideal) S_ .f32 0x3F800000#32)) b)) (broadcastInDim S1 ![] bcast_S_S1 (constantI S_ 32 0#32)) (shapeCast S_ (extractStridedSlice S1 ![0] (addf (broadcastInDim S8192 ![] bcast_S_S8192 (constant (F := Ideal) S_ .f32 0x3F800000#32)) b) slices_S8192_S1_0) shapeCasts_S1_S_)) (broadcastInDim S1 ![] bcast_S_S1 (constantI S_ 32 8191#32)) (shapeCast S_ (extractStridedSlice S1 ![8191] (mulf (addf (broadcastInDim S8192 ![] bcast_S_S8192 (constant (F := Ideal) S_ .f32 0x3F800000#32)) b) (addf (broadcastInDim S8192 ![] bcast_S_S8192 (constant (F := Ideal) S_ .f32 0x3F800000#32)) b)) slices_S8192_S1_8191) shapeCasts_S1_S_))
/-- The coefficient of the diagonal, from the bias. -/
def coefDiag (b : SB.Idx → EReal) : SB.Idx → EReal :=
  (Host.scatter scatter_S8192_S1_S__n_0_0_0 (fun _ u => u) (Host.scatter scatter_S8192_S1_S__n_0_0_0 (fun _ u => u) (mulf (addf (broadcastInDim S8192 ![] bcast_S_S8192 (constant (F := Ideal) S_ .f32 0x3F800000#32)) b) (addf (broadcastInDim S8192 ![] bcast_S_S8192 (constant (F := Ideal) S_ .f32 0x3F800000#32)) b)) (broadcastInDim S1 ![] bcast_S_S1 (constantI S_ 32 0#32)) (shapeCast S_ (extractStridedSlice S1 ![0] (mulf (mulf (addf (broadcastInDim S8192 ![] bcast_S_S8192 (constant (F := Ideal) S_ .f32 0x3F800000#32)) b) (addf (broadcastInDim S8192 ![] bcast_S_S8192 (constant (F := Ideal) S_ .f32 0x3F800000#32)) b)) (addf (broadcastInDim S8192 ![] bcast_S_S8192 (constant (F := Ideal) S_ .f32 0x3F800000#32)) b)) slices_S8192_S1_0) shapeCasts_S1_S_)) (broadcastInDim S1 ![] bcast_S_S1 (constantI S_ 32 8191#32)) (shapeCast S_ (extractStridedSlice S1 ![8191] (addf (broadcastInDim S8192 ![] bcast_S_S8192 (constant (F := Ideal) S_ .f32 0x3F800000#32)) b) slices_S8192_S1_8191) shapeCasts_S1_S_))
/-- The coefficient of the upper diagonal, from the bias. -/
def coefUpper (b : SB.Idx → EReal) : SB.Idx → EReal :=
  (Host.scatter scatter_S8192_S1_S__n_0_0_0 (fun _ u => u) (Host.scatter scatter_S8192_S1_S__n_0_0_0 (fun _ u => u) (addf (broadcastInDim S8192 ![] bcast_S_S8192 (constant (F := Ideal) S_ .f32 0x3F800000#32)) b) (broadcastInDim S1 ![] bcast_S_S1 (constantI S_ 32 0#32)) (shapeCast S_ (extractStridedSlice S1 ![0] (mulf (addf (broadcastInDim S8192 ![] bcast_S_S8192 (constant (F := Ideal) S_ .f32 0x3F800000#32)) b) (addf (broadcastInDim S8192 ![] bcast_S_S8192 (constant (F := Ideal) S_ .f32 0x3F800000#32)) b)) slices_S8192_S1_0) shapeCasts_S1_S_)) (broadcastInDim S1 ![] bcast_S_S1 (constantI S_ 32 8191#32)) (shapeCast S_ (extractStridedSlice S1 ![8191] (mulf (mulf (addf (broadcastInDim S8192 ![] bcast_S_S8192 (constant (F := Ideal) S_ .f32 0x3F800000#32)) b) (addf (broadcastInDim S8192 ![] bcast_S_S8192 (constant (F := Ideal) S_ .f32 0x3F800000#32)) b)) (addf (broadcastInDim S8192 ![] bcast_S_S8192 (constant (F := Ideal) S_ .f32 0x3F800000#32)) b)) slices_S8192_S1_8191) shapeCasts_S1_S_))

end Cert.KernelIdeal.BandValue
end
-- ==== Proof.HostStagesShort.lean ====
/-
  The four short stretches of host operations, read buffer by buffer.

  Each statement is about ONE stretch applied to arbitrary buffer contents `X`: the buffers a later stretch reads
  are given as the composition of this stretch's operations over `X`'s buffers (the terms named in the previous
  module), and a buffer the stretch does not write is unchanged. Nothing is evaluated here.
-/
import proofs.«126676_j37838661878516_2_alg».proof.Proof.Gen.KernelIdeal.Frame
import proofs.«126676_j37838661878516_2_alg».proof.Proof.Spec
import proofs.«126676_j37838661878516_2_alg».proof.Proof.HostTerms

noncomputable section

namespace Cert.KernelIdeal.BandValue

open Cert.KernelIdeal Cert.KernelIdeal.Gen Idealize.ShloMosaic Idealize.ShloMosaic.TcCoe Idealize.SL.Sem
open Idealize.ShloMosaic.ValueIdx Cert.Band
open Idealize.ShloMosaic.StableHlo

variable (X : Valuation τ sig (Elt Ideal))

/-- A transport along an equation of types and back is the identity. -/
private theorem cast_cast_self {α β : Sort _} (h1 : α = β) (h2 : β = α) (a : α) : cast h2 (cast h1 a) = a := by
  subst h1; rfl

/-! ## First stretch: the three diagonals flattened, the tile-edge row numbers -/

theorem stA_v1 : (StableHlo.after hostOps1 X (main_v1 : DevRef τ sig) : S8192.Idx → EReal)
    = shapeCast S8192 (X (main_v0_0 : DevRef τ sig) : S8192x1.Idx → EReal) shapeCasts_S8192x1_S8192 := by
  after_results <;> rfl
theorem stA_v2 : (StableHlo.after hostOps1 X (main_v2 : DevRef τ sig) : S8192.Idx → EReal)
    = shapeCast S8192 (X (main_v0_1 : DevRef τ sig) : S8192x1.Idx → EReal) shapeCasts_S8192x1_S8192 := by
  after_results <;> rfl
theorem stA_v3 : (StableHlo.after hostOps1 X (main_v3 : DevRef τ sig) : S8192.Idx → EReal)
    = shapeCast S8192 (X (main_v0_2 : DevRef τ sig) : S8192x1.Idx → EReal) shapeCasts_S8192x1_S8192 := by
  after_results <;> rfl
theorem stA_v6 : (StableHlo.after hostOps1 X (main_v6 : DevRef τ sig) : IVec S64 32) = rowLo := by
  after_results <;> rfl
theorem stA_v8 : (StableHlo.after hostOps1 X (main_v8 : DevRef τ sig) : IVec S64 32) = rowHi := by
  after_results <;> rfl
theorem stA_v10 : (StableHlo.after hostOps1 X (main_v10 : DevRef τ sig) : IVec S64 32) = rowLoPred := by
  after_results <;> rfl
theorem stA_c2 : (StableHlo.after hostOps1 X (main_c_2 : DevRef τ sig) : IVec S_ 32) = constantI S_ 32 8192#32 := by
  after_results <;> rfl
theorem keepA_arg0 : StableHlo.after hostOps1 X (main_arg0 : DevRef τ sig) = X (main_arg0 : DevRef τ sig) := by
  after_results
theorem keepA_arg1 : StableHlo.after hostOps1 X (main_arg1 : DevRef τ sig) = X (main_arg1 : DevRef τ sig) := by
  after_results
theorem keepA_arg2 : StableHlo.after hostOps1 X (main_arg2 : DevRef τ sig) = X (main_arg2 : DevRef τ sig) := by
  after_results

/-! ## Second stretch: the floored remainder of (first row - 1) -/

theorem stB_v11 : (StableHlo.after hostOps1_1 X (main_v11 : DevRef τ sig) : IVec S64 32)
    = remV (X (main_v10 : DevRef τ sig)) (X (main_c_2 : DevRef τ sig)) := by
  after_results_simp
  simp only [StableHlo.TRef.toBuf, StableHlo.TRef.ofBuf, cast_cast_self, cast_eq]
  rfl
theorem keepB_v1 : StableHlo.after hostOps1_1 X (main_v1 : DevRef τ sig) = X (main_v1 : DevRef τ sig) := by
  after_results
theorem keepB_v2 : StableHlo.after hostOps1_1 X (main_v2 : DevRef τ sig) = X (main_v2 : DevRef τ sig) := by
  after_results
theorem keepB_v3 : StableHlo.after hostOps1_1 X (main_v3 : DevRef τ sig) = X (main_v3 : DevRef τ sig) := by
  after_results
theorem keepB_v6 : StableHlo.after hostOps1_1 X (main_v6 : DevRef τ sig) = X (main_v6 : DevRef τ sig) := by
  after_results
theorem keepB_v8 : StableHlo.after hostOps1_1 X (main_v8 : DevRef τ sig) = X (main_v8 : DevRef τ sig) := by
  after_results
theorem keepB_arg0 : StableHlo.after hostOps1_1 X (main_arg0 : DevRef τ sig) = X (main_arg0 : DevRef τ sig) := by
  after_results
theorem keepB_arg1 : StableHlo.after hostOps1_1 X (main_arg1 : DevRef τ sig) = X (main_arg1 : DevRef τ sig) := by
  after_results
theorem keepB_arg2 : StableHlo.after hostOps1_1 X (main_arg2 : DevRef τ sig) = X (main_arg2 : DevRef τ sig) := by
  after_results

/-! ## Third stretch: the matrix read left of the tiles' first rows; (last row + 1) -/

theorem stC_v25 : (StableHlo.after hostOps1_2 X (main_v25 : DevRef τ sig) : S64.Idx → EReal)
    = gath (X (main_arg1 : DevRef τ sig)) (X (main_v6 : DevRef τ sig)) (X (main_v11 : DevRef τ sig)) := by
  after_results_simp
  rfl
theorem stC_v27 : (StableHlo.after hostOps1_2 X (main_v27 : DevRef τ sig) : IVec S64 32)
    = addi (X (main_v8 : DevRef τ sig) : IVec S64 32) (splat64 1#32) := by
  after_results <;> rfl
theorem stC_c8 : (StableHlo.after hostOps1_2 X (main_c_8 : DevRef τ sig) : IVec S_ 32) = constantI S_ 32 8192#32 := by
  after_results <;> rfl
theorem keepC_v1 : StableHlo.after hostOps1_2 X (main_v1 : DevRef τ sig) = X (main_v1 : DevRef τ sig) := by
  after_results
theorem keepC_v2 : StableHlo.after hostOps1_2 X (main_v2 : DevRef τ sig) = X (main_v2 : DevRef τ sig) := by
  after_results
theorem keepC_v3 : StableHlo.after hostOps1_2 X (main_v3 : DevRef τ sig) = X (main_v3 : DevRef τ sig) := by
  after_results
theorem keepC_v6 : StableHlo.after hostOps1_2 X (main_v6 : DevRef τ sig) = X (main_v6 : DevRef τ sig) := by
  after_results
theorem keepC_v8 : StableHlo.after hostOps1_2 X (main_v8 : DevRef τ sig) = X (main_v8 : DevRef τ sig) := by
  after_results
theorem keepC_arg0 : StableHlo.after hostOps1_2 X (main_arg0 : DevRef τ sig) = X (main_arg0 : DevRef τ sig) := by
  after_results
theorem keepC_arg1 : StableHlo.after hostOps1_2 X (main_arg1 : DevRef τ sig) = X (main_arg1 : DevRef τ sig) := by
  after_results
theorem keepC_arg2 : StableHlo.after hostOps1_2 X (main_arg2 : DevRef τ sig) = X (main_arg2 : DevRef τ sig) := by
  after_results

/-! ## Fourth stretch: the floored remainder of (last row + 1) -/

theorem stD_v28 : (StableHlo.after hostOps1_3 X (main_v28 : DevRef τ sig) : IVec S64 32)
    = remV (X (main_v27 : DevRef τ sig)) (X (main_c_8 : DevRef τ sig)) := by
  after_results_simp
  simp only [StableHlo.TRef.toBuf, StableHlo.TRef.ofBuf, cast_cast_self, cast_eq]
  rfl
theorem keepD_v1 : StableHlo.after hostOps1_3 X (main_v1 : DevRef τ sig) = X (main_v1 : DevRef τ sig) := by
  after_results
theorem keepD_v2 : StableHlo.after hostOps1_3 X (main_v2 : DevRef τ sig) = X (main_v2 : DevRef τ sig) := by
  after_results
theorem keepD_v3 : StableHlo.after hostOps1_3 X (main_v3 : DevRef τ sig) = X (main_v3 : DevRef τ sig) := by
  after_results
theorem keepD_v6 : StableHlo.after hostOps1_3 X (main_v6 : DevRef τ sig) = X (main_v6 : DevRef τ sig) := by
  after_results
theorem keepD_v8 : StableHlo.after hostOps1_3 X (main_v8 : DevRef τ sig) = X (main_v8 : DevRef τ sig) := by
  after_results
theorem keepD_v25 : StableHlo.after hostOps1_3 X (main_v25 : DevRef τ sig) = X (main_v25 : DevRef τ sig) := by
  after_results
theorem keepD_arg0 : StableHlo.after hostOps1_3 X (main_arg0 : DevRef τ sig) = X (main_arg0 : DevRef τ sig) := by
  after_results
theorem keepD_arg1 : StableHlo.after hostOps1_3 X (main_arg1 : DevRef τ sig) = X (main_arg1 : DevRef τ sig) := by
  after_results
theorem keepD_arg2 : StableHlo.after hostOps1_3 X (main_arg2 : DevRef τ sig) = X (main_arg2 : DevRef τ sig) := by
  after_results

end Cert.KernelIdeal.BandValue
end
-- ==== Proof.HostStageLong.lean ====
/-
  The long stretch of host operations, read at the three rows the second pass takes.

  Over arbitrary buffer contents `X`: the lower-diagonal row is the coefficient (a function of the bias) times the
  flattened lower diagonal with its tile-first-row entries overwritten by the entries read from the matrix; the
  diagonal row is its coefficient times the flattened diagonal; the upper-diagonal row is its coefficient times the
  flattened upper diagonal with its tile-last-row entries overwritten by entries this stretch itself reads from
  the matrix. Each is then laid out as one row of 8192 columns. The input array is not written.
-/
import proofs.«126676_j37838661878516_2_alg».proof.Proof.Gen.KernelIdeal.Frame
import proofs.«126676_j37838661878516_2_alg».proof.Proof.Spec
import proofs.«126676_j37838661878516_2_alg».proof.Proof.HostTerms

noncomputable section

namespace Cert.KernelIdeal.BandValue

open Cert.KernelIdeal Cert.KernelIdeal.Gen Idealize.ShloMosaic Idealize.ShloMosaic.TcCoe Idealize.SL.Sem
open Idealize.ShloMosaic.ValueIdx Cert.Band
open Idealize.ShloMosaic.StableHlo

variable (X : Valuation τ sig (Elt Ideal))

theorem stE_v86 : (StableHlo.after hostOps1_4 X (main_v86 : DevRef τ sig) : SR.Idx → EReal)
    = shapeCast S1x8192 (mulf (F := Ideal) (φ := .f32) (coefLower (X (main_arg2 : DevRef τ sig)))
        (patch (X (main_v1 : DevRef τ sig)) (X (main_v6 : DevRef τ sig)) (X (main_v25 : DevRef τ sig))))
        shapeCasts_S8192_S1x8192 := by
  after_results_simp
  rfl

theorem stE_v88 : (StableHlo.after hostOps1_4 X (main_v88 : DevRef τ sig) : SR.Idx → EReal)
    = shapeCast S1x8192 (mulf (F := Ideal) (φ := .f32) (coefDiag (X (main_arg2 : DevRef τ sig)))
        (X (main_v2 : DevRef τ sig) : S8192.Idx → EReal)) shapeCasts_S8192_S1x8192 := by
  after_results_simp
  rfl

theorem stE_v90 : (StableHlo.after hostOps1_4 X (main_v90 : DevRef τ sig) : SR.Idx → EReal)
    = shapeCast S1x8192 (mulf (F := Ideal) (φ := .f32) (coefUpper (X (main_arg2 : DevRef τ sig)))
        (patch (X (main_v3 : DevRef τ sig)) (X (main_v8 : DevRef τ sig))
          (gath (X (main_arg1 : DevRef τ sig)) (X (main_v8 : DevRef τ sig)) (X (main_v28 : DevRef τ sig)))))
        shapeCasts_S8192_S1x8192 := by
  after_results_simp
  rfl

theorem keepE_arg0 : StableHlo.after hostOps1_4 X (main_arg0 : DevRef τ sig) = X (main_arg0 : DevRef τ sig) := by
  after_results_simp

end Cert.KernelIdeal.BandValue
end
-- ==== Proof.HostWords.lean ====
/-
  Index words of the tile edges.

  The 8192 rows fall into 64 tiles of 128. The first row of tile `k` is `128 k`, its last row `128 k + 127`.
  The ring neighbour to the left of a tile's first row is `(128 k - 1) mod 8192`, the one to the right of its last
  row `(128 k + 128) mod 8192`. The host program computes these four families as 32-bit words: a product with
  `128`, sums with `127` and `1`, a floored remainder by `8192` (a truncated remainder followed by a correction
  of the sign), and a final "add `8192` if negative". This module states each step on one word and evaluates the
  four chains at every `k < 64`: each word read as a signed integer is the expected natural number.
-/
import Idealize.ShloMosaic.PureOps.Vector

namespace Cert.Band.Words

open Idealize.ShloMosaic

/-- "Add `8192` if negative": the normalisation of a possibly negative index. -/
def fixNeg (x : BitVec 32) : BitVec 32 :=
  Scalar.select (IntOp.cmpi .slt x 0#32) (IntOp.addi x 8192#32) x

/-- The divisor the floored remainder really divides by: `n`, or `1` when `n = 0`. -/
def divisor (n : BitVec 32) : BitVec 32 :=
  Scalar.select (IntOp.cmpi .eq n 0#32) 1#32 n

/-- The floored remainder of `x` by `n`: the truncated remainder `r`, plus the divisor when `r ≠ 0` and the
    signs of `r` and of the divisor differ. -/
def flooredRem (x n : BitVec 32) : BitVec 32 :=
  Scalar.select
    (IntOp.andi
      (IntOp.cmpi .ne (IntOp.cmpi .slt (IntOp.remsi .host x (divisor n)) 0#32) (IntOp.cmpi .slt (divisor n) 0#32))
      (IntOp.cmpi .ne (IntOp.remsi .host x (divisor n)) 0#32))
    (IntOp.addi (IntOp.remsi .host x (divisor n)) (divisor n))
    (IntOp.remsi .host x (divisor n))

/-- The first row of tile `k`. -/
def lo (k : Fin 64) : BitVec 32 := IntOp.muli (BitVec.ofNat 32 k.val) 128#32
/-- The last row of tile `k`. -/
def hi (k : Fin 64) : BitVec 32 := IntOp.addi (lo k) 127#32
/-- The column left of the first row's diagonal entry, on the ring. -/
def loPrev (k : Fin 64) : BitVec 32 := flooredRem (IntOp.subi (lo k) 1#32) 8192#32
/-- The column right of the last row's diagonal entry, on the ring. -/
def hiNext (k : Fin 64) : BitVec 32 := flooredRem (IntOp.addi (hi k) 1#32) 8192#32

/-- The normalised first row of tile `k` is `128 k`. -/
theorem fixNeg_lo : ∀ k : Fin 64, (fixNeg (lo k)).toInt = ((128 * k.val : Nat) : Int) := by decide +kernel
/-- The normalised last row of tile `k` is `128 k + 127`. -/
theorem fixNeg_hi : ∀ k : Fin 64, (fixNeg (hi k)).toInt = ((128 * k.val + 127 : Nat) : Int) := by decide +kernel
/-- The normalised left neighbour of the first row is `(128 k + 8191) mod 8192`. -/
theorem fixNeg_loPrev : ∀ k : Fin 64, (fixNeg (loPrev k)).toInt = (((128 * k.val + 8191) % 8192 : Nat) : Int) := by
  decide +kernel
/-- The normalised right neighbour of the last row is `(128 k + 127 + 1) mod 8192`. -/
theorem fixNeg_hiNext : ∀ k : Fin 64, (fixNeg (hiNext k)).toInt = (((128 * k.val + 127 + 1) % 8192 : Nat) : Int) := by
  decide +kernel

/-- The first row of tile `k` as a row of the matrix. -/
def loRow (k : Fin 64) : Fin 8192 := ⟨128 * k.val, by have := k.isLt; omega⟩
/-- The last row of tile `k` as a row of the matrix. -/
def hiRow (k : Fin 64) : Fin 8192 := ⟨128 * k.val + 127, by have := k.isLt; omega⟩

theorem loRow_val (k : Fin 64) : (loRow k).val = 128 * k.val := rfl
theorem hiRow_val (k : Fin 64) : (hiRow k).val = 128 * k.val + 127 := rfl
/-- Distinct tiles have distinct first rows. -/
theorem loRow_injective : Function.Injective loRow := fun a b h => by
  have := congrArg Fin.val h; rw [loRow_val, loRow_val] at this; exact Fin.ext (by omega)
/-- Distinct tiles have distinct last rows. -/
theorem hiRow_injective : Function.Injective hiRow := fun a b h => by
  have := congrArg Fin.val h; rw [hiRow_val, hiRow_val] at this; exact Fin.ext (by omega)

end Cert.Band.Words
-- ==== Proof.HostScatter.lean ====
/-
  Writing 64 entries of a vector of 8192, read at an index.

  A scatter whose body returns the update is a left fold over the 64 updates: step `k` overwrites the entry at the
  `k`-th target row, when that row is in range, and leaves every other entry. When all 64 target rows are in range
  and pairwise distinct, the order of the steps does not matter: afterwards the entry at target row `r k` is update
  `k`, and an entry at a row that is no target is the old one. The first half of this module proves that for any
  fold of "overwrite one entry" steps; the second opens the dimension numbers of the one scatter shape used here
  (a column of 64 row numbers, one scalar update per row number) and reads off its target rows.
-/
import Idealize.ShloMosaic.PureOps.ShapeOps
import Idealize.ShloMosaic.Lib.ValueIdx

namespace Cert.Band

open Idealize.ShloMosaic Idealize.ShloMosaic.ValueIdx

section Fold

variable {ι κ α : Type} (ridx : κ → Option ι) (upd : κ → α) (F : (ι → α) → κ → ι → α)
  (hhit : ∀ r n i, ridx n = some i → F r n i = upd n)
  (hkeep : ∀ r n i i', ridx n = some i → i' ≠ i → F r n i' = r i')
  (hnone : ∀ r n, ridx n = none → F r n = r)

include hkeep hnone in
/-- An entry no step targets keeps its old value. -/
theorem foldl_set_miss (i' : ι) :
    ∀ (l : List κ) (x : ι → α), (∀ n ∈ l, ridx n ≠ some i') → l.foldl F x i' = x i'
  | [], _, _ => rfl
  | n :: l, x, h => by
    rw [List.foldl_cons, foldl_set_miss i' l _ fun m hm => h m (List.mem_cons_of_mem _ hm)]
    cases hn : ridx n with
    | none => rw [hnone x n hn]
    | some i => exact hkeep x n i i' hn fun e => h n List.mem_cons_self (e ▸ hn)

include hhit hkeep hnone in
/-- An entry exactly one step `n₀` targets ends at that step's update. -/
theorem foldl_set_hit (i' : ι) (n₀ : κ) (h₀ : ridx n₀ = some i') :
    ∀ (l : List κ) (x : ι → α), n₀ ∈ l → (∀ n ∈ l, ridx n = some i' → n = n₀) → l.foldl F x i' = upd n₀
  | [], _, hm, _ => absurd hm List.not_mem_nil
  | n :: l, x, hm, hu => by
    rw [List.foldl_cons]
    by_cases hl : n₀ ∈ l
    · exact foldl_set_hit i' n₀ h₀ l _ hl fun m hm' => hu m (List.mem_cons_of_mem _ hm')
    · have hn : n = n₀ := by
        rcases List.mem_cons.mp hm with h | h
        · exact h.symm
        · exact absurd h hl
      rw [foldl_set_miss ridx F hkeep hnone i' l _ fun m hm' e =>
        hl (hu m (List.mem_cons_of_mem _ hm') e ▸ hm'), hn]
      exact hhit x n₀ i' h₀

end Fold

/-- The dimension numbers of "write one scalar at each of 64 row numbers" into a vector of 8192: the row numbers
    arrive as a column `[64, 1]`, the one operand axis is inserted, there is no window. -/
abbrev setDims (wf : ScatterDims.WF ⟨1, ![8192]⟩ ⟨2, ![64, 1]⟩ ⟨1, ![64]⟩ [] [0] [0] 1) :
    ScatterDims ⟨1, ![8192]⟩ ⟨2, ![64, 1]⟩ ⟨1, ![64]⟩ where
  updateWindowDims := []
  insertedWindowDims := [0]
  scatterDimsToOperandDims := [0]
  indexVectorDim := 1
  wf := wf

section SetRows

variable (wf : ScatterDims.WF ⟨1, ![8192]⟩ ⟨2, ![64, 1]⟩ ⟨1, ![64]⟩ [] [0] [0] 1)
  (idx : IVec ⟨2, ![64, 1]⟩ 32)

/-- Update `k`'s window starts at the row number in row `k` of the column, read as a signed integer. -/
theorem setDims_start (k : Fin 64) : (setDims wf).start (ix1 k) idx 0 = (idx (ix2 k 0)).toInt := by
  unfold ScatterDims.start
  rw [dif_pos (show (0 : Fin 1) ∈ (setDims wf).scatterDimsToOperandDims from List.mem_singleton.mpr rfl)]
  have hsi : (setDims wf).siIdx (ix1 k) ⟨List.idxOf (0 : Fin 1) (setDims wf).scatterDimsToOperandDims,
      List.idxOf_lt_length_iff.2 (List.mem_singleton.mpr rfl)⟩ = ix2 k 0 := by
    funext b; refine Fin.ext ?_
    match b with
    | ⟨0, _⟩ => rfl
    | ⟨1, _⟩ => rfl
  rw [hsi]

/-- There is no window: the window coordinate is `0`. -/
theorem setDims_window (k : Fin 64) : (setDims wf).window (ix1 k) 0 = 0 := by
  unfold ScatterDims.window
  rw [dif_neg (show (0 : Fin 1) ∉ (⟨1, ![8192]⟩ : Shape).kept [0] by decide)]

/-- A row number in range is update `k`'s target row. -/
theorem setDims_resultIdx (k : Fin 64) (r : Fin 8192) (h : (idx (ix2 k 0)).toInt = (r.val : Int)) :
    (setDims wf).resultIdx? (ix1 k) idx = some (ix1 r) := by
  have hs := setDims_start wf idx k
  have hw := setDims_window wf k
  have hr := r.isLt
  unfold ScatterDims.resultIdx?
  rw [dif_pos (fun a => by
    obtain rfl : a = 0 := Subsingleton.elim _ _
    rw [hs, hw, h]
    refine ⟨by omega, ?_⟩
    show (r.val : Int) + ((0 : Nat) : Int) < ((8192 : Nat) : Int)
    omega)]
  refine congrArg some (funext fun a => ?_)
  obtain rfl : a = 0 := Subsingleton.elim _ _
  refine Fin.ext ?_
  show ((setDims wf).start (ix1 k) idx 0 + (((setDims wf).window (ix1 k) 0 : Nat) : Int)).toNat = r.val
  rw [hs, hw, h]
  omega

end SetRows

section Read

variable {α : Type} (wf : ScatterDims.WF ⟨1, ![8192]⟩ ⟨2, ![64, 1]⟩ ⟨1, ![64]⟩ [] [0] [0] 1)
  (x : (⟨1, ![8192]⟩ : Shape).Idx → α) (idx : IVec ⟨2, ![64, 1]⟩ 32) (upd : (⟨1, ![64]⟩ : Shape).Idx → α)
  (r : Fin 64 → Fin 8192) (hr : ∀ k, (idx (ix2 k 0)).toInt = ((r k).val : Int))

include hr in
/-- The target row of the update a position of the fold's list stands for. -/
theorem setDims_resultIdx_symm (n : Fin (⟨1, ![64]⟩ : Shape).numel) :
    (setDims wf).resultIdx? ((⟨1, ![64]⟩ : Shape).rowMajor.symm n) idx
      = some (ix1 (r (((⟨1, ![64]⟩ : Shape).rowMajor.symm n) 0))) := by
  rw [eq_ix1 ((⟨1, ![64]⟩ : Shape).rowMajor.symm n)]
  exact setDims_resultIdx wf idx _ _ (hr _)

include hr in
/-- AT A TARGET ROW: when the 64 row numbers are in range and pairwise distinct, the entry at row `r k` is update `k`. -/
theorem scatter_set_hit (hinj : Function.Injective r) (k : Fin 64) :
    Host.scatter (setDims wf) (fun _ b => b) x idx upd (ix1 (r k)) = upd (ix1 k) := by
  unfold Host.scatter
  refine (foldl_set_hit (fun n => (setDims wf).resultIdx? ((⟨1, ![64]⟩ : Shape).rowMajor.symm n) idx)
    (fun n => upd ((⟨1, ![64]⟩ : Shape).rowMajor.symm n)) _ ?_ ?_ ?_ (ix1 (r k))
    ((⟨1, ![64]⟩ : Shape).rowMajor (ix1 k)) ?_ _ x (List.mem_finRange _) ?_).trans ?_
  · intro f n i h
    try dsimp only at h ⊢
    rw [h]
    exact if_pos rfl
  · intro f n i i' h hne
    try dsimp only at h ⊢
    rw [h]
    exact if_neg hne
  · intro f n h
    try dsimp only at h ⊢
    rw [h]
  · try dsimp only
    rw [Equiv.symm_apply_apply]
    exact setDims_resultIdx wf idx k (r k) (hr k)
  · intro n _ h
    try dsimp only at h
    rw [setDims_resultIdx_symm wf idx r hr n] at h
    have h1 : r (((⟨1, ![64]⟩ : Shape).rowMajor.symm n) 0) = r k := congrFun (Option.some.inj h) 0
    have h2 := hinj h1
    refine (Equiv.symm_apply_eq _).mp ?_
    rw [eq_ix1 ((⟨1, ![64]⟩ : Shape).rowMajor.symm n), h2] <;> rfl
  · try dsimp only
    rw [Equiv.symm_apply_apply]

include hr in
/-- AWAY FROM THE TARGET ROWS the entry is the old one. -/
theorem scatter_set_miss (q : Fin 8192) (hq : ∀ k, r k ≠ q) :
    Host.scatter (setDims wf) (fun _ b => b) x idx upd (ix1 q) = x (ix1 q) := by
  unfold Host.scatter
  refine foldl_set_miss (fun n => (setDims wf).resultIdx? ((⟨1, ![64]⟩ : Shape).rowMajor.symm n) idx) _ ?_ ?_
    (ix1 q) _ x ?_
  · intro f n i i' h hne
    try dsimp only at h ⊢
    rw [h]
    exact if_neg hne
  · intro f n h
    try dsimp only at h ⊢
    rw [h]
  · intro n _ h
    try dsimp only at h
    rw [setDims_resultIdx_symm wf idx r hr n] at h
    exact hq _ (congrFun (Option.some.inj h) 0)

end Read

end Cert.Band
-- ==== Proof.LibGatherPair.lean ====
/-
  A gather that picks ONE entry of a square matrix per result element, read at an index.

  The start indices are a table [N, 2]: row k holds the row word and the column word of the entry that
  result element k reads. Both operand axes are collapsed (slice sizes 1, 1), so there are no offset axes and the
  operand index is just the two start components, each read as a signed integer and clamped into [0, M - 1].
-/
import Idealize.ShloMosaic.PureOps
import Idealize.ShloMosaic.Lib.ValueIdx

noncomputable section

namespace Cert.Band

open Idealize.ShloMosaic Idealize.ShloMosaic.ValueIdx

variable {α : Type}

/-- The dimension numbers of "one matrix entry per result element": operand [M, M], start indices [N, 2] with
    the index vector along axis 1, result [N], both operand axes collapsed. Their conditions `wf` are decided on a
    program's literal shapes; any record with these fields IS this one (the proof field is irrelevant). -/
abbrev pairDims (M N : Nat)
    (wf : GatherDims.WF ⟨2, ![M, M]⟩ ⟨2, ![N, 2]⟩ ⟨1, ![N]⟩ [] [0, 1] [] [0, 1] [] 1 ![1, 1]) :
    GatherDims ⟨2, ![M, M]⟩ ⟨2, ![N, 2]⟩ ⟨1, ![N]⟩ where
  offsetDims := []
  collapsedSliceDims := [0, 1]
  operandBatchingDims := []
  startIndicesBatchingDims := []
  startIndexMap := [0, 1]
  indexVectorDim := 1
  sliceSizes := ![1, 1]
  wf := wf

private theorem mem0 : (0 : Fin 2) ∈ ([0, 1] : List (Fin 2)) := List.mem_cons_self
private theorem mem1 : (1 : Fin 2) ∈ ([0, 1] : List (Fin 2)) := List.mem_cons_of_mem _ List.mem_cons_self

/-- On the row axis the operand coordinate is the clamped row word of table row `k`. -/
theorem gather_pair_coord0 {M N w : Nat}
    (wf : GatherDims.WF ⟨2, ![M, M]⟩ ⟨2, ![N, 2]⟩ ⟨1, ![N]⟩ [] [0, 1] [] [0, 1] [] 1 ![1, 1])
    (idx : IVec ⟨2, ![N, 2]⟩ w) (k : Fin N) :
    (pairDims M N wf).start (ix1 k) idx (0 : Fin 2) + (pairDims M N wf).batchCoord (ix1 k) (0 : Fin 2)
        + (pairDims M N wf).offCoord (ix1 k) (0 : Fin 2)
      = min (idx (ix2 k 0)).toInt.toNat (M - 1) := by
  rw [GatherDims.batchCoord_eq_zero _ _ _ List.not_mem_nil,
    GatherDims.offCoord_eq_zero _ _ _ (fun h => ((GatherDims.mem_sKept _ _).mp h).1 mem0)]
  simp only [Nat.add_zero]
  unfold GatherDims.start
  rw [dif_pos (show (0 : Fin 2) ∈ (pairDims M N wf).startIndexMap from mem0)]
  have hsi : (pairDims M N wf).siIdx (ix1 k) ⟨List.idxOf (0 : Fin 2) (pairDims M N wf).startIndexMap,
      List.idxOf_lt_length_iff.2 mem0⟩ = ix2 k 0 := by
    funext b; refine Fin.ext ?_
    match b with
    | ⟨0, _⟩ => rfl
    | ⟨1, _⟩ => rfl
  rw [hsi]
  rfl

/-- On the column axis it is the clamped column word of table row `k`. -/
theorem gather_pair_coord1 {M N w : Nat}
    (wf : GatherDims.WF ⟨2, ![M, M]⟩ ⟨2, ![N, 2]⟩ ⟨1, ![N]⟩ [] [0, 1] [] [0, 1] [] 1 ![1, 1])
    (idx : IVec ⟨2, ![N, 2]⟩ w) (k : Fin N) :
    (pairDims M N wf).start (ix1 k) idx (1 : Fin 2) + (pairDims M N wf).batchCoord (ix1 k) (1 : Fin 2)
        + (pairDims M N wf).offCoord (ix1 k) (1 : Fin 2)
      = min (idx (ix2 k 1)).toInt.toNat (M - 1) := by
  rw [GatherDims.batchCoord_eq_zero _ _ _ List.not_mem_nil,
    GatherDims.offCoord_eq_zero _ _ _ (fun h => ((GatherDims.mem_sKept _ _).mp h).1 mem1)]
  simp only [Nat.add_zero]
  unfold GatherDims.start
  rw [dif_pos (show (1 : Fin 2) ∈ (pairDims M N wf).startIndexMap from mem1)]
  have hsi : (pairDims M N wf).siIdx (ix1 k) ⟨List.idxOf (1 : Fin 2) (pairDims M N wf).startIndexMap,
      List.idxOf_lt_length_iff.2 mem1⟩ = ix2 k 1 := by
    funext b; refine Fin.ext ?_
    match b with
    | ⟨0, _⟩ => rfl
    | ⟨1, _⟩ => rfl
  rw [hsi]
  rfl

/-- Result element `k` reads the matrix at (row word of table row `k`, column word of table row `k`), each
    read signed and clamped into [0, M - 1]. -/
theorem gather_pair_apply {M N w : Nat} (hM : 0 < M)
    (wf : GatherDims.WF ⟨2, ![M, M]⟩ ⟨2, ![N, 2]⟩ ⟨1, ![N]⟩ [] [0, 1] [] [0, 1] [] 1 ![1, 1])
    (x : (⟨2, ![M, M]⟩ : Shape).Idx → α) (idx : IVec ⟨2, ![N, 2]⟩ w) (k : Fin N) :
    Host.gather (pairDims M N wf) x idx (ix1 k)
      = x (ix2 ⟨min (idx (ix2 k 0)).toInt.toNat (M - 1), by omega⟩ ⟨min (idx (ix2 k 1)).toInt.toNat (M - 1), by omega⟩) := by
  unfold Host.gather
  congr 1
  funext a
  refine Fin.ext ?_
  match a with
  | ⟨0, _⟩ => exact gather_pair_coord0 wf idx k
  | ⟨1, _⟩ => exact gather_pair_coord1 wf idx k

/-- The same when the two words are known to be in range: the entry at (a, b). -/
theorem gather_pair_apply_of_toInt {M N w : Nat}
    (wf : GatherDims.WF ⟨2, ![M, M]⟩ ⟨2, ![N, 2]⟩ ⟨1, ![N]⟩ [] [0, 1] [] [0, 1] [] 1 ![1, 1])
    (x : (⟨2, ![M, M]⟩ : Shape).Idx → α) (idx : IVec ⟨2, ![N, 2]⟩ w) (k : Fin N) (a b : Fin M)
    (ha : (idx (ix2 k 0)).toInt = (a.val : Int)) (hb : (idx (ix2 k 1)).toInt = (b.val : Int)) :
    Host.gather (pairDims M N wf) x idx (ix1 k) = x (ix2 a b) := by
  have hM : 0 < M := Nat.lt_of_le_of_lt (Nat.zero_le _) a.isLt
  rw [gather_pair_apply hM wf x idx k]
  congr 1
  have h0 : min (idx (ix2 k 0)).toInt.toNat (M - 1) = a.val := by rw [ha, Int.toNat_natCast]; have := a.isLt; omega
  have h1 : min (idx (ix2 k 1)).toInt.toNat (M - 1) = b.val := by rw [hb, Int.toNat_natCast]; have := b.isLt; omega
  funext d
  match d with
  | ⟨0, _⟩ => exact Fin.ext h0
  | ⟨1, _⟩ => exact Fin.ext h1

end Cert.Band

end
-- ==== Proof.HostIndex.lean ====
/-
  The host computation read entry by entry.

  At tile `k` the row vectors hold the words of `128 k` and `128 k + 127`; after the floored remainder and the
  normalisation, the index table's row `k` is (first row, its left ring neighbour), resp. (last row, its right ring
  neighbour), all in range. So the 64-entry read of the matrix returns `W (r, prev r)` at the tiles' first rows
  `r` and `W (r, next r)` at their last rows, and the overwrite replaces exactly the entries at those rows:
  a row that is a tile's first (last) row takes the entry read from the matrix, every other row keeps its own.
  The two changes of layout (a column of 8192 to a vector, a vector to a row of 8192) move nothing.
-/
import proofs.«126676_j37838661878516_2_alg».proof.Proof.Gen.KernelIdeal.Frame
import proofs.«126676_j37838661878516_2_alg».proof.Proof.Spec
import proofs.«126676_j37838661878516_2_alg».proof.Proof.HostTerms
import proofs.«126676_j37838661878516_2_alg».proof.Proof.HostWords
import proofs.«126676_j37838661878516_2_alg».proof.Proof.HostScatter
import proofs.«126676_j37838661878516_2_alg».proof.Proof.LibGatherPair
import Idealize.ShloMosaic.Lib.Pipeline.Value

noncomputable section

namespace Cert.KernelIdeal.BandValue

open Cert.KernelIdeal Cert.KernelIdeal.Gen Idealize.ShloMosaic Idealize.ShloMosaic.TcCoe Idealize.SL.Sem
open Idealize.ShloMosaic.ValueIdx Cert.Band

/-! ## The index words at tile `k` -/

/-- The normalised first row at tile `k` is the scalar chain's word. -/
theorem fixNegV_rowLo (k : Fin 64) : fixNegV rowLo (ix1 k) = Words.fixNeg (Words.lo k) := rfl
/-- The normalised last row at tile `k`. -/
theorem fixNegV_rowHi (k : Fin 64) : fixNegV rowHi (ix1 k) = Words.fixNeg (Words.hi k) := rfl
/-- The normalised left neighbour of the first row at tile `k`. -/
theorem fixNegV_loPrev (k : Fin 64) :
    fixNegV (remV rowLoPred (constantI S_ 32 8192#32)) (ix1 k) = Words.fixNeg (Words.loPrev k) := rfl
/-- The normalised right neighbour of the last row at tile `k`. -/
theorem fixNegV_hiNext (k : Fin 64) :
    fixNegV (remV rowHiSucc (constantI S_ 32 8192#32)) (ix1 k) = Words.fixNeg (Words.hiNext k) := rfl

/-! ## The column and the table at row `k` -/

/-- Row `k` of the index column is the `k`-th normalised word. -/
theorem colV_apply (a : IVec S64 32) (k : Fin 64) : colV a (ix2 k (0 : Fin 1)) = fixNegV a (ix1 k) := by
  unfold colV
  exact broadcastInDim_apply _ _ _ (ix2 k 0) (ix1 k) fun b => by
    obtain rfl : b = 0 := Subsingleton.elim _ _
    rfl

/-- The table's first column is the first vector's. -/
theorem tableV_left (a b : IVec S64 32) (k : Fin 64) : tableV a b (ix2 k (0 : Fin 2)) = fixNegV a (ix1 k) := by
  unfold tableV
  refine (concatenate_pair_apply_left (t := S64x2) (1 : Fin 2) (colV a) (colV b) concatenates_S64x1_S64x1_S64x2_d1
    (ix2 k (0 : Fin 2)) rfl (ix2 k (0 : Fin 1)) fun c => ?_).trans (colV_apply a k)
  match c with
  | ⟨0, _⟩ => rfl
  | ⟨1, _⟩ => rfl

/-- The table's second column is the second vector's. -/
theorem tableV_right (a b : IVec S64 32) (k : Fin 64) : tableV a b (ix2 k (1 : Fin 2)) = fixNegV b (ix1 k) := by
  unfold tableV
  refine (concatenate_pair_apply_right (t := S64x2) (1 : Fin 2) (colV a) (colV b) concatenates_S64x1_S64x1_S64x2_d1
    (ix2 k (1 : Fin 2)) rfl rfl (ix2 k (0 : Fin 1)) (fun c hc => ?_) (by rfl)).trans (colV_apply b k)
  match c, hc with
  | ⟨0, _⟩, _ => rfl
  | ⟨1, _⟩, hc => exact absurd rfl hc

/-! ## The matrix read at the tile edges -/

/-- At a tile's first row `r` the read returns `W (r, prev r)`. -/
theorem gath_lo (W : SW.Idx → EReal) (k : Fin 64) :
    gath W rowLo (remV rowLoPred (constantI S_ 32 8192#32)) (ix1 k)
      = W (ix2 (Words.loRow k) (prev (Words.loRow k))) := by
  unfold gath
  exact gather_pair_apply_of_toInt _ W _ k (Words.loRow k) (prev (Words.loRow k))
    (by rw [tableV_left, fixNegV_rowLo]; exact Words.fixNeg_lo k)
    (by rw [tableV_right, fixNegV_loPrev]; exact Words.fixNeg_loPrev k)

/-- At a tile's last row `r` the read returns `W (r, next r)`. -/
theorem gath_hi (W : SW.Idx → EReal) (k : Fin 64) :
    gath W rowHi (remV rowHiSucc (constantI S_ 32 8192#32)) (ix1 k)
      = W (ix2 (Words.hiRow k) (next (Words.hiRow k))) := by
  unfold gath
  exact gather_pair_apply_of_toInt _ W _ k (Words.hiRow k) (next (Words.hiRow k))
    (by rw [tableV_left, fixNegV_rowHi]; exact Words.fixNeg_hi k)
    (by rw [tableV_right, fixNegV_hiNext]; exact Words.fixNeg_hiNext k)

/-! ## The overwrite at the tile edges -/

/-- The tiles' first rows take the new entries … -/
theorem patch_lo_hit (v : S8192.Idx → EReal) (u : S64.Idx → EReal) (k : Fin 64) :
    patch v rowLo u (ix1 (Words.loRow k)) = u (ix1 k) := by
  unfold patch
  exact scatter_set_hit _ v (colV rowLo) u Words.loRow
    (fun k' => by rw [colV_apply, fixNegV_rowLo]; exact Words.fixNeg_lo k') Words.loRow_injective k

/-- … and every other row keeps its own. -/
theorem patch_lo_miss (v : S8192.Idx → EReal) (u : S64.Idx → EReal) (q : Fin 8192) (hq : q.val % 128 ≠ 0) :
    patch v rowLo u (ix1 q) = v (ix1 q) := by
  unfold patch
  exact scatter_set_miss _ v (colV rowLo) u Words.loRow
    (fun k' => by rw [colV_apply, fixNegV_rowLo]; exact Words.fixNeg_lo k') q
    (fun k' e => hq (by rw [← e, Words.loRow_val]; omega))

/-- The tiles' last rows take the new entries … -/
theorem patch_hi_hit (v : S8192.Idx → EReal) (u : S64.Idx → EReal) (k : Fin 64) :
    patch v rowHi u (ix1 (Words.hiRow k)) = u (ix1 k) := by
  unfold patch
  exact scatter_set_hit _ v (colV rowHi) u Words.hiRow
    (fun k' => by rw [colV_apply, fixNegV_rowHi]; exact Words.fixNeg_hi k') Words.hiRow_injective k

/-- … and every other row keeps its own. -/
theorem patch_hi_miss (v : S8192.Idx → EReal) (u : S64.Idx → EReal) (q : Fin 8192) (hq : q.val % 128 ≠ 127) :
    patch v rowHi u (ix1 q) = v (ix1 q) := by
  unfold patch
  exact scatter_set_miss _ v (colV rowHi) u Words.hiRow
    (fun k' => by rw [colV_apply, fixNegV_rowHi]; exact Words.fixNeg_hi k') q
    (fun k' e => hq (by rw [← e, Words.hiRow_val]; omega))

/-- A row whose number is a multiple of 128 is the first row of its tile. -/
theorem eq_loRow (q : Fin 8192) (hq : q.val % 128 = 0) : q = Words.loRow ⟨q.val / 128, by have := q.isLt; omega⟩ :=
  Fin.ext (by rw [Words.loRow_val]; show q.val = 128 * (q.val / 128); omega)
/-- A row whose number is 127 modulo 128 is the last row of its tile. -/
theorem eq_hiRow (q : Fin 8192) (hq : q.val % 128 = 127) : q = Words.hiRow ⟨q.val / 128, by have := q.isLt; omega⟩ :=
  Fin.ext (by rw [Words.hiRow_val]; show q.val = 128 * (q.val / 128) + 127; omega)

/-! ## The two changes of layout -/

/-- A column of 8192 rows flattened: entry `q` is row `q`. -/
theorem flat_apply (x : SC.Idx → EReal) (q : Fin 8192) :
    shapeCast S8192 x shapeCasts_S8192x1_S8192 (ix1 q) = x (ix2 q 0) :=
  shapeCast_apply x _ (ix1 q) (ix2 q 0) (by
    rw [Shape.rowMajor_val_two, Shape.rowMajor_val_one]
    show q.val * 1 + 0 = q.val
    omega)

/-- A vector laid out as one row of 8192 columns: column `q` is entry `q`. -/
theorem row_apply (y : S8192.Idx → EReal) (q : Fin 8192) :
    shapeCast S1x8192 y shapeCasts_S8192_S1x8192 (ix2 0 q) = y (ix1 q) :=
  shapeCast_apply y _ (ix2 0 q) (ix1 q) (by
    rw [Shape.rowMajor_val_one, Shape.rowMajor_val_two]
    show q.val = 0 * 8192 + q.val
    omega)

end Cert.KernelIdeal.BandValue
end
-- ==== Proof.HostChain.lean ====
/-
  The host operations between the two passes: what the second pass finds.

  `afterHost U` is the buffer contents after the five stretches of host operations, from ANY contents `U`. The
  input array is untouched. If `U` holds, in the first pass's three output columns, the matrix's lower-diagonal
  entry `W (r, prev r)` at every row that is not a tile's first row, its diagonal entry `W (r, r)` at every row,
  and its upper-diagonal entry `W (r, next r)` at every row that is not a tile's last row, then the three rows the
  second pass reads hold, at column `q`, the coefficient at `q` (a function of the bias alone) times
  `W (q, prev q)`, `W (q, q)` and `W (q, next q)`: the host operations fill in exactly the tile-edge entries the
  first pass could not see, by reading them from the matrix directly.
-/
import proofs.«126676_j37838661878516_2_alg».proof.Proof.Gen.KernelIdeal.Frame
import proofs.«126676_j37838661878516_2_alg».proof.Proof.Spec
import proofs.«126676_j37838661878516_2_alg».proof.Proof.HostTerms
import proofs.«126676_j37838661878516_2_alg».proof.Proof.HostStagesShort
import proofs.«126676_j37838661878516_2_alg».proof.Proof.HostStageLong
import proofs.«126676_j37838661878516_2_alg».proof.Proof.HostIndex

noncomputable section

namespace Cert.KernelIdeal.BandValue

open Cert.KernelIdeal Cert.KernelIdeal.Gen Idealize.ShloMosaic Idealize.ShloMosaic.TcCoe Idealize.SL.Sem
open Idealize.ShloMosaic.ValueIdx Cert.Band
open Idealize.ShloMosaic.StableHlo

/-- The buffer contents after the host operations between the two passes, from contents `U`. -/
def afterHost (U : Valuation τ sig (Elt Ideal)) : Valuation τ sig (Elt Ideal) :=
  StableHlo.after hostOps1_4 (StableHlo.after hostOps1_3 (StableHlo.after hostOps1_2 (StableHlo.after hostOps1_1 (StableHlo.after hostOps1 U))))

/-- The contents entering the last (long) stretch. -/
def enterLong (U : Valuation τ sig (Elt Ideal)) : Valuation τ sig (Elt Ideal) :=
  StableHlo.after hostOps1_3 (StableHlo.after hostOps1_2 (StableHlo.after hostOps1_1 (StableHlo.after hostOps1 U)))

variable (U : Valuation τ sig (Elt Ideal))

theorem afterHost_eq : afterHost U = StableHlo.after hostOps1_4 (enterLong U) := rfl

/-! ## What the long stretch finds -/

theorem enter_arg0 : enterLong U (main_arg0 : DevRef τ sig) = U (main_arg0 : DevRef τ sig) := by
  unfold enterLong; rw [keepD_arg0, keepC_arg0, keepB_arg0, keepA_arg0]
theorem enter_arg1 : enterLong U (main_arg1 : DevRef τ sig) = U (main_arg1 : DevRef τ sig) := by
  unfold enterLong; rw [keepD_arg1, keepC_arg1, keepB_arg1, keepA_arg1]
theorem enter_arg2 : enterLong U (main_arg2 : DevRef τ sig) = U (main_arg2 : DevRef τ sig) := by
  unfold enterLong; rw [keepD_arg2, keepC_arg2, keepB_arg2, keepA_arg2]
/-- The flattened lower diagonal. -/
theorem enter_v1 : (enterLong U (main_v1 : DevRef τ sig) : S8192.Idx → EReal)
    = shapeCast S8192 ((U (main_v0_0 : DevRef τ sig)) : S8192x1.Idx → EReal) shapeCasts_S8192x1_S8192 := by
  unfold enterLong; rw [keepD_v1, keepC_v1, keepB_v1, stA_v1]
/-- The flattened diagonal. -/
theorem enter_v2 : (enterLong U (main_v2 : DevRef τ sig) : S8192.Idx → EReal)
    = shapeCast S8192 ((U (main_v0_1 : DevRef τ sig)) : S8192x1.Idx → EReal) shapeCasts_S8192x1_S8192 := by
  unfold enterLong; rw [keepD_v2, keepC_v2, keepB_v2, stA_v2]
/-- The flattened upper diagonal. -/
theorem enter_v3 : (enterLong U (main_v3 : DevRef τ sig) : S8192.Idx → EReal)
    = shapeCast S8192 ((U (main_v0_2 : DevRef τ sig)) : S8192x1.Idx → EReal) shapeCasts_S8192x1_S8192 := by
  unfold enterLong; rw [keepD_v3, keepC_v3, keepB_v3, stA_v3]
/-- The tiles' first rows. -/
theorem enter_v6 : (enterLong U (main_v6 : DevRef τ sig) : IVec S64 32) = rowLo := by
  unfold enterLong; rw [keepD_v6, keepC_v6, keepB_v6, stA_v6]
/-- The tiles' last rows. -/
theorem enter_v8 : (enterLong U (main_v8 : DevRef τ sig) : IVec S64 32) = rowHi := by
  unfold enterLong; rw [keepD_v8, keepC_v8, keepB_v8, stA_v8]
/-- The matrix read at the tiles' first rows and their left ring neighbours. -/
theorem enter_v25 : (enterLong U (main_v25 : DevRef τ sig) : S64.Idx → EReal)
    = gath (U (main_arg1 : DevRef τ sig)) rowLo (remV rowLoPred (constantI S_ 32 8192#32)) := by
  unfold enterLong
  rw [keepD_v25, stC_v25, keepB_arg1, keepA_arg1, keepB_v6, stA_v6, stB_v11, stA_v10, stA_c2]
/-- The right ring neighbours of the tiles' last rows. -/
theorem enter_v28 : (enterLong U (main_v28 : DevRef τ sig) : IVec S64 32)
    = remV rowHiSucc (constantI S_ 32 8192#32) := by
  unfold enterLong
  rw [stD_v28, stC_v27, stC_c8, keepB_v8, stA_v8]
  rfl

/-! ## The four facts the second pass needs -/

/-- The input array is not written. -/
theorem host_arg0 : afterHost U (main_arg0 : DevRef τ sig) = U (main_arg0 : DevRef τ sig) := by
  rw [afterHost_eq, keepE_arg0, enter_arg0]

/-- The lower-diagonal row: coefficient times `W (q, prev q)`. -/
theorem host_lower
    (hL : ∀ r : Fin 8192, r.val % 128 ≠ 0 →
      ((U (main_v0_0 : DevRef τ sig)) : SC.Idx → EReal) (ix2 r 0) = ((U (main_arg1 : DevRef τ sig)) : SW.Idx → EReal) (ix2 r (prev r)))
    (q : Fin 8192) :
    (afterHost U (main_v86 : DevRef τ sig) : SR.Idx → EReal) (ix2 0 q)
      = coefLower (U (main_arg2 : DevRef τ sig)) (ix1 q) * ((U (main_arg1 : DevRef τ sig)) : SW.Idx → EReal) (ix2 q (prev q)) := by
  rw [afterHost_eq, stE_v86, enter_arg2, enter_v1, enter_v6, enter_v25, row_apply]
  refine congrArg (coefLower (U (main_arg2 : DevRef τ sig)) (ix1 q) * ·) ?_
  by_cases hq : q.val % 128 = 0
  · obtain ⟨k, rfl⟩ : ∃ k, q = Words.loRow k := ⟨_, eq_loRow q hq⟩
    rw [patch_lo_hit, gath_lo]
  · rw [patch_lo_miss _ _ q hq, flat_apply]
    exact hL q hq

/-- The diagonal row: coefficient times `W (q, q)`. -/
theorem host_diag
    (hD : ∀ r : Fin 8192, ((U (main_v0_1 : DevRef τ sig)) : SC.Idx → EReal) (ix2 r 0) = ((U (main_arg1 : DevRef τ sig)) : SW.Idx → EReal) (ix2 r r))
    (q : Fin 8192) :
    (afterHost U (main_v88 : DevRef τ sig) : SR.Idx → EReal) (ix2 0 q)
      = coefDiag (U (main_arg2 : DevRef τ sig)) (ix1 q) * ((U (main_arg1 : DevRef τ sig)) : SW.Idx → EReal) (ix2 q q) := by
  rw [afterHost_eq, stE_v88, enter_arg2, enter_v2, row_apply]
  refine congrArg (coefDiag (U (main_arg2 : DevRef τ sig)) (ix1 q) * ·) ?_
  rw [flat_apply]
  exact hD q

/-- The upper-diagonal row: coefficient times `W (q, next q)`. -/
theorem host_upper
    (hU : ∀ r : Fin 8192, r.val % 128 ≠ 127 →
      ((U (main_v0_2 : DevRef τ sig)) : SC.Idx → EReal) (ix2 r 0) = ((U (main_arg1 : DevRef τ sig)) : SW.Idx → EReal) (ix2 r (next r)))
    (q : Fin 8192) :
    (afterHost U (main_v90 : DevRef τ sig) : SR.Idx → EReal) (ix2 0 q)
      = coefUpper (U (main_arg2 : DevRef τ sig)) (ix1 q) * ((U (main_arg1 : DevRef τ sig)) : SW.Idx → EReal) (ix2 q (next q)) := by
  rw [afterHost_eq, stE_v90, enter_arg2, enter_arg1, enter_v3, enter_v8, enter_v28, row_apply]
  refine congrArg (coefUpper (U (main_arg2 : DevRef τ sig)) (ix1 q) * ·) ?_
  by_cases hq : q.val % 128 = 127
  · obtain ⟨k, rfl⟩ : ∃ k, q = Words.hiRow k := ⟨_, eq_hiRow q hq⟩
    rw [patch_hi_hit, gath_hi]
  · rw [patch_hi_miss _ _ q hq, flat_apply]
    exact hU q hq

end Cert.KernelIdeal.BandValue
end
-- ==== Proof.KernelValue.lean ====
/-
  What the idealized kernel program leaves in its result array.

  The program runs two passes with host operations between them. The first pass leaves, for every row that is not
  the first (resp. last) of its 128-row tile, the matrix's entry left (resp. right) of the diagonal, and for every
  row the diagonal entry. The host operations overwrite the 64 + 64 tile-edge entries with the true ring
  neighbours, multiply each of the three diagonals by its coefficient (a function of the bias alone) and lay the
  products out as rows. The second pass combines those rows with the input and its two ring neighbours. Chaining
  the three steps, the result array is the ring band of the specification: entry (p, q) is

      x (p, prev q) · (cL q · W (q, prev q)) + x (p, q) · (cD q · W (q, q)) + x (p, next q) · (cU q · W (q, next q)).

  The three arguments reach the passes unchanged: no host operation and no pass writes them.
-/
import proofs.«126676_j37838661878516_2_alg».proof.Proof.KernelRun
import proofs.«126676_j37838661878516_2_alg».proof.Proof.Region0Blocks
import proofs.«126676_j37838661878516_2_alg».proof.Proof.Region1Blocks
import proofs.«126676_j37838661878516_2_alg».proof.Proof.HostChain
import proofs.«126676_j37838661878516_2_alg».proof.Proof.Spec

noncomputable section

namespace Cert.KernelIdeal.BandValue

open Cert.KernelIdeal Cert.KernelIdeal.Gen Idealize.ShloMosaic Idealize.ShloMosaic.TcCoe Idealize.SL.Sem
open Idealize.ShloMosaic.ValueIdx Cert.Band

variable (m : (ℓ : Loc nD τ sig) → Buf (Elt Ideal) ℓ) (ρ : Dev nD → PrngReg) (c : Dev nD)

/-- The input is not an array of the first pass: it leaves the pass as launched. -/
theorem firstPass_input : W1 m ρ c (Proc.devRef .tc main_arg0) = m ((c : Thread nD τ).loc main_arg0) :=
  W1_of_ne m ρ c main_arg0 (by decide)

/-- Nor is the bias. -/
theorem firstPass_bias : W1 m ρ c (Proc.devRef .tc main_arg2) = m ((c : Thread nD τ).loc main_arg2) :=
  W1_of_ne m ρ c main_arg2 (by decide)

/-- The matrix is the first pass's input window: read, never written. -/
theorem firstPass_matrix : W1 m ρ c (Proc.devRef .tc main_arg1) = m ((c : Thread nD τ).loc main_arg1) :=
  (W1_arr m ρ c 0).trans (((dat0 (V0 m ρ) c).arrAt_in 0 rfl _).trans (A_eq0 (V0 m ρ) c 0))

/-- The result array after the run is the ring band of the launch contents of the three arguments. -/
theorem kernel_value :
    W7 m ρ c (Proc.devRef .tc main_v91)
      = Cert.Band.out (coefLower (m ((c : Thread nD τ).loc main_arg2))) (coefDiag (m ((c : Thread nD τ).loc main_arg2)))
          (coefUpper (m ((c : Thread nD τ).loc main_arg2))) (m ((c : Thread nD τ).loc main_arg0)) (m ((c : Thread nD τ).loc main_arg1)) := by
  -- the result is the second pass's output array, which is the combination of the rows the pass found
  refine (W7_arr m ρ c 4).trans ?_
  refine (region1_value (V6 m ρ) c).trans ?_
  -- the input reaches the second pass as launched
  have hx : (V6 m ρ c main_arg0 : SX.Idx → EReal) = m ((c : Thread nD τ).loc main_arg0) :=
    (host_arg0 (W1 m ρ c)).trans (firstPass_input m ρ c)
  have h1 : (W1 m ρ c (main_arg1 : DevRef τ sig) : SW.Idx → EReal) = m ((c : Thread nD τ).loc main_arg1) := firstPass_matrix m ρ c
  have h2 : (W1 m ρ c (main_arg2 : DevRef τ sig) : SB.Idx → EReal) = m ((c : Thread nD τ).loc main_arg2) := firstPass_bias m ρ c
  -- each coefficient row is coefficient times ring diagonal: the first pass's entries away from tile edges, the
  -- host's repair at the edges
  have hl : ∀ q : Fin 8192, (V6 m ρ c main_v86 : SR.Idx → EReal) (ix2 0 q)
      = coefLower (m ((c : Thread nD τ).loc main_arg2)) (ix1 q) * (m ((c : Thread nD τ).loc main_arg1) : SW.Idx → EReal) (ix2 q (prev q)) := fun q => by
    have := host_lower (W1 m ρ c) (fun r h => by
      rw [h1]
      exact (congrFun (W1_arr m ρ c 1) (ix2 r 0)).trans (region0_lower (V0 m ρ) c r h)) q
    rw [h1, h2] at this
    exact this
  have hd : ∀ q : Fin 8192, (V6 m ρ c main_v88 : SR.Idx → EReal) (ix2 0 q)
      = coefDiag (m ((c : Thread nD τ).loc main_arg2)) (ix1 q) * (m ((c : Thread nD τ).loc main_arg1) : SW.Idx → EReal) (ix2 q q) := fun q => by
    have := host_diag (W1 m ρ c) (fun r => by
      rw [h1]
      exact (congrFun (W1_arr m ρ c 2) (ix2 r 0)).trans (region0_diag (V0 m ρ) c r)) q
    rw [h1, h2] at this
    exact this
  have hu : ∀ q : Fin 8192, (V6 m ρ c main_v90 : SR.Idx → EReal) (ix2 0 q)
      = coefUpper (m ((c : Thread nD τ).loc main_arg2)) (ix1 q) * (m ((c : Thread nD τ).loc main_arg1) : SW.Idx → EReal) (ix2 q (next q)) := fun q => by
    have := host_upper (W1 m ρ c) (fun r h => by
      rw [h1]
      exact (congrFun (W1_arr m ρ c 3) (ix2 r 0)).trans (region0_upper (V0 m ρ) c r h)) q
    rw [h1, h2] at this
    exact this
  unfold combineRows Cert.Band.out
  rw [hx]
  simp only [hl, hd, hu]

end Cert.KernelIdeal.BandValue

end
-- ==== Proof.RefOps.lean ====
/-
  The reference program as a list of operations.

  The program is a straight line: every statement is one array operation writing one buffer, and a call of a
  helper function is the helper's statements over the buffers of that call. Written out, the 117 statements
  are 160 operations. They are listed here in order, cut where the mathematics changes subject: the column
  numbers, the two floored remainders that give the ring neighbours, the three gathers of the matrix's ring
  diagonals, the coefficient vectors built from the bias, the two rotations of the input, and the final
  multiply-and-add.
-/
import proofs.«126676_j37838661878516_2_alg».proof.Proof.Gen.ReferenceIdeal
import Idealize.ShloMosaic.Lib.StableHlo.Run

noncomputable section

namespace Cert.ReferenceIdeal.BandRun

open Cert.ReferenceIdeal Cert.ReferenceIdeal.Gen Idealize.ShloMosaic Idealize.ShloMosaic.TcCoe Idealize.SL.Sem Idealize.ShloMosaic.StableHlo

variable {F : FTy → Type} [FloatOps F]

/-- The column numbers `0 … 8191` as 32-bit words, and the same minus one. -/
abbrev opsIota : List (HloOp τ sig (Elt F)) :=
  [ StableHlo.nullary main_v0 (iotaInDim S8192 32 0),
    StableHlo.nullary main_c (constantI S_ 32 1#32),
    StableHlo.unary main_c main_v1 (broadcastInDim S8192 ![] bcast_S_S8192 : (⟨S_, .i32⟩ : BufTy).Contents (Elt F) → (⟨S8192, .i32⟩ : BufTy).Contents (Elt F)),
    StableHlo.binary main_v0 main_v1 main_v2 (subi : (⟨S8192, .i32⟩ : BufTy).Contents (Elt F) → (⟨S8192, .i32⟩ : BufTy).Contents (Elt F) → (⟨S8192, .i32⟩ : BufTy).Contents (Elt F)),
    StableHlo.nullary main_c_0 (constantI S_ 32 8192#32) ]
theorem opsIota_sub : (opsIota : List (HloOp τ sig (Elt F))).Forall fun op => op.bufs ⊆ tcRefs τ sig :=
  ⟨nullary_bufs_sub .., nullary_bufs_sub .., unary_bufs_sub .., binary_bufs_sub .., nullary_bufs_sub ..⟩

/-- The floored remainder of `column − 1` by 8192 (the language's `%`): the truncated remainder, moved up by the divisor where its sign differs from the divisor's. -/
abbrev opsRemPrev : List (HloOp τ sig (Elt F)) :=
  [ StableHlo.TRef.unary (.of main_c_0 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S8192 ![] bcast_S_S8192),
    StableHlo.TRef.binary (.of main_v2 : StableHlo.TRef sig ⟨S8192, .i32⟩) main_call0.v3 main_call0.v4 Host.remsi,
    StableHlo.TRef.nullary main_call0.c_1 (constantI S_ 32 0#32),
    StableHlo.TRef.unary main_call0.c_1 main_call0.v5 (broadcastInDim S8192 ![] bcast_S_S8192),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8192 ![] bcast_S_S8192),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S8192 ![] bcast_S_S8192),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S8192 ![] bcast_S_S8192),
    StableHlo.TRef.binary main_call0.v4 main_call0.v13 main_call0.v14 addi,
    StableHlo.TRef.ternary main_call0.v12 main_call0.v14 main_call0.v4 main_call0.v15 select ]
theorem opsRemPrev_sub : (opsRemPrev : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- The lower ring diagonal of the matrix: row `r`, column `(r − 1) mod 8192`, read by one two-coordinate gather. -/
abbrev opsLower : List (HloOp τ sig (Elt F)) :=
  [ StableHlo.nullary main_c_1 (constantI S_ 32 0#32),
    StableHlo.unary main_c_1 main_v4 (broadcastInDim S8192 ![] bcast_S_S8192 : (⟨S_, .i32⟩ : BufTy).Contents (Elt F) → (⟨S8192, .i32⟩ : BufTy).Contents (Elt F)),
    StableHlo.binary main_v0 main_v4 main_v5 (cmpi .slt : (⟨S8192, .i32⟩ : BufTy).Contents (Elt F) → (⟨S8192, .i32⟩ : BufTy).Contents (Elt F) → (⟨S8192, .i1⟩ : BufTy).Contents (Elt F)),
    StableHlo.nullary main_c_2 (constantI S_ 32 8192#32),
    StableHlo.unary main_c_2 main_v6 (broadcastInDim S8192 ![] bcast_S_S8192 : (⟨S_, .i32⟩ : BufTy).Contents (Elt F) → (⟨S8192, .i32⟩ : BufTy).Contents (Elt F)),
    StableHlo.binary main_v0 main_v6 main_v7 (addi : (⟨S8192, .i32⟩ : BufTy).Contents (Elt F) → (⟨S8192, .i32⟩ : BufTy).Contents (Elt F) → (⟨S8192, .i32⟩ : BufTy).Contents (Elt F)),
    StableHlo.ternary main_v5 main_v7 main_v0 main_v8 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_3 (constantI S_ 32 0#32),
    StableHlo.unary main_c_3 main_v9 (broadcastInDim S8192 ![] bcast_S_S8192 : (⟨S_, .i32⟩ : BufTy).Contents (Elt F) → (⟨S8192, .i32⟩ : BufTy).Contents (Elt F)),
    StableHlo.binary main_v3 main_v9 main_v10 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v11 (broadcastInDim S8192 ![] bcast_S_S8192 : (⟨S_, .i32⟩ : BufTy).Contents (Elt F) → (⟨S8192, .i32⟩ : BufTy).Contents (Elt F)),
    StableHlo.binary main_v3 main_v11 main_v12 (addi : (⟨S8192, .i32⟩ : BufTy).Contents (Elt F) → (⟨S8192, .i32⟩ : BufTy).Contents (Elt F) → (⟨S8192, .i32⟩ : BufTy).Contents (Elt F)),
    StableHlo.ternary main_v10 main_v12 main_v3 main_v13 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v8 main_v14 (broadcastInDim S8192x1 ![0] bcast_S8192_S8192x1_0 : (⟨S8192, .i32⟩ : BufTy).Contents (Elt F) → (⟨S8192x1, .i32⟩ : BufTy).Contents (Elt F)),
    StableHlo.unary main_v13 main_v15 (broadcastInDim S8192x1 ![0] bcast_S8192_S8192x1_0 : (⟨S8192, .i32⟩ : BufTy).Contents (Elt F) → (⟨S8192x1, .i32⟩ : BufTy).Contents (Elt F)),
    StableHlo.binary main_v14 main_v15 main_v16 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_arg1 main_v16 main_v17 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)) ]
theorem opsLower_sub : (opsLower : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

/-- The main diagonal of the matrix: row `r`, column `r`. -/
abbrev opsDiag : List (HloOp τ sig (Elt F)) :=
  [ StableHlo.nullary main_c_5 (constantI S_ 32 0#32),
    StableHlo.unary main_c_5 main_v18 (broadcastInDim S8192 ![] bcast_S_S8192 : (⟨S_, .i32⟩ : BufTy).Contents (Elt F) → (⟨S8192, .i32⟩ : BufTy).Contents (Elt F)),
    StableHlo.binary main_v0 main_v18 main_v19 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 8192#32),
    StableHlo.unary main_c_6 main_v20 (broadcastInDim S8192 ![] bcast_S_S8192 : (⟨S_, .i32⟩ : BufTy).Contents (Elt F) → (⟨S8192, .i32⟩ : BufTy).Contents (Elt F)),
    StableHlo.binary main_v0 main_v20 main_v21 (addi : (⟨S8192, .i32⟩ : BufTy).Contents (Elt F) → (⟨S8192, .i32⟩ : BufTy).Contents (Elt F) → (⟨S8192, .i32⟩ : BufTy).Contents (Elt F)),
    StableHlo.ternary main_v19 main_v21 main_v0 main_v22 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_7 (constantI S_ 32 0#32),
    StableHlo.unary main_c_7 main_v23 (broadcastInDim S8192 ![] bcast_S_S8192 : (⟨S_, .i32⟩ : BufTy).Contents (Elt F) → (⟨S8192, .i32⟩ : BufTy).Contents (Elt F)),
    StableHlo.binary main_v0 main_v23 main_v24 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8192#32),
    StableHlo.unary main_c_8 main_v25 (broadcastInDim S8192 ![] bcast_S_S8192 : (⟨S_, .i32⟩ : BufTy).Contents (Elt F) → (⟨S8192, .i32⟩ : BufTy).Contents (Elt F)),
    StableHlo.binary main_v0 main_v25 main_v26 (addi : (⟨S8192, .i32⟩ : BufTy).Contents (Elt F) → (⟨S8192, .i32⟩ : BufTy).Contents (Elt F) → (⟨S8192, .i32⟩ : BufTy).Contents (Elt F)),
    StableHlo.ternary main_v24 main_v26 main_v0 main_v27 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v22 main_v28 (broadcastInDim S8192x1 ![0] bcast_S8192_S8192x1_0 : (⟨S8192, .i32⟩ : BufTy).Contents (Elt F) → (⟨S8192x1, .i32⟩ : BufTy).Contents (Elt F)),
    StableHlo.unary main_v27 main_v29 (broadcastInDim S8192x1 ![0] bcast_S8192_S8192x1_0 : (⟨S8192, .i32⟩ : BufTy).Contents (Elt F) → (⟨S8192x1, .i32⟩ : BufTy).Contents (Elt F)),
    StableHlo.binary main_v28 main_v29 main_v30 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_arg1 main_v30 main_v31 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)) ]
theorem opsDiag_sub : (opsDiag : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

/-- The column numbers plus one. -/
abbrev opsSucc : List (HloOp τ sig (Elt F)) :=
  [ StableHlo.nullary main_c_9 (constantI S_ 32 1#32),
    StableHlo.unary main_c_9 main_v32 (broadcastInDim S8192 ![] bcast_S_S8192 : (⟨S_, .i32⟩ : BufTy).Contents (Elt F) → (⟨S8192, .i32⟩ : BufTy).Contents (Elt F)),
    StableHlo.binary main_v0 main_v32 main_v33 (addi : (⟨S8192, .i32⟩ : BufTy).Contents (Elt F) → (⟨S8192, .i32⟩ : BufTy).Contents (Elt F) → (⟨S8192, .i32⟩ : BufTy).Contents (Elt F)),
    StableHlo.nullary main_c_10 (constantI S_ 32 8192#32) ]
theorem opsSucc_sub : (opsSucc : List (HloOp τ sig (Elt F))).Forall fun op => op.bufs ⊆ tcRefs τ sig :=
  ⟨nullary_bufs_sub .., unary_bufs_sub .., binary_bufs_sub .., nullary_bufs_sub ..⟩

/-- The floored remainder of `column + 1` by 8192. -/
abbrev opsRemNext : List (HloOp τ sig (Elt F)) :=
  [ StableHlo.TRef.unary (.of main_c_10 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S8192 ![] bcast_S_S8192),
    StableHlo.TRef.binary (.of main_v33 : StableHlo.TRef sig ⟨S8192, .i32⟩) main_call1.v3 main_call1.v4 Host.remsi,
    StableHlo.TRef.nullary main_call1.c_1 (constantI S_ 32 0#32),
    StableHlo.TRef.unary main_call1.c_1 main_call1.v5 (broadcastInDim S8192 ![] bcast_S_S8192),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S8192 ![] bcast_S_S8192),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S8192 ![] bcast_S_S8192),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S8192 ![] bcast_S_S8192),
    StableHlo.TRef.binary main_call1.v4 main_call1.v13 main_call1.v14 addi,
    StableHlo.TRef.ternary main_call1.v12 main_call1.v14 main_call1.v4 main_call1.v15 select ]
theorem opsRemNext_sub : (opsRemNext : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- The upper ring diagonal, first half: the two coordinate vectors before negative values are wrapped. -/
abbrev opsUpperA : List (HloOp τ sig (Elt F)) :=
  [ StableHlo.nullary main_c_11 (constantI S_ 32 0#32),
    StableHlo.unary main_c_11 main_v35 (broadcastInDim S8192 ![] bcast_S_S8192 : (⟨S_, .i32⟩ : BufTy).Contents (Elt F) → (⟨S8192, .i32⟩ : BufTy).Contents (Elt F)),
    StableHlo.binary main_v0 main_v35 main_v36 (cmpi .slt : (⟨S8192, .i32⟩ : BufTy).Contents (Elt F) → (⟨S8192, .i32⟩ : BufTy).Contents (Elt F) → (⟨S8192, .i1⟩ : BufTy).Contents (Elt F)),
    StableHlo.nullary main_c_12 (constantI S_ 32 8192#32),
    StableHlo.unary main_c_12 main_v37 (broadcastInDim S8192 ![] bcast_S_S8192 : (⟨S_, .i32⟩ : BufTy).Contents (Elt F) → (⟨S8192, .i32⟩ : BufTy).Contents (Elt F)),
    StableHlo.binary main_v0 main_v37 main_v38 (addi : (⟨S8192, .i32⟩ : BufTy).Contents (Elt F) → (⟨S8192, .i32⟩ : BufTy).Contents (Elt F) → (⟨S8192, .i32⟩ : BufTy).Contents (Elt F)),
    StableHlo.ternary main_v36 main_v38 main_v0 main_v39 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_13 (constantI S_ 32 0#32),
    StableHlo.unary main_c_13 main_v40 (broadcastInDim S8192 ![] bcast_S_S8192 : (⟨S_, .i32⟩ : BufTy).Contents (Elt F) → (⟨S8192, .i32⟩ : BufTy).Contents (Elt F)),
    StableHlo.binary main_v34 main_v40 main_v41 (cmpi .slt : (⟨S8192, .i32⟩ : BufTy).Contents (Elt F) → (⟨S8192, .i32⟩ : BufTy).Contents (Elt F) → (⟨S8192, .i1⟩ : BufTy).Contents (Elt F)),
    StableHlo.nullary main_c_14 (constantI S_ 32 8192#32),
    StableHlo.unary main_c_14 main_v42 (broadcastInDim S8192 ![] bcast_S_S8192 : (⟨S_, .i32⟩ : BufTy).Contents (Elt F) → (⟨S8192, .i32⟩ : BufTy).Contents (Elt F)),
    StableHlo.binary main_v34 main_v42 main_v43 (addi : (⟨S8192, .i32⟩ : BufTy).Contents (Elt F) → (⟨S8192, .i32⟩ : BufTy).Contents (Elt F) → (⟨S8192, .i32⟩ : BufTy).Contents (Elt F)) ]
theorem opsUpperA_sub : (opsUpperA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩

/-- The upper ring diagonal, second half: row `r`, column `(r + 1) mod 8192`, gathered. -/
abbrev opsUpperB : List (HloOp τ sig (Elt F)) :=
  [ StableHlo.ternary main_v41 main_v43 main_v34 main_v44 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v39 main_v45 (broadcastInDim S8192x1 ![0] bcast_S8192_S8192x1_0 : (⟨S8192, .i32⟩ : BufTy).Contents (Elt F) → (⟨S8192x1, .i32⟩ : BufTy).Contents (Elt F)),
    StableHlo.unary main_v44 main_v46 (broadcastInDim S8192x1 ![0] bcast_S8192_S8192x1_0 : (⟨S8192, .i32⟩ : BufTy).Contents (Elt F) → (⟨S8192x1, .i32⟩ : BufTy).Contents (Elt F)),
    StableHlo.binary main_v45 main_v46 main_v47 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_arg1 main_v47 main_v48 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)) ]
theorem opsUpperB_sub : (opsUpperB : List (HloOp τ sig (Elt F))).Forall fun op => op.bufs ⊆ tcRefs τ sig :=
  ⟨ternary_bufs_sub .., unary_bufs_sub .., unary_bufs_sub .., binary_bufs_sub .., binary_bufs_sub ..⟩

/-- The three coefficient vectors, from the bias alone: `1 + b`, its square and its cube, each with two single entries replaced. -/
abbrev opsCoef : List (HloOp τ sig (Elt F)) :=
  [ StableHlo.nullary main_cst (constant S_ .f32 0x3F800000#32),
    StableHlo.unary main_cst main_v49 (broadcastInDim S8192 ![] bcast_S_S8192 : (⟨S_, .f32⟩ : BufTy).Contents (Elt F) → (⟨S8192, .f32⟩ : BufTy).Contents (Elt F)),
    StableHlo.binary main_v49 main_arg2 main_v50 (addf : (⟨S8192, .f32⟩ : BufTy).Contents (Elt F) → (⟨S8192, .f32⟩ : BufTy).Contents (Elt F) → (⟨S8192, .f32⟩ : BufTy).Contents (Elt F)),
    StableHlo.binary main_v50 main_v50 main_v51 (mulf : (⟨S8192, .f32⟩ : BufTy).Contents (Elt F) → (⟨S8192, .f32⟩ : BufTy).Contents (Elt F) → (⟨S8192, .f32⟩ : BufTy).Contents (Elt F)),
    StableHlo.binary main_v51 main_v50 main_v52 (mulf : (⟨S8192, .f32⟩ : BufTy).Contents (Elt F) → (⟨S8192, .f32⟩ : BufTy).Contents (Elt F) → (⟨S8192, .f32⟩ : BufTy).Contents (Elt F)),
    StableHlo.unary main_v50 main_v53 ((extractStridedSlice S1 ![0] · slices_S8192_S1_0) : (⟨S8192, .f32⟩ : BufTy).Contents (Elt F) → (⟨S1, .f32⟩ : BufTy).Contents (Elt F)),
    StableHlo.reshape main_v53 main_v54 rfl shapeCasts_S1_S_,
    StableHlo.nullary main_c_15 (constantI S_ 32 0#32),
    StableHlo.unary main_c_15 main_v55 (broadcastInDim S1 ![] bcast_S_S1 : (⟨S_, .i32⟩ : BufTy).Contents (Elt F) → (⟨S1, .i32⟩ : BufTy).Contents (Elt F)),
    StableHlo.ternary main_v52 main_v55 main_v54 main_v56 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    StableHlo.unary main_v51 main_v57 ((extractStridedSlice S1 ![8191] · slices_S8192_S1_8191) : (⟨S8192, .f32⟩ : BufTy).Contents (Elt F) → (⟨S1, .f32⟩ : BufTy).Contents (Elt F)),
    StableHlo.reshape main_v57 main_v58 rfl shapeCasts_S1_S_,
    StableHlo.nullary main_c_16 (constantI S_ 32 8191#32),
    StableHlo.unary main_c_16 main_v59 (broadcastInDim S1 ![] bcast_S_S1 : (⟨S_, .i32⟩ : BufTy).Contents (Elt F) → (⟨S1, .i32⟩ : BufTy).Contents (Elt F)),
    StableHlo.ternary main_v56 main_v59 main_v58 main_v60 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    StableHlo.unary main_v52 main_v61 ((extractStridedSlice S1 ![0] · slices_S8192_S1_0) : (⟨S8192, .f32⟩ : BufTy).Contents (Elt F) → (⟨S1, .f32⟩ : BufTy).Contents (Elt F)),
    StableHlo.reshape main_v61 main_v62 rfl shapeCasts_S1_S_,
    StableHlo.nullary main_c_17 (constantI S_ 32 0#32),
    StableHlo.unary main_c_17 main_v63 (broadcastInDim S1 ![] bcast_S_S1 : (⟨S_, .i32⟩ : BufTy).Contents (Elt F) → (⟨S1, .i32⟩ : BufTy).Contents (Elt F)),
    StableHlo.ternary main_v51 main_v63 main_v62 main_v64 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    StableHlo.unary main_v50 main_v65 ((extractStridedSlice S1 ![8191] · slices_S8192_S1_8191) : (⟨S8192, .f32⟩ : BufTy).Contents (Elt F) → (⟨S1, .f32⟩ : BufTy).Contents (Elt F)),
    StableHlo.reshape main_v65 main_v66 rfl shapeCasts_S1_S_,
    StableHlo.nullary main_c_18 (constantI S_ 32 8191#32),
    StableHlo.unary main_c_18 main_v67 (broadcastInDim S1 ![] bcast_S_S1 : (⟨S_, .i32⟩ : BufTy).Contents (Elt F) → (⟨S1, .i32⟩ : BufTy).Contents (Elt F)),
    StableHlo.ternary main_v64 main_v67 main_v66 main_v68 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    StableHlo.unary main_v51 main_v69 ((extractStridedSlice S1 ![0] · slices_S8192_S1_0) : (⟨S8192, .f32⟩ : BufTy).Contents (Elt F) → (⟨S1, .f32⟩ : BufTy).Contents (Elt F)),
    StableHlo.reshape main_v69 main_v70 rfl shapeCasts_S1_S_,
    StableHlo.nullary main_c_19 (constantI S_ 32 0#32),
    StableHlo.unary main_c_19 main_v71 (broadcastInDim S1 ![] bcast_S_S1 : (⟨S_, .i32⟩ : BufTy).Contents (Elt F) → (⟨S1, .i32⟩ : BufTy).Contents (Elt F)),
    StableHlo.ternary main_v50 main_v71 main_v70 main_v72 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    StableHlo.unary main_v52 main_v73 ((extractStridedSlice S1 ![8191] · slices_S8192_S1_8191) : (⟨S8192, .f32⟩ : BufTy).Contents (Elt F) → (⟨S1, .f32⟩ : BufTy).Contents (Elt F)),
    StableHlo.reshape main_v73 main_v74 rfl shapeCasts_S1_S_,
    StableHlo.nullary main_c_20 (constantI S_ 32 8191#32),
    StableHlo.unary main_c_20 main_v75 (broadcastInDim S1 ![] bcast_S_S1 : (⟨S_, .i32⟩ : BufTy).Contents (Elt F) → (⟨S1, .i32⟩ : BufTy).Contents (Elt F)),
    StableHlo.ternary main_v72 main_v75 main_v74 main_v76 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)) ]
theorem opsCoef_sub : (opsCoef : List (HloOp τ sig (Elt F))).Forall fun op => op.bufs ⊆ tcRefs τ sig :=
  ⟨nullary_bufs_sub .., unary_bufs_sub .., binary_bufs_sub .., binary_bufs_sub .., binary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub ..⟩

/-- The input with its columns rotated right by one, and left by one. -/
abbrev opsRoll : List (HloOp τ sig (Elt F)) :=
  [ StableHlo.TRef.unary (.of main_arg0 : StableHlo.TRef sig ⟨S256x8192, .f32⟩) main_call2.v0 (extractStridedSlice S256x1 ![0, 8191] · slices_S256x8192_S256x1_0_8191),
    StableHlo.TRef.unary (.of main_arg0 : StableHlo.TRef sig ⟨S256x8192, .f32⟩) main_call2.v1 (extractStridedSlice S256x8191 ![0, 0] · slices_S256x8192_S256x8191_0_0),
    StableHlo.TRef.binary main_call2.v0 main_call2.v1 main_call2.v2 (fun a b => concatenate S256x8192 1 [⟨S256x1, a⟩, ⟨S256x8191, b⟩] concatenates_S256x1_S256x8191_S256x8192_d1),
    StableHlo.TRef.unary (.of main_arg0 : StableHlo.TRef sig ⟨S256x8192, .f32⟩) main_call3.v0 (extractStridedSlice S256x8191 ![0, 1] · slices_S256x8192_S256x8191_0_1),
    StableHlo.TRef.unary (.of main_arg0 : StableHlo.TRef sig ⟨S256x8192, .f32⟩) main_call3.v1 (extractStridedSlice S256x1 ![0, 0] · slices_S256x8192_S256x1_0_0),
    StableHlo.TRef.binary main_call3.v0 main_call3.v1 main_call3.v2 (fun a b => concatenate S256x8192 1 [⟨S256x8191, a⟩, ⟨S256x1, b⟩] concatenates_S256x8191_S256x1_S256x8192_d1) ]
theorem opsRoll_sub : (opsRoll : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- The three products, each coefficient times its diagonal spread over the rows, and their sum. -/
abbrev opsOut : List (HloOp τ sig (Elt F)) :=
  [ StableHlo.binary main_v60 main_v17 main_v79 (mulf : (⟨S8192, .f32⟩ : BufTy).Contents (Elt F) → (⟨S8192, .f32⟩ : BufTy).Contents (Elt F) → (⟨S8192, .f32⟩ : BufTy).Contents (Elt F)),
    StableHlo.unary main_v79 main_v80 (broadcastInDim S1x8192 ![1] bcast_S8192_S1x8192_1 : (⟨S8192, .f32⟩ : BufTy).Contents (Elt F) → (⟨S1x8192, .f32⟩ : BufTy).Contents (Elt F)),
    StableHlo.unary main_v80 main_v81 (broadcastInDim S256x8192 ![0, 1] bcast_S1x8192_S256x8192_0_1 : (⟨S1x8192, .f32⟩ : BufTy).Contents (Elt F) → (⟨S256x8192, .f32⟩ : BufTy).Contents (Elt F)),
    StableHlo.binary main_v77 main_v81 main_v82 (mulf : (⟨S256x8192, .f32⟩ : BufTy).Contents (Elt F) → (⟨S256x8192, .f32⟩ : BufTy).Contents (Elt F) → (⟨S256x8192, .f32⟩ : BufTy).Contents (Elt F)),
    StableHlo.binary main_v68 main_v31 main_v83 (mulf : (⟨S8192, .f32⟩ : BufTy).Contents (Elt F) → (⟨S8192, .f32⟩ : BufTy).Contents (Elt F) → (⟨S8192, .f32⟩ : BufTy).Contents (Elt F)),
    StableHlo.unary main_v83 main_v84 (broadcastInDim S1x8192 ![1] bcast_S8192_S1x8192_1 : (⟨S8192, .f32⟩ : BufTy).Contents (Elt F) → (⟨S1x8192, .f32⟩ : BufTy).Contents (Elt F)),
    StableHlo.unary main_v84 main_v85 (broadcastInDim S256x8192 ![0, 1] bcast_S1x8192_S256x8192_0_1 : (⟨S1x8192, .f32⟩ : BufTy).Contents (Elt F) → (⟨S256x8192, .f32⟩ : BufTy).Contents (Elt F)),
    StableHlo.binary main_arg0 main_v85 main_v86 (mulf : (⟨S256x8192, .f32⟩ : BufTy).Contents (Elt F) → (⟨S256x8192, .f32⟩ : BufTy).Contents (Elt F) → (⟨S256x8192, .f32⟩ : BufTy).Contents (Elt F)),
    StableHlo.binary main_v82 main_v86 main_v87 (addf : (⟨S256x8192, .f32⟩ : BufTy).Contents (Elt F) → (⟨S256x8192, .f32⟩ : BufTy).Contents (Elt F) → (⟨S256x8192, .f32⟩ : BufTy).Contents (Elt F)),
    StableHlo.binary main_v76 main_v48 main_v88 (mulf : (⟨S8192, .f32⟩ : BufTy).Contents (Elt F) → (⟨S8192, .f32⟩ : BufTy).Contents (Elt F) → (⟨S8192, .f32⟩ : BufTy).Contents (Elt F)),
    StableHlo.unary main_v88 main_v89 (broadcastInDim S1x8192 ![1] bcast_S8192_S1x8192_1 : (⟨S8192, .f32⟩ : BufTy).Contents (Elt F) → (⟨S1x8192, .f32⟩ : BufTy).Contents (Elt F)),
    StableHlo.unary main_v89 main_v90 (broadcastInDim S256x8192 ![0, 1] bcast_S1x8192_S256x8192_0_1 : (⟨S1x8192, .f32⟩ : BufTy).Contents (Elt F) → (⟨S256x8192, .f32⟩ : BufTy).Contents (Elt F)),
    StableHlo.binary main_v78 main_v90 main_v91 (mulf : (⟨S256x8192, .f32⟩ : BufTy).Contents (Elt F) → (⟨S256x8192, .f32⟩ : BufTy).Contents (Elt F) → (⟨S256x8192, .f32⟩ : BufTy).Contents (Elt F)),
    StableHlo.binary main_v87 main_v91 main_v92 (addf : (⟨S256x8192, .f32⟩ : BufTy).Contents (Elt F) → (⟨S256x8192, .f32⟩ : BufTy).Contents (Elt F) → (⟨S256x8192, .f32⟩ : BufTy).Contents (Elt F)) ]
theorem opsOut_sub : (opsOut : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub ..⟩

/-- The first 60 statements of the program (100 operations once the two remainder calls are written out). -/
abbrev opsFirst : List (HloOp τ sig (Elt F)) := opsIota ++ (opsRemPrev ++ (opsLower ++ (opsDiag ++ (opsSucc ++ (opsRemNext ++ (opsUpperA))))))
/-- The remaining 57 statements (60 operations with the two rotations written out). -/
abbrev opsSecond : List (HloOp τ sig (Elt F)) := opsUpperB ++ (opsCoef ++ (opsRoll ++ (opsOut)))
/-- The whole program as one line of 160 operations. -/
abbrev ops : List (HloOp τ sig (Elt F)) := opsFirst ++ opsSecond

end Cert.ReferenceIdeal.BandRun

end
-- ==== Proof.RefPieces.lean ====
/-
  The pieces the result is made of, and which buffers each stretch of the program writes.

  The result is assembled from a few array functions: the floored remainder that gives a column's ring neighbour, the
  table of coordinate pairs a gather reads the matrix at, the ring diagonals it returns, the two rotations of the
  input, and the final multiply-and-add. Each stretch of operations writes its own buffers only, so a buffer written
  earlier (or never) keeps its contents through it.
-/
import proofs.«126676_j37838661878516_2_alg».proof.Proof.RefOps

noncomputable section

namespace Cert.ReferenceIdeal.BandRun

open Cert.ReferenceIdeal Cert.ReferenceIdeal.Gen Idealize.ShloMosaic Idealize.ShloMosaic.TcCoe Idealize.SL.Sem Idealize.ShloMosaic.StableHlo

variable {F : FTy → Type} [FloatOps F]

/-! ## The pieces of the result, as array functions -/

/-- The floored remainder of every entry of `x` by the scalar `n`: the helper's twenty-one operations composed. -/
def remVec (x : IVec S8192 32) (n : IVec S_ 32) : IVec S8192 32 :=
  select (andi (cmpi .ne (cmpi .slt (Host.remsi x (broadcastInDim S8192 ![] bcast_S_S8192 (select (cmpi .eq (id n) (constantI S_ 32 0#32)) (constantI S_ 32 1#32) (id n)))) (broadcastInDim S8192 ![] bcast_S_S8192 (constantI S_ 32 0#32))) (broadcastInDim S8192 ![] bcast_S_S8192 (cmpi .slt (select (cmpi .eq (id n) (constantI S_ 32 0#32)) (constantI S_ 32 1#32) (id n)) (constantI S_ 32 0#32)))) (cmpi .ne (Host.remsi x (broadcastInDim S8192 ![] bcast_S_S8192 (select (cmpi .eq (id n) (constantI S_ 32 0#32)) (constantI S_ 32 1#32) (id n)))) (broadcastInDim S8192 ![] bcast_S_S8192 (constantI S_ 32 0#32)))) (addi (Host.remsi x (broadcastInDim S8192 ![] bcast_S_S8192 (select (cmpi .eq (id n) (constantI S_ 32 0#32)) (constantI S_ 32 1#32) (id n)))) (broadcastInDim S8192 ![] bcast_S_S8192 (select (cmpi .eq (id n) (constantI S_ 32 0#32)) (constantI S_ 32 1#32) (id n)))) (Host.remsi x (broadcastInDim S8192 ![] bcast_S_S8192 (select (cmpi .eq (id n) (constantI S_ 32 0#32)) (constantI S_ 32 1#32) (id n))))

/-- An index vector with 8192 added to its negative entries. -/
def wrapVec (x : IVec S8192 32) : IVec S8192 32 :=
  select (cmpi .slt x (broadcastInDim S8192 ![] bcast_S_S8192 (constantI S_ 32 0#32))) (addi x (broadcastInDim S8192 ![] bcast_S_S8192 (constantI S_ 32 8192#32))) x

/-- The table of coordinate pairs `(a r, b r)`, one row per `r`. -/
def pairIdx (a b : IVec S8192 32) : IVec S8192x2 32 :=
  concatenate S8192x2 1 [⟨S8192x1, broadcastInDim S8192x1 ![0] bcast_S8192_S8192x1_0 (wrapVec a)⟩, ⟨S8192x1, broadcastInDim S8192x1 ![0] bcast_S8192_S8192x1_0 (wrapVec b)⟩] concatenates_S8192x1_S8192x1_S8192x2_d1

/-- The column numbers as words. -/
def colNum : IVec S8192 32 := iotaInDim S8192 32 0
/-- The vector of ones. -/
def oneVec : IVec S8192 32 := broadcastInDim S8192 ![] bcast_S_S8192 (constantI S_ 32 1#32)
/-- Each column's left neighbour on the ring, as the program computes it. -/
def prevNum : IVec S8192 32 := remVec (subi colNum oneVec) (constantI S_ 32 8192#32)
/-- Each column's right neighbour on the ring, as the program computes it. -/
def nextNum : IVec S8192 32 := remVec (addi colNum oneVec) (constantI S_ 32 8192#32)

/-- The entries `W (r, col r)` of the matrix, one per row. -/
def ringDiag (W : FVec F S8192x8192 .f32) (col : IVec S8192 32) : FVec F S8192 .f32 :=
  Host.gather gather_S8192x8192_S8192x2_S8192_n_01_n_n_01_1_11 W (pairIdx colNum col)

/-- The input with its last column moved to the front. -/
def rollRight (x : FVec F S256x8192 .f32) : FVec F S256x8192 .f32 :=
  concatenate S256x8192 1 [⟨S256x1, extractStridedSlice S256x1 ![0, 8191] x slices_S256x8192_S256x1_0_8191⟩, ⟨S256x8191, extractStridedSlice S256x8191 ![0, 0] x slices_S256x8192_S256x8191_0_0⟩] concatenates_S256x1_S256x8191_S256x8192_d1
/-- The input with its first column moved to the back. -/
def rollLeft (x : FVec F S256x8192 .f32) : FVec F S256x8192 .f32 :=
  concatenate S256x8192 1 [⟨S256x8191, extractStridedSlice S256x8191 ![0, 1] x slices_S256x8192_S256x8191_0_1⟩, ⟨S256x1, extractStridedSlice S256x1 ![0, 0] x slices_S256x8192_S256x1_0_0⟩] concatenates_S256x8191_S256x1_S256x8192_d1

/-- A vector over the columns repeated on every row. -/
def spread (v : FVec F S8192 .f32) : FVec F S256x8192 .f32 :=
  broadcastInDim S256x8192 ![0, 1] bcast_S1x8192_S256x8192_0_1 (broadcastInDim S1x8192 ![1] bcast_S8192_S1x8192_1 v)

/-- The final sum: the right-rotated input times the lower factor, plus the input times the diagonal factor, then plus
    the left-rotated input times the upper factor. -/
def bandTerm (x xr xl : FVec F S256x8192 .f32) (aL aD aU : FVec F S8192 .f32) : FVec F S256x8192 .f32 :=
  addf (addf (mulf xr (spread aL)) (mulf x (spread aD))) (mulf xl (spread aU))

/-! ## What each stretch writes, and that it leaves the rest alone -/

abbrev opsIota_W : List (Ref sig .tc) := [main_v0, main_c, main_v1, main_v2, main_c_0]
theorem opsIota_writes : (opsIota : List (HloOp τ sig (Elt F))).Forall fun op => op.writes ⊆ (opsIota_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsIota_keep (U : Valuation τ sig (Elt F)) (r : Ref sig .tc) (h : r ∉ opsIota_W) :
    after opsIota U (Proc.devRef .tc r) = U (Proc.devRef .tc r) :=
  after_of_writes_sub opsIota U opsIota_writes h

abbrev opsRemPrev_W : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v3]
theorem opsRemPrev_writes : (opsRemPrev : List (HloOp τ sig (Elt F))).Forall fun op => op.writes ⊆ (opsRemPrev_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsRemPrev_keep (U : Valuation τ sig (Elt F)) (r : Ref sig .tc) (h : r ∉ opsRemPrev_W) :
    after opsRemPrev U (Proc.devRef .tc r) = U (Proc.devRef .tc r) :=
  after_of_writes_sub opsRemPrev U opsRemPrev_writes h

abbrev opsLower_W : List (Ref sig .tc) := [main_c_1, main_v4, main_v5, main_c_2, main_v6, main_v7, main_v8, main_c_3, main_v9, main_v10, main_c_4, main_v11, main_v12, main_v13, main_v14, main_v15, main_v16, main_v17]
theorem opsLower_writes : (opsLower : List (HloOp τ sig (Elt F))).Forall fun op => op.writes ⊆ (opsLower_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsLower_keep (U : Valuation τ sig (Elt F)) (r : Ref sig .tc) (h : r ∉ opsLower_W) :
    after opsLower U (Proc.devRef .tc r) = U (Proc.devRef .tc r) :=
  after_of_writes_sub opsLower U opsLower_writes h

abbrev opsDiag_W : List (Ref sig .tc) := [main_c_5, main_v18, main_v19, main_c_6, main_v20, main_v21, main_v22, main_c_7, main_v23, main_v24, main_c_8, main_v25, main_v26, main_v27, main_v28, main_v29, main_v30, main_v31]
theorem opsDiag_writes : (opsDiag : List (HloOp τ sig (Elt F))).Forall fun op => op.writes ⊆ (opsDiag_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsDiag_keep (U : Valuation τ sig (Elt F)) (r : Ref sig .tc) (h : r ∉ opsDiag_W) :
    after opsDiag U (Proc.devRef .tc r) = U (Proc.devRef .tc r) :=
  after_of_writes_sub opsDiag U opsDiag_writes h

abbrev opsSucc_W : List (Ref sig .tc) := [main_c_9, main_v32, main_v33, main_c_10]
theorem opsSucc_writes : (opsSucc : List (HloOp τ sig (Elt F))).Forall fun op => op.writes ⊆ (opsSucc_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsSucc_keep (U : Valuation τ sig (Elt F)) (r : Ref sig .tc) (h : r ∉ opsSucc_W) :
    after opsSucc U (Proc.devRef .tc r) = U (Proc.devRef .tc r) :=
  after_of_writes_sub opsSucc U opsSucc_writes h

abbrev opsRemNext_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v34]
theorem opsRemNext_writes : (opsRemNext : List (HloOp τ sig (Elt F))).Forall fun op => op.writes ⊆ (opsRemNext_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsRemNext_keep (U : Valuation τ sig (Elt F)) (r : Ref sig .tc) (h : r ∉ opsRemNext_W) :
    after opsRemNext U (Proc.devRef .tc r) = U (Proc.devRef .tc r) :=
  after_of_writes_sub opsRemNext U opsRemNext_writes h

abbrev opsUpperA_W : List (Ref sig .tc) := [main_c_11, main_v35, main_v36, main_c_12, main_v37, main_v38, main_v39, main_c_13, main_v40, main_v41, main_c_14, main_v42, main_v43]
theorem opsUpperA_writes : (opsUpperA : List (HloOp τ sig (Elt F))).Forall fun op => op.writes ⊆ (opsUpperA_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsUpperA_keep (U : Valuation τ sig (Elt F)) (r : Ref sig .tc) (h : r ∉ opsUpperA_W) :
    after opsUpperA U (Proc.devRef .tc r) = U (Proc.devRef .tc r) :=
  after_of_writes_sub opsUpperA U opsUpperA_writes h

abbrev opsUpperB_W : List (Ref sig .tc) := [main_v44, main_v45, main_v46, main_v47, main_v48]
theorem opsUpperB_writes : (opsUpperB : List (HloOp τ sig (Elt F))).Forall fun op => op.writes ⊆ (opsUpperB_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsUpperB_keep (U : Valuation τ sig (Elt F)) (r : Ref sig .tc) (h : r ∉ opsUpperB_W) :
    after opsUpperB U (Proc.devRef .tc r) = U (Proc.devRef .tc r) :=
  after_of_writes_sub opsUpperB U opsUpperB_writes h

abbrev opsCoef_W : List (Ref sig .tc) := [main_cst, main_v49, main_v50, main_v51, main_v52, main_v53, main_v54, main_c_15, main_v55, main_v56, main_v57, main_v58, main_c_16, main_v59, main_v60, main_v61, main_v62, main_c_17, main_v63, main_v64, main_v65, main_v66, main_c_18, main_v67, main_v68, main_v69, main_v70, main_c_19, main_v71, main_v72, main_v73, main_v74, main_c_20, main_v75, main_v76]
theorem opsCoef_writes : (opsCoef : List (HloOp τ sig (Elt F))).Forall fun op => op.writes ⊆ (opsCoef_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsCoef_keep (U : Valuation τ sig (Elt F)) (r : Ref sig .tc) (h : r ∉ opsCoef_W) :
    after opsCoef U (Proc.devRef .tc r) = U (Proc.devRef .tc r) :=
  after_of_writes_sub opsCoef U opsCoef_writes h

abbrev opsRoll_W : List (Ref sig .tc) := [main_call2_v0, main_call2_v1, main_v77, main_call3_v0, main_call3_v1, main_v78]
theorem opsRoll_writes : (opsRoll : List (HloOp τ sig (Elt F))).Forall fun op => op.writes ⊆ (opsRoll_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsRoll_keep (U : Valuation τ sig (Elt F)) (r : Ref sig .tc) (h : r ∉ opsRoll_W) :
    after opsRoll U (Proc.devRef .tc r) = U (Proc.devRef .tc r) :=
  after_of_writes_sub opsRoll U opsRoll_writes h

abbrev opsOut_W : List (Ref sig .tc) := [main_v79, main_v80, main_v81, main_v82, main_v83, main_v84, main_v85, main_v86, main_v87, main_v88, main_v89, main_v90, main_v91, main_v92]
theorem opsOut_writes : (opsOut : List (HloOp τ sig (Elt F))).Forall fun op => op.writes ⊆ (opsOut_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
theorem opsOut_keep (U : Valuation τ sig (Elt F)) (r : Ref sig .tc) (h : r ∉ opsOut_W) :
    after opsOut U (Proc.devRef .tc r) = U (Proc.devRef .tc r) :=
  after_of_writes_sub opsOut U opsOut_writes h

end Cert.ReferenceIdeal.BandRun

end
-- ==== Proof.RefCoef.lean ====
/-
  The three coefficient vectors, as functions of the bias.

  With `c = 1 + b` (entry by entry), the lower coefficient is `c³` with entry 0 replaced by `c`'s and entry 8191 by
  `c²`'s; the diagonal one is `c²` with entry 0 replaced by `c³`'s and entry 8191 by `c`'s; the upper one is `c` with
  entry 0 replaced by `c²`'s and entry 8191 by `c³`'s. Each is written as the composition of the array operations that
  build it — a sum, two products, and per replacement a one-entry slice, its reshape to a scalar, an index word and a
  one-entry scatter — and is never opened: the two programs are compared with these three functions as parameters.
-/
import proofs.«126676_j37838661878516_2_alg».proof.Proof.Gen.ReferenceIdeal
import proofs.«126676_j37838661878516_2_alg».proof.Proof.Spec

noncomputable section

namespace Cert.ReferenceIdeal.BandValue

open Cert.ReferenceIdeal Cert.ReferenceIdeal.Gen Idealize.ShloMosaic Idealize.ShloMosaic.TcCoe Idealize.SL.Sem Cert.Band

/-- The coefficient of the left neighbour's term. -/
def coefLower (b : SB.Idx → EReal) : SB.Idx → EReal :=
  Host.scatter scatter_S8192_S1_S__n_0_0_0 (fun _ b => b) (Host.scatter scatter_S8192_S1_S__n_0_0_0 (fun _ b => b) (mulf (F := Ideal) (mulf (F := Ideal) (addf (F := Ideal) (broadcastInDim S8192 ![] bcast_S_S8192 (constant (F := Ideal) S_ .f32 0x3F800000#32)) b) (addf (F := Ideal) (broadcastInDim S8192 ![] bcast_S_S8192 (constant (F := Ideal) S_ .f32 0x3F800000#32)) b)) (addf (F := Ideal) (broadcastInDim S8192 ![] bcast_S_S8192 (constant (F := Ideal) S_ .f32 0x3F800000#32)) b)) (broadcastInDim S1 ![] bcast_S_S1 (constantI S_ 32 0#32)) (shapeCast S_ (extractStridedSlice S1 ![0] (addf (F := Ideal) (broadcastInDim S8192 ![] bcast_S_S8192 (constant (F := Ideal) S_ .f32 0x3F800000#32)) b) slices_S8192_S1_0) shapeCasts_S1_S_)) (broadcastInDim S1 ![] bcast_S_S1 (constantI S_ 32 8191#32)) (shapeCast S_ (extractStridedSlice S1 ![8191] (mulf (F := Ideal) (addf (F := Ideal) (broadcastInDim S8192 ![] bcast_S_S8192 (constant (F := Ideal) S_ .f32 0x3F800000#32)) b) (addf (F := Ideal) (broadcastInDim S8192 ![] bcast_S_S8192 (constant (F := Ideal) S_ .f32 0x3F800000#32)) b)) slices_S8192_S1_8191) shapeCasts_S1_S_)

/-- The coefficient of the column's own term. -/
def coefDiag (b : SB.Idx → EReal) : SB.Idx → EReal :=
  Host.scatter scatter_S8192_S1_S__n_0_0_0 (fun _ b => b) (Host.scatter scatter_S8192_S1_S__n_0_0_0 (fun _ b => b) (mulf (F := Ideal) (addf (F := Ideal) (broadcastInDim S8192 ![] bcast_S_S8192 (constant (F := Ideal) S_ .f32 0x3F800000#32)) b) (addf (F := Ideal) (broadcastInDim S8192 ![] bcast_S_S8192 (constant (F := Ideal) S_ .f32 0x3F800000#32)) b)) (broadcastInDim S1 ![] bcast_S_S1 (constantI S_ 32 0#32)) (shapeCast S_ (extractStridedSlice S1 ![0] (mulf (F := Ideal) (mulf (F := Ideal) (addf (F := Ideal) (broadcastInDim S8192 ![] bcast_S_S8192 (constant (F := Ideal) S_ .f32 0x3F800000#32)) b) (addf (F := Ideal) (broadcastInDim S8192 ![] bcast_S_S8192 (constant (F := Ideal) S_ .f32 0x3F800000#32)) b)) (addf (F := Ideal) (broadcastInDim S8192 ![] bcast_S_S8192 (constant (F := Ideal) S_ .f32 0x3F800000#32)) b)) slices_S8192_S1_0) shapeCasts_S1_S_)) (broadcastInDim S1 ![] bcast_S_S1 (constantI S_ 32 8191#32)) (shapeCast S_ (extractStridedSlice S1 ![8191] (addf (F := Ideal) (broadcastInDim S8192 ![] bcast_S_S8192 (constant (F := Ideal) S_ .f32 0x3F800000#32)) b) slices_S8192_S1_8191) shapeCasts_S1_S_)

/-- The coefficient of the right neighbour's term. -/
def coefUpper (b : SB.Idx → EReal) : SB.Idx → EReal :=
  Host.scatter scatter_S8192_S1_S__n_0_0_0 (fun _ b => b) (Host.scatter scatter_S8192_S1_S__n_0_0_0 (fun _ b => b) (addf (F := Ideal) (broadcastInDim S8192 ![] bcast_S_S8192 (constant (F := Ideal) S_ .f32 0x3F800000#32)) b) (broadcastInDim S1 ![] bcast_S_S1 (constantI S_ 32 0#32)) (shapeCast S_ (extractStridedSlice S1 ![0] (mulf (F := Ideal) (addf (F := Ideal) (broadcastInDim S8192 ![] bcast_S_S8192 (constant (F := Ideal) S_ .f32 0x3F800000#32)) b) (addf (F := Ideal) (broadcastInDim S8192 ![] bcast_S_S8192 (constant (F := Ideal) S_ .f32 0x3F800000#32)) b)) slices_S8192_S1_0) shapeCasts_S1_S_)) (broadcastInDim S1 ![] bcast_S_S1 (constantI S_ 32 8191#32)) (shapeCast S_ (extractStridedSlice S1 ![8191] (mulf (F := Ideal) (mulf (F := Ideal) (addf (F := Ideal) (broadcastInDim S8192 ![] bcast_S_S8192 (constant (F := Ideal) S_ .f32 0x3F800000#32)) b) (addf (F := Ideal) (broadcastInDim S8192 ![] bcast_S_S8192 (constant (F := Ideal) S_ .f32 0x3F800000#32)) b)) (addf (F := Ideal) (broadcastInDim S8192 ![] bcast_S_S8192 (constant (F := Ideal) S_ .f32 0x3F800000#32)) b)) slices_S8192_S1_8191) shapeCasts_S1_S_)

end Cert.ReferenceIdeal.BandValue

end
-- ==== Proof.RefStages.lean ====
/-
  What each stretch of the program computes.

  For any contents `U` of the buffers before a stretch, the buffer the stretch is there to produce ends as a named
  array function of the buffers it reads: the column numbers, the ring neighbours (the floored remainders), the three
  ring diagonals of the matrix, the three coefficient vectors, the two rotations, and the final sum. Each is read off
  the fold of the stretch's operations.
-/
import proofs.«126676_j37838661878516_2_alg».proof.Proof.RefPieces
import proofs.«126676_j37838661878516_2_alg».proof.Proof.RefCoef

noncomputable section

namespace Cert.ReferenceIdeal.BandRun

open Cert.ReferenceIdeal Cert.ReferenceIdeal.Gen Idealize.ShloMosaic Idealize.ShloMosaic.TcCoe Idealize.SL.Sem Idealize.ShloMosaic.StableHlo

variable {F : FTy → Type} [FloatOps F]

/-! ## Each stretch's result, as a function of what it reads -/

theorem iota_v0 (U : Valuation τ sig (Elt F)) :
    after (opsIota (F := F)) U (main_v0 : DevRef τ sig) = colNum := by
  simp only [opsIota]
  after_results_simp
  try simp only [cast_eq]
  all_goals rfl

theorem iota_v2 (U : Valuation τ sig (Elt F)) :
    after (opsIota (F := F)) U (main_v2 : DevRef τ sig) = subi colNum oneVec := by
  simp only [opsIota]
  after_results_simp
  try simp only [cast_eq]
  all_goals rfl

theorem iota_c0 (U : Valuation τ sig (Elt F)) :
    after (opsIota (F := F)) U (main_c_0 : DevRef τ sig) = constantI S_ 32 8192#32 := by
  simp only [opsIota]
  after_results_simp
  try simp only [cast_eq]
  all_goals rfl

set_option maxRecDepth 8192 in
theorem remPrev_v3 (U : Valuation τ sig (Elt F)) :
    after (opsRemPrev (F := F)) U (main_v3 : DevRef τ sig) = remVec (U (main_v2 : DevRef τ sig)) (U (main_c_0 : DevRef τ sig)) := by
  simp only [opsRemPrev]
  after_results_simp
  try simp only [cast_eq]
  all_goals rfl

theorem lower_v17 (U : Valuation τ sig (Elt F)) :
    after (opsLower (F := F)) U (main_v17 : DevRef τ sig) = Host.gather gather_S8192x8192_S8192x2_S8192_n_01_n_n_01_1_11 (U (main_arg1 : DevRef τ sig)) (pairIdx (U (main_v0 : DevRef τ sig)) (U (main_v3 : DevRef τ sig))) := by
  simp only [opsLower]
  after_results_simp
  try simp only [cast_eq]
  all_goals rfl

theorem diag_v31 (U : Valuation τ sig (Elt F)) :
    after (opsDiag (F := F)) U (main_v31 : DevRef τ sig) = Host.gather gather_S8192x8192_S8192x2_S8192_n_01_n_n_01_1_11 (U (main_arg1 : DevRef τ sig)) (pairIdx (U (main_v0 : DevRef τ sig)) (U (main_v0 : DevRef τ sig))) := by
  simp only [opsDiag]
  after_results_simp
  try simp only [cast_eq]
  all_goals rfl

theorem succ_v33 (U : Valuation τ sig (Elt F)) :
    after (opsSucc (F := F)) U (main_v33 : DevRef τ sig) = addi (U (main_v0 : DevRef τ sig)) oneVec := by
  simp only [opsSucc]
  after_results_simp
  try simp only [cast_eq]
  all_goals rfl

theorem succ_c10 (U : Valuation τ sig (Elt F)) :
    after (opsSucc (F := F)) U (main_c_10 : DevRef τ sig) = constantI S_ 32 8192#32 := by
  simp only [opsSucc]
  after_results_simp
  try simp only [cast_eq]
  all_goals rfl

set_option maxRecDepth 8192 in
theorem remNext_v34 (U : Valuation τ sig (Elt F)) :
    after (opsRemNext (F := F)) U (main_v34 : DevRef τ sig) = remVec (U (main_v33 : DevRef τ sig)) (U (main_c_10 : DevRef τ sig)) := by
  simp only [opsRemNext]
  after_results_simp
  try simp only [cast_eq]
  all_goals rfl

theorem upper_v48 (U : Valuation τ sig (Elt F)) :
    after ((opsUpperA (F := F)) ++ opsUpperB) U (main_v48 : DevRef τ sig) = Host.gather gather_S8192x8192_S8192x2_S8192_n_01_n_n_01_1_11 (U (main_arg1 : DevRef τ sig)) (pairIdx (U (main_v0 : DevRef τ sig)) (U (main_v34 : DevRef τ sig))) := by
  simp only [opsUpperA, opsUpperB, List.cons_append, List.nil_append]
  after_results_simp
  try simp only [cast_eq]
  all_goals rfl

theorem roll_v77 (U : Valuation τ sig (Elt F)) :
    after (opsRoll (F := F)) U (main_v77 : DevRef τ sig) = rollRight (U (main_arg0 : DevRef τ sig)) := by
  simp only [opsRoll]
  after_results_simp
  try simp only [cast_eq]
  all_goals rfl

theorem roll_v78 (U : Valuation τ sig (Elt F)) :
    after (opsRoll (F := F)) U (main_v78 : DevRef τ sig) = rollLeft (U (main_arg0 : DevRef τ sig)) := by
  simp only [opsRoll]
  after_results_simp
  try simp only [cast_eq]
  all_goals rfl

theorem out_v92 (U : Valuation τ sig (Elt F)) :
    after (opsOut (F := F)) U (main_v92 : DevRef τ sig) = bandTerm (U (main_arg0 : DevRef τ sig)) (U (main_v77 : DevRef τ sig)) (U (main_v78 : DevRef τ sig)) (mulf (U (main_v60 : DevRef τ sig)) (U (main_v17 : DevRef τ sig))) (mulf (U (main_v68 : DevRef τ sig)) (U (main_v31 : DevRef τ sig))) (mulf (U (main_v76 : DevRef τ sig)) (U (main_v48 : DevRef τ sig))) := by
  simp only [opsOut]
  after_results_simp
  try simp only [cast_eq]
  all_goals rfl

/-! The coefficient stretch, at the extended reals: its three results are the three coefficient functions of the bias. -/

theorem coef_v60 (U : Valuation τ sig (Elt Ideal)) :
    after (opsCoef (F := Ideal)) U (main_v60 : DevRef τ sig) = BandValue.coefLower (U (main_arg2 : DevRef τ sig)) := by
  simp only [opsCoef]
  after_results_simp
  try simp only [cast_eq]
  all_goals rfl

theorem coef_v68 (U : Valuation τ sig (Elt Ideal)) :
    after (opsCoef (F := Ideal)) U (main_v68 : DevRef τ sig) = BandValue.coefDiag (U (main_arg2 : DevRef τ sig)) := by
  simp only [opsCoef]
  after_results_simp
  try simp only [cast_eq]
  all_goals rfl

theorem coef_v76 (U : Valuation τ sig (Elt Ideal)) :
    after (opsCoef (F := Ideal)) U (main_v76 : DevRef τ sig) = BandValue.coefUpper (U (main_arg2 : DevRef τ sig)) := by
  simp only [opsCoef]
  after_results_simp
  try simp only [cast_eq]
  all_goals rfl

end Cert.ReferenceIdeal.BandRun

end
-- ==== Proof.RefFold.lean ====
/-
  The fold of the whole program, stretch by stretch.

  The buffers' contents after each stretch are named; a buffer a stretch produces is that stretch's function of the
  earlier contents, every other buffer is kept. Followed through the eleven stretches, the result buffer ends as the
  final sum over: the input and its two rotations; the three coefficient functions of the bias; and the matrix gathered
  along its three ring diagonals. The three arguments end as they began.
-/
import proofs.«126676_j37838661878516_2_alg».proof.Proof.RefStages

noncomputable section

namespace Cert.ReferenceIdeal.BandRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The two halves of the upper-diagonal stretch together leave alone what neither writes. -/
theorem opsUpper_keep (U : Valuation τ sig (Elt Ideal)) (r : Ref sig .tc) (h : r ∉ opsUpperA_W ++ opsUpperB_W) :
    after (opsUpperA ++ opsUpperB) U (Proc.devRef .tc r) = U (Proc.devRef .tc r) := by
  rw [after_app]
  exact (opsUpperB_keep _ r fun h' => h (List.mem_append_right _ h')).trans
    (opsUpperA_keep U r fun h' => h (List.mem_append_left _ h'))

variable (V : Valuation τ sig (Elt Ideal))

/-- The buffers' contents before the first stretch. -/
def val0 : Valuation τ sig (Elt Ideal) := V
theorem val0_main_arg0 : val0 V (main_arg0 : DevRef τ sig) = V (main_arg0 : DevRef τ sig) := rfl
theorem val0_main_arg2 : val0 V (main_arg2 : DevRef τ sig) = V (main_arg2 : DevRef τ sig) := rfl
theorem val0_main_arg1 : val0 V (main_arg1 : DevRef τ sig) = V (main_arg1 : DevRef τ sig) := rfl

/-- The buffers' contents after the first 1 stretch. -/
def val1 : Valuation τ sig (Elt Ideal) := after opsIota (val0 V)
theorem val1_main_arg0 : val1 V (main_arg0 : DevRef τ sig) = V (main_arg0 : DevRef τ sig) :=
  (opsIota_keep (val0 V) main_arg0 (by decide)).trans (val0_main_arg0 V)
theorem val1_main_arg2 : val1 V (main_arg2 : DevRef τ sig) = V (main_arg2 : DevRef τ sig) :=
  (opsIota_keep (val0 V) main_arg2 (by decide)).trans (val0_main_arg2 V)
theorem val1_main_arg1 : val1 V (main_arg1 : DevRef τ sig) = V (main_arg1 : DevRef τ sig) :=
  (opsIota_keep (val0 V) main_arg1 (by decide)).trans (val0_main_arg1 V)
theorem val1_main_v0 : val1 V (main_v0 : DevRef τ sig) = colNum := by
  unfold val1
  rw [iota_v0]
  all_goals rfl
theorem val1_main_v2 : val1 V (main_v2 : DevRef τ sig) = subi colNum oneVec := by
  unfold val1
  rw [iota_v2]
  all_goals rfl
theorem val1_main_c_0 : val1 V (main_c_0 : DevRef τ sig) = constantI S_ 32 8192#32 := by
  unfold val1
  rw [iota_c0]
  all_goals rfl

/-- The buffers' contents after the first 2 stretches. -/
def val2 : Valuation τ sig (Elt Ideal) := after opsRemPrev (val1 V)
theorem val2_main_arg0 : val2 V (main_arg0 : DevRef τ sig) = V (main_arg0 : DevRef τ sig) :=
  (opsRemPrev_keep (val1 V) main_arg0 (by decide)).trans (val1_main_arg0 V)
theorem val2_main_arg2 : val2 V (main_arg2 : DevRef τ sig) = V (main_arg2 : DevRef τ sig) :=
  (opsRemPrev_keep (val1 V) main_arg2 (by decide)).trans (val1_main_arg2 V)
theorem val2_main_arg1 : val2 V (main_arg1 : DevRef τ sig) = V (main_arg1 : DevRef τ sig) :=
  (opsRemPrev_keep (val1 V) main_arg1 (by decide)).trans (val1_main_arg1 V)
theorem val2_main_v0 : val2 V (main_v0 : DevRef τ sig) = colNum :=
  (opsRemPrev_keep (val1 V) main_v0 (by decide)).trans (val1_main_v0 V)
theorem val2_main_v3 : val2 V (main_v3 : DevRef τ sig) = prevNum := by
  unfold val2
  rw [remPrev_v3, val1_main_v2, val1_main_c_0]
  all_goals rfl

/-- The buffers' contents after the first 3 stretches. -/
def val3 : Valuation τ sig (Elt Ideal) := after opsLower (val2 V)
theorem val3_main_arg0 : val3 V (main_arg0 : DevRef τ sig) = V (main_arg0 : DevRef τ sig) :=
  (opsLower_keep (val2 V) main_arg0 (by decide)).trans (val2_main_arg0 V)
theorem val3_main_arg2 : val3 V (main_arg2 : DevRef τ sig) = V (main_arg2 : DevRef τ sig) :=
  (opsLower_keep (val2 V) main_arg2 (by decide)).trans (val2_main_arg2 V)
theorem val3_main_v17 : val3 V (main_v17 : DevRef τ sig) = ringDiag (F := Ideal) (V (main_arg1 : DevRef τ sig)) prevNum := by
  unfold val3
  rw [lower_v17, val2_main_arg1, val2_main_v0, val2_main_v3]
  all_goals rfl
theorem val3_main_arg1 : val3 V (main_arg1 : DevRef τ sig) = V (main_arg1 : DevRef τ sig) :=
  (opsLower_keep (val2 V) main_arg1 (by decide)).trans (val2_main_arg1 V)
theorem val3_main_v0 : val3 V (main_v0 : DevRef τ sig) = colNum :=
  (opsLower_keep (val2 V) main_v0 (by decide)).trans (val2_main_v0 V)

/-- The buffers' contents after the first 4 stretches. -/
def val4 : Valuation τ sig (Elt Ideal) := after opsDiag (val3 V)
theorem val4_main_arg0 : val4 V (main_arg0 : DevRef τ sig) = V (main_arg0 : DevRef τ sig) :=
  (opsDiag_keep (val3 V) main_arg0 (by decide)).trans (val3_main_arg0 V)
theorem val4_main_arg2 : val4 V (main_arg2 : DevRef τ sig) = V (main_arg2 : DevRef τ sig) :=
  (opsDiag_keep (val3 V) main_arg2 (by decide)).trans (val3_main_arg2 V)
theorem val4_main_v17 : val4 V (main_v17 : DevRef τ sig) = ringDiag (F := Ideal) (V (main_arg1 : DevRef τ sig)) prevNum :=
  (opsDiag_keep (val3 V) main_v17 (by decide)).trans (val3_main_v17 V)
theorem val4_main_v31 : val4 V (main_v31 : DevRef τ sig) = ringDiag (F := Ideal) (V (main_arg1 : DevRef τ sig)) colNum := by
  unfold val4
  rw [diag_v31, val3_main_arg1, val3_main_v0]
  all_goals rfl
theorem val4_main_arg1 : val4 V (main_arg1 : DevRef τ sig) = V (main_arg1 : DevRef τ sig) :=
  (opsDiag_keep (val3 V) main_arg1 (by decide)).trans (val3_main_arg1 V)
theorem val4_main_v0 : val4 V (main_v0 : DevRef τ sig) = colNum :=
  (opsDiag_keep (val3 V) main_v0 (by decide)).trans (val3_main_v0 V)

/-- The buffers' contents after the first 5 stretches. -/
def val5 : Valuation τ sig (Elt Ideal) := after opsSucc (val4 V)
theorem val5_main_arg0 : val5 V (main_arg0 : DevRef τ sig) = V (main_arg0 : DevRef τ sig) :=
  (opsSucc_keep (val4 V) main_arg0 (by decide)).trans (val4_main_arg0 V)
theorem val5_main_arg2 : val5 V (main_arg2 : DevRef τ sig) = V (main_arg2 : DevRef τ sig) :=
  (opsSucc_keep (val4 V) main_arg2 (by decide)).trans (val4_main_arg2 V)
theorem val5_main_v17 : val5 V (main_v17 : DevRef τ sig) = ringDiag (F := Ideal) (V (main_arg1 : DevRef τ sig)) prevNum :=
  (opsSucc_keep (val4 V) main_v17 (by decide)).trans (val4_main_v17 V)
theorem val5_main_v31 : val5 V (main_v31 : DevRef τ sig) = ringDiag (F := Ideal) (V (main_arg1 : DevRef τ sig)) colNum :=
  (opsSucc_keep (val4 V) main_v31 (by decide)).trans (val4_main_v31 V)
theorem val5_main_arg1 : val5 V (main_arg1 : DevRef τ sig) = V (main_arg1 : DevRef τ sig) :=
  (opsSucc_keep (val4 V) main_arg1 (by decide)).trans (val4_main_arg1 V)
theorem val5_main_v0 : val5 V (main_v0 : DevRef τ sig) = colNum :=
  (opsSucc_keep (val4 V) main_v0 (by decide)).trans (val4_main_v0 V)
theorem val5_main_v33 : val5 V (main_v33 : DevRef τ sig) = addi colNum oneVec := by
  unfold val5
  rw [succ_v33, val4_main_v0]
  all_goals rfl
theorem val5_main_c_10 : val5 V (main_c_10 : DevRef τ sig) = constantI S_ 32 8192#32 := by
  unfold val5
  rw [succ_c10]
  all_goals rfl

/-- The buffers' contents after the first 6 stretches. -/
def val6 : Valuation τ sig (Elt Ideal) := after opsRemNext (val5 V)
theorem val6_main_arg0 : val6 V (main_arg0 : DevRef τ sig) = V (main_arg0 : DevRef τ sig) :=
  (opsRemNext_keep (val5 V) main_arg0 (by decide)).trans (val5_main_arg0 V)
theorem val6_main_arg2 : val6 V (main_arg2 : DevRef τ sig) = V (main_arg2 : DevRef τ sig) :=
  (opsRemNext_keep (val5 V) main_arg2 (by decide)).trans (val5_main_arg2 V)
theorem val6_main_v17 : val6 V (main_v17 : DevRef τ sig) = ringDiag (F := Ideal) (V (main_arg1 : DevRef τ sig)) prevNum :=
  (opsRemNext_keep (val5 V) main_v17 (by decide)).trans (val5_main_v17 V)
theorem val6_main_v31 : val6 V (main_v31 : DevRef τ sig) = ringDiag (F := Ideal) (V (main_arg1 : DevRef τ sig)) colNum :=
  (opsRemNext_keep (val5 V) main_v31 (by decide)).trans (val5_main_v31 V)
theorem val6_main_arg1 : val6 V (main_arg1 : DevRef τ sig) = V (main_arg1 : DevRef τ sig) :=
  (opsRemNext_keep (val5 V) main_arg1 (by decide)).trans (val5_main_arg1 V)
theorem val6_main_v0 : val6 V (main_v0 : DevRef τ sig) = colNum :=
  (opsRemNext_keep (val5 V) main_v0 (by decide)).trans (val5_main_v0 V)
theorem val6_main_v34 : val6 V (main_v34 : DevRef τ sig) = nextNum := by
  unfold val6
  rw [remNext_v34, val5_main_v33, val5_main_c_10]
  all_goals rfl

/-- The buffers' contents after the first 7 stretches. -/
def val7 : Valuation τ sig (Elt Ideal) := after (opsUpperA ++ opsUpperB) (val6 V)
theorem val7_main_arg0 : val7 V (main_arg0 : DevRef τ sig) = V (main_arg0 : DevRef τ sig) :=
  (opsUpper_keep (val6 V) main_arg0 (by decide)).trans (val6_main_arg0 V)
theorem val7_main_arg2 : val7 V (main_arg2 : DevRef τ sig) = V (main_arg2 : DevRef τ sig) :=
  (opsUpper_keep (val6 V) main_arg2 (by decide)).trans (val6_main_arg2 V)
theorem val7_main_v17 : val7 V (main_v17 : DevRef τ sig) = ringDiag (F := Ideal) (V (main_arg1 : DevRef τ sig)) prevNum :=
  (opsUpper_keep (val6 V) main_v17 (by decide)).trans (val6_main_v17 V)
theorem val7_main_v31 : val7 V (main_v31 : DevRef τ sig) = ringDiag (F := Ideal) (V (main_arg1 : DevRef τ sig)) colNum :=
  (opsUpper_keep (val6 V) main_v31 (by decide)).trans (val6_main_v31 V)
theorem val7_main_v48 : val7 V (main_v48 : DevRef τ sig) = ringDiag (F := Ideal) (V (main_arg1 : DevRef τ sig)) nextNum := by
  unfold val7
  rw [upper_v48, val6_main_arg1, val6_main_v0, val6_main_v34]
  all_goals rfl
theorem val7_main_arg1 : val7 V (main_arg1 : DevRef τ sig) = V (main_arg1 : DevRef τ sig) :=
  (opsUpper_keep (val6 V) main_arg1 (by decide)).trans (val6_main_arg1 V)

/-- The buffers' contents after the first 8 stretches. -/
def val8 : Valuation τ sig (Elt Ideal) := after opsCoef (val7 V)
theorem val8_main_arg0 : val8 V (main_arg0 : DevRef τ sig) = V (main_arg0 : DevRef τ sig) :=
  (opsCoef_keep (val7 V) main_arg0 (by decide)).trans (val7_main_arg0 V)
theorem val8_main_v60 : val8 V (main_v60 : DevRef τ sig) = BandValue.coefLower (V (main_arg2 : DevRef τ sig)) := by
  unfold val8
  rw [coef_v60, val7_main_arg2]
  all_goals rfl
theorem val8_main_v17 : val8 V (main_v17 : DevRef τ sig) = ringDiag (F := Ideal) (V (main_arg1 : DevRef τ sig)) prevNum :=
  (opsCoef_keep (val7 V) main_v17 (by decide)).trans (val7_main_v17 V)
theorem val8_main_v68 : val8 V (main_v68 : DevRef τ sig) = BandValue.coefDiag (V (main_arg2 : DevRef τ sig)) := by
  unfold val8
  rw [coef_v68, val7_main_arg2]
  all_goals rfl
theorem val8_main_v31 : val8 V (main_v31 : DevRef τ sig) = ringDiag (F := Ideal) (V (main_arg1 : DevRef τ sig)) colNum :=
  (opsCoef_keep (val7 V) main_v31 (by decide)).trans (val7_main_v31 V)
theorem val8_main_v76 : val8 V (main_v76 : DevRef τ sig) = BandValue.coefUpper (V (main_arg2 : DevRef τ sig)) := by
  unfold val8
  rw [coef_v76, val7_main_arg2]
  all_goals rfl
theorem val8_main_v48 : val8 V (main_v48 : DevRef τ sig) = ringDiag (F := Ideal) (V (main_arg1 : DevRef τ sig)) nextNum :=
  (opsCoef_keep (val7 V) main_v48 (by decide)).trans (val7_main_v48 V)
theorem val8_main_arg1 : val8 V (main_arg1 : DevRef τ sig) = V (main_arg1 : DevRef τ sig) :=
  (opsCoef_keep (val7 V) main_arg1 (by decide)).trans (val7_main_arg1 V)
theorem val8_main_arg2 : val8 V (main_arg2 : DevRef τ sig) = V (main_arg2 : DevRef τ sig) :=
  (opsCoef_keep (val7 V) main_arg2 (by decide)).trans (val7_main_arg2 V)

/-- The buffers' contents after the first 9 stretches. -/
def val9 : Valuation τ sig (Elt Ideal) := after opsRoll (val8 V)
theorem val9_main_arg0 : val9 V (main_arg0 : DevRef τ sig) = V (main_arg0 : DevRef τ sig) :=
  (opsRoll_keep (val8 V) main_arg0 (by decide)).trans (val8_main_arg0 V)
theorem val9_main_v77 : val9 V (main_v77 : DevRef τ sig) = rollRight (F := Ideal) (V (main_arg0 : DevRef τ sig)) := by
  unfold val9
  rw [roll_v77, val8_main_arg0]
  all_goals rfl
theorem val9_main_v78 : val9 V (main_v78 : DevRef τ sig) = rollLeft (F := Ideal) (V (main_arg0 : DevRef τ sig)) := by
  unfold val9
  rw [roll_v78, val8_main_arg0]
  all_goals rfl
theorem val9_main_v60 : val9 V (main_v60 : DevRef τ sig) = BandValue.coefLower (V (main_arg2 : DevRef τ sig)) :=
  (opsRoll_keep (val8 V) main_v60 (by decide)).trans (val8_main_v60 V)
theorem val9_main_v17 : val9 V (main_v17 : DevRef τ sig) = ringDiag (F := Ideal) (V (main_arg1 : DevRef τ sig)) prevNum :=
  (opsRoll_keep (val8 V) main_v17 (by decide)).trans (val8_main_v17 V)
theorem val9_main_v68 : val9 V (main_v68 : DevRef τ sig) = BandValue.coefDiag (V (main_arg2 : DevRef τ sig)) :=
  (opsRoll_keep (val8 V) main_v68 (by decide)).trans (val8_main_v68 V)
theorem val9_main_v31 : val9 V (main_v31 : DevRef τ sig) = ringDiag (F := Ideal) (V (main_arg1 : DevRef τ sig)) colNum :=
  (opsRoll_keep (val8 V) main_v31 (by decide)).trans (val8_main_v31 V)
theorem val9_main_v76 : val9 V (main_v76 : DevRef τ sig) = BandValue.coefUpper (V (main_arg2 : DevRef τ sig)) :=
  (opsRoll_keep (val8 V) main_v76 (by decide)).trans (val8_main_v76 V)
theorem val9_main_v48 : val9 V (main_v48 : DevRef τ sig) = ringDiag (F := Ideal) (V (main_arg1 : DevRef τ sig)) nextNum :=
  (opsRoll_keep (val8 V) main_v48 (by decide)).trans (val8_main_v48 V)
theorem val9_main_arg1 : val9 V (main_arg1 : DevRef τ sig) = V (main_arg1 : DevRef τ sig) :=
  (opsRoll_keep (val8 V) main_arg1 (by decide)).trans (val8_main_arg1 V)
theorem val9_main_arg2 : val9 V (main_arg2 : DevRef τ sig) = V (main_arg2 : DevRef τ sig) :=
  (opsRoll_keep (val8 V) main_arg2 (by decide)).trans (val8_main_arg2 V)

/-- The buffers' contents after the first 10 stretches. -/
def val10 : Valuation τ sig (Elt Ideal) := after opsOut (val9 V)
theorem val10_main_v92 : val10 V (main_v92 : DevRef τ sig) = bandTerm (F := Ideal) (V (main_arg0 : DevRef τ sig)) (rollRight (F := Ideal) (V (main_arg0 : DevRef τ sig))) (rollLeft (F := Ideal) (V (main_arg0 : DevRef τ sig))) (mulf (F := Ideal) (BandValue.coefLower (V (main_arg2 : DevRef τ sig))) (ringDiag (F := Ideal) (V (main_arg1 : DevRef τ sig)) prevNum)) (mulf (F := Ideal) (BandValue.coefDiag (V (main_arg2 : DevRef τ sig))) (ringDiag (F := Ideal) (V (main_arg1 : DevRef τ sig)) colNum)) (mulf (F := Ideal) (BandValue.coefUpper (V (main_arg2 : DevRef τ sig))) (ringDiag (F := Ideal) (V (main_arg1 : DevRef τ sig)) nextNum)) := by
  unfold val10
  rw [out_v92, val9_main_arg0, val9_main_v77, val9_main_v78, val9_main_v60, val9_main_v17, val9_main_v68, val9_main_v31, val9_main_v76, val9_main_v48]
  all_goals rfl
theorem val10_main_arg0 : val10 V (main_arg0 : DevRef τ sig) = V (main_arg0 : DevRef τ sig) :=
  (opsOut_keep (val9 V) main_arg0 (by decide)).trans (val9_main_arg0 V)
theorem val10_main_arg1 : val10 V (main_arg1 : DevRef τ sig) = V (main_arg1 : DevRef τ sig) :=
  (opsOut_keep (val9 V) main_arg1 (by decide)).trans (val9_main_arg1 V)
theorem val10_main_arg2 : val10 V (main_arg2 : DevRef τ sig) = V (main_arg2 : DevRef τ sig) :=
  (opsOut_keep (val9 V) main_arg2 (by decide)).trans (val9_main_arg2 V)

/-- The whole line's fold is the last of these. -/
theorem after_ops : after ops V = val10 V := by
  simp only [ops, opsFirst, opsSecond, after_app]
  rfl

/-- THE RESULT BUFFER after the whole program: the final sum over the rotated inputs, the coefficient functions of the
    bias and the matrix's three ring diagonals. -/
theorem result_eq : after ops V (main_v92 : DevRef τ sig) = bandTerm (F := Ideal) (V (main_arg0 : DevRef τ sig)) (rollRight (F := Ideal) (V (main_arg0 : DevRef τ sig))) (rollLeft (F := Ideal) (V (main_arg0 : DevRef τ sig))) (mulf (F := Ideal) (BandValue.coefLower (V (main_arg2 : DevRef τ sig))) (ringDiag (F := Ideal) (V (main_arg1 : DevRef τ sig)) prevNum)) (mulf (F := Ideal) (BandValue.coefDiag (V (main_arg2 : DevRef τ sig))) (ringDiag (F := Ideal) (V (main_arg1 : DevRef τ sig)) colNum)) (mulf (F := Ideal) (BandValue.coefUpper (V (main_arg2 : DevRef τ sig))) (ringDiag (F := Ideal) (V (main_arg1 : DevRef τ sig)) nextNum)) := by
  rw [after_ops]; exact val10_main_v92 V
/-- The three arguments are never written. -/
theorem arg0_eq : after ops V (main_arg0 : DevRef τ sig) = V (main_arg0 : DevRef τ sig) := by
  rw [after_ops]; exact val10_main_arg0 V
theorem arg1_eq : after ops V (main_arg1 : DevRef τ sig) = V (main_arg1 : DevRef τ sig) := by
  rw [after_ops]; exact val10_main_arg1 V
theorem arg2_eq : after ops V (main_arg2 : DevRef τ sig) = V (main_arg2 : DevRef τ sig) := by
  rw [after_ops]; exact val10_main_arg2 V

end Cert.ReferenceIdeal.BandRun

end
-- ==== Proof.RefRun.lean ====
/-
  The reference program's run.

  The program is the line of operations of the previous module, so every fair execution of it terminates and leaves in
  each buffer the fold of the operations over the memory it started from. Its two halves are compared with the two
  halves of the list one at a time and then joined.
-/
import proofs.«126676_j37838661878516_2_alg».proof.Proof.RefOps

noncomputable section

namespace Cert.ReferenceIdeal.BandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- The first 60 statements are the first 100 operations: the helper calls unfold to their statements. -/
theorem main_part0_eq (c : Dev nD) : main_part0 (F := F) c = seq opsFirst := rfl

set_option maxRecDepth 65536 in
/-- The remaining statements are the last 60 operations. -/
theorem main_part1_eq (c : Dev nD) : main_part1 (F := F) c = seq opsSecond := rfl

/-- The program is the whole line. -/
theorem main_eq (c : Dev nD) : main (F := F) c = seq ops := by
  show (main_part0 (F := F) c >>= fun _ => main_part1 (F := F) c) = seq (opsFirst ++ opsSecond)
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig := by
  refine List.forall_iff_forall_mem.mpr fun op h => ?_
  simp only [ops, opsFirst, opsSecond, List.mem_append] at h
  rcases h with (h | h | h | h | h | h | h) | (h | h | h | h)
  · exact List.forall_iff_forall_mem.mp opsIota_sub op h
  · exact List.forall_iff_forall_mem.mp opsRemPrev_sub op h
  · exact List.forall_iff_forall_mem.mp opsLower_sub op h
  · exact List.forall_iff_forall_mem.mp opsDiag_sub op h
  · exact List.forall_iff_forall_mem.mp opsSucc_sub op h
  · exact List.forall_iff_forall_mem.mp opsRemNext_sub op h
  · exact List.forall_iff_forall_mem.mp opsUpperA_sub op h
  · exact List.forall_iff_forall_mem.mp opsUpperB_sub op h
  · exact List.forall_iff_forall_mem.mp opsCoef_sub op h
  · exact List.forall_iff_forall_mem.mp opsRoll_sub op h
  · exact List.forall_iff_forall_mem.mp opsOut_sub op h

/-- No operation allocates: each determines what it writes. -/
theorem ops_fresh : ∀ op ∈ (ops : List (HloOp τ sig (Elt F))), op.fresh = ∅ := by
  intro op h
  simp only [ops, opsFirst, opsSecond, List.mem_append] at h
  rcases h with (h | h | h | h | h | h | h) | (h | h | h | h)
  all_goals ((repeat (cases h with | head => rfl | tail _ h => ?_)); exact nomatch h)

/-- From any memory with zero counters every fair execution of the program terminates, and every final state has each
    buffer of the device at the fold of the 160 operations over what the memory held. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.BandRun

end
-- ==== Proof.RefWord.lean ====
/-
  Word arithmetic on the ring of 8192 columns.

  The program computes a column's two ring neighbours on 32-bit words: it subtracts or adds one, then takes the
  floored remainder by 8192 (the truncated remainder, moved up by the divisor where its sign differs from the
  divisor's), then adds 8192 to a negative result (the wrap-around an index may use). For a column number
  `i < 8192` the result is the word of `(i + 8191) % 8192`, resp. `(i + 1) % 8192`; the last step never fires, and the
  word read as a signed integer is that number itself.
-/
import Idealize.ShloMosaic.PureOps

namespace Cert.Band.Word

open Idealize.ShloMosaic

/-- The floored remainder as the program computes it on one word: the divisor with zero replaced by one; the
    truncated remainder; plus the divisor when the remainder is not zero and its sign differs from the divisor's. -/
def flooredRem (x n : BitVec 32) : BitVec 32 :=
  Scalar.select
    (IntOp.andi
      (IntOp.cmpi .ne (IntOp.cmpi .slt (IntOp.remsi .host x (Scalar.select (IntOp.cmpi .eq n 0#32) 1#32 n)) 0#32)
        (IntOp.cmpi .slt (Scalar.select (IntOp.cmpi .eq n 0#32) 1#32 n) 0#32))
      (IntOp.cmpi .ne (IntOp.remsi .host x (Scalar.select (IntOp.cmpi .eq n 0#32) 1#32 n)) 0#32))
    (IntOp.addi (IntOp.remsi .host x (Scalar.select (IntOp.cmpi .eq n 0#32) 1#32 n))
      (Scalar.select (IntOp.cmpi .eq n 0#32) 1#32 n))
    (IntOp.remsi .host x (Scalar.select (IntOp.cmpi .eq n 0#32) 1#32 n))

/-- Adding 8192 to a negative word and keeping the others. -/
def wrap (x : BitVec 32) : BitVec 32 :=
  Scalar.select (IntOp.cmpi .slt x 0#32) (IntOp.addi x 8192#32) x

/-- The truncated remainder of a small non-negative word by 8192 is the ordinary one. -/
theorem remsi_small (k : Nat) (hk : k < 8192) :
    IntOp.remsi .host (BitVec.ofNat 32 k) 8192#32 = BitVec.ofNat 32 k := by
  have hc : ¬ IntOp.SDivCorner (BitVec.ofNat 32 k) 8192#32 := by
    rintro (h | ⟨_, h⟩)
    · exact absurd h (by decide)
    · exact absurd h (by decide)
  unfold IntOp.remsi
  rw [if_neg hc]
  apply BitVec.eq_of_toInt_eq
  rw [BitVec.toInt_srem]
  have h1 : (BitVec.ofNat 32 k).toInt = (k : Int) := by
    rw [BitVec.toInt_eq_toNat_of_lt (by rw [BitVec.toNat_ofNat]; omega), BitVec.toNat_ofNat]
    omega
  have h2 : (8192#32 : BitVec 32).toInt = 8192 := by decide
  rw [h1, h2, Int.tmod_eq_emod_of_nonneg (by omega)]
  omega

/-- A small non-negative word read as a signed integer is the number. -/
theorem toInt_small (k : Nat) (hk : k < 8192) : (BitVec.ofNat 32 k).toInt = (k : Int) := by
  rw [BitVec.toInt_eq_toNat_of_lt (by rw [BitVec.toNat_ofNat]; omega), BitVec.toNat_ofNat]
  omega

/-- A small non-negative word is not negative. -/
theorem slt_zero_small (k : Nat) (hk : k < 8192) : IntOp.cmpi .slt (BitVec.ofNat 32 k) 0#32 = 0#1 := by
  have h : (BitVec.ofNat 32 k).slt 0#32 = false := by
    rw [BitVec.slt_eq_decide, toInt_small k hk]
    have : (0#32 : BitVec 32).toInt = 0 := by decide
    rw [this]
    exact decide_eq_false (by omega)
  show BitVec.ofBool ((BitVec.ofNat 32 k).slt 0#32) = 0#1
  rw [h]; rfl

/-- The wrap-around keeps a small non-negative word. -/
theorem wrap_small (k : Nat) (hk : k < 8192) : wrap (BitVec.ofNat 32 k) = BitVec.ofNat 32 k := by
  unfold wrap Scalar.select
  rw [slt_zero_small k hk, if_neg (by decide)]

/-- The floored remainder of a small non-negative word by 8192 is the word. -/
theorem flooredRem_small (k : Nat) (hk : k < 8192) :
    flooredRem (BitVec.ofNat 32 k) 8192#32 = BitVec.ofNat 32 k := by
  have hd : Scalar.select (IntOp.cmpi .eq (8192#32 : BitVec 32) 0#32) 1#32 8192#32 = 8192#32 := by decide
  unfold flooredRem
  rw [hd, remsi_small k hk, slt_zero_small k hk]
  have h0 : IntOp.cmpi .slt (8192#32 : BitVec 32) 0#32 = 0#1 := by decide
  rw [h0]
  have h1 : IntOp.cmpi .ne (0#1 : BitVec 1) 0#1 = 0#1 := by decide
  rw [h1]
  have h2 : ∀ y : BitVec 1, IntOp.andi (0#1 : BitVec 1) y = 0#1 := by decide
  rw [h2]
  unfold Scalar.select
  rw [if_neg (by decide)]

/-- The left neighbour: for a column `i < 8192`, the floored remainder of `i − 1` by 8192 is `(i + 8191) % 8192`. -/
theorem flooredRem_pred (i : Nat) (hi : i < 8192) :
    flooredRem (IntOp.subi (BitVec.ofNat 32 i) 1#32) 8192#32 = BitVec.ofNat 32 ((i + 8191) % 8192) := by
  rcases Nat.eq_zero_or_pos i with h | h
  · subst h; decide
  · have e : IntOp.subi (BitVec.ofNat 32 i) 1#32 = BitVec.ofNat 32 (i - 1) := by
      apply BitVec.eq_of_toNat_eq
      show (BitVec.ofNat 32 i - 1#32).toNat = _
      simp only [BitVec.toNat_sub, BitVec.toNat_ofNat]
      omega
    rw [e, flooredRem_small (i - 1) (by omega)]
    congr 1; omega

/-- The right neighbour: for a column `i < 8192`, the floored remainder of `i + 1` by 8192 is `(i + 1) % 8192`. -/
theorem flooredRem_succ (i : Nat) (hi : i < 8192) :
    flooredRem (IntOp.addi (BitVec.ofNat 32 i) 1#32) 8192#32 = BitVec.ofNat 32 ((i + 1) % 8192) := by
  rcases Nat.lt_or_ge i 8191 with h | h
  · have e : IntOp.addi (BitVec.ofNat 32 i) 1#32 = BitVec.ofNat 32 (i + 1) := by
      apply BitVec.eq_of_toNat_eq
      show (BitVec.ofNat 32 i + 1#32).toNat = _
      simp only [BitVec.toNat_add, BitVec.toNat_ofNat]
      omega
    rw [e, flooredRem_small (i + 1) (by omega)]
    congr 1; omega
  · have : i = 8191 := by omega
    subst this; decide

end Cert.Band.Word
-- ==== Proof.RefDiag.lean ====
/-
  The three ring diagonals the gathers return.

  A gather reads the matrix once per row `r`, at the pair of coordinates its table holds in row `r`. The table's
  first column is the row number itself; its second column is the row number, its left ring neighbour or its right
  ring neighbour, each computed on 32-bit words and then passed through the wrap-around an index may use. For row
  numbers below 8192 all these words are the words of numbers below 8192, which read as signed integers are the
  numbers themselves and lie inside the matrix: nothing is clamped, and the gather returns the matrix's entry
  `(r, prev r)`, `(r, r)` or `(r, next r)`.
-/
import proofs.«126676_j37838661878516_2_alg».proof.Proof.RefPieces
import proofs.«126676_j37838661878516_2_alg».proof.Proof.RefWord
import proofs.«126676_j37838661878516_2_alg».proof.Proof.Spec
import proofs.«126676_j37838661878516_2_alg».proof.Proof.LibGatherPair
import Idealize.ShloMosaic.Lib.Pipeline.Value

noncomputable section

namespace Cert.ReferenceIdeal.BandRun

open Cert.ReferenceIdeal Cert.ReferenceIdeal.Gen Idealize.ShloMosaic Idealize.ShloMosaic.TcCoe Idealize.SL.Sem
open Idealize.ShloMosaic.StableHlo Idealize.ShloMosaic.ValueIdx Cert.Band

variable {F : FTy → Type} [FloatOps F]

/-! ## The table of coordinate pairs -/

/-- A vector over the rows laid out as one column reads, at `(k, 0)`, the vector at `k`. -/
theorem column_apply (v : IVec S8192 32) (k : Fin 8192) :
    broadcastInDim S8192x1 ![0] bcast_S8192_S8192x1_0 v (ix2 k (0 : Fin 1)) = v (ix1 k) := by
  refine broadcastInDim_apply ![0] bcast_S8192_S8192x1_0 v (ix2 k (0 : Fin 1)) (ix1 k) fun a => ?_
  match a with
  | ⟨0, _⟩ => rfl

/-- The table's first column holds the first vector, wrapped. -/
theorem pairIdx_fst (a b : IVec S8192 32) (k : Fin 8192) :
    pairIdx a b (ix2 k 0) = Word.wrap (a (ix1 k)) := by
  unfold pairIdx
  refine (concatenate_pair_apply_left 1 _ _ concatenates_S8192x1_S8192x1_S8192x2_d1 (ix2 k 0) rfl
    (ix2 k (0 : Fin 1)) fun d => ?_).trans ?_
  · match d with
    | ⟨0, _⟩ => rfl
    | ⟨1, _⟩ => rfl
  · rw [column_apply]; rfl

/-- The table's second column holds the second vector, wrapped. -/
theorem pairIdx_snd (a b : IVec S8192 32) (k : Fin 8192) :
    pairIdx a b (ix2 k 1) = Word.wrap (b (ix1 k)) := by
  unfold pairIdx
  refine (concatenate_pair_apply_right 1 _ _ concatenates_S8192x1_S8192x1_S8192x2_d1 (ix2 k 1) rfl rfl
    (ix2 k (0 : Fin 1)) (fun d hd => ?_) ?_).trans ?_
  · match d with
    | ⟨0, _⟩ => rfl
    | ⟨1, _⟩ => exact absurd rfl hd
  · rfl
  · rw [column_apply]; rfl

/-! ## The gather at a row -/

/-- The row number of row `r`, as the table's first column holds it, read as a signed integer. -/
theorem row_word (col : IVec S8192 32) (r : Fin 8192) :
    (pairIdx colNum col (ix2 r 0)).toInt = (r.val : Int) := by
  rw [pairIdx_fst]
  show (Word.wrap (BitVec.ofNat 32 r.val)).toInt = _
  rw [Word.wrap_small r.val r.isLt, Word.toInt_small r.val r.isLt]

/-- When the column vector's word at row `r` is the word of a column `b`, the gather returns the matrix's entry
    `(r, b)`. -/
theorem ringDiag_apply (W : FVec F S8192x8192 .f32) (col : IVec S8192 32) (r b : Fin 8192)
    (hb : col (ix1 r) = BitVec.ofNat 32 b.val) : ringDiag W col (ix1 r) = W (ix2 r b) := by
  unfold ringDiag
  refine Cert.Band.gather_pair_apply_of_toInt _ W (pairIdx colNum col) r r b (row_word col r) ?_
  rw [pairIdx_snd, hb, Word.wrap_small b.val b.isLt, Word.toInt_small b.val b.isLt]

/-! ## The three diagonals -/

/-- With the left neighbours as columns the gather returns the entries `(r, prev r)`. -/
theorem ringDiag_prev (W : FVec F S8192x8192 .f32) (r : Fin 8192) :
    ringDiag W prevNum (ix1 r) = W (ix2 r (prev r)) := by
  refine ringDiag_apply W prevNum r (prev r) ?_
  show Word.flooredRem (IntOp.subi (BitVec.ofNat 32 r.val) 1#32) 8192#32 = _
  rw [Word.flooredRem_pred r.val r.isLt, prev_val]

/-- With the row numbers themselves as columns it returns the diagonal entries `(r, r)`. -/
theorem ringDiag_col (W : FVec F S8192x8192 .f32) (r : Fin 8192) :
    ringDiag W colNum (ix1 r) = W (ix2 r r) :=
  ringDiag_apply W colNum r r rfl

/-- With the right neighbours as columns it returns the entries `(r, next r)`. -/
theorem ringDiag_next (W : FVec F S8192x8192 .f32) (r : Fin 8192) :
    ringDiag W nextNum (ix1 r) = W (ix2 r (next r)) := by
  refine ringDiag_apply W nextNum r (next r) ?_
  show Word.flooredRem (IntOp.addi (BitVec.ofNat 32 r.val) 1#32) 8192#32 = _
  rw [Word.flooredRem_succ r.val r.isLt, next_val]

end Cert.ReferenceIdeal.BandRun

end
-- ==== Proof.LibRoll.lean ====
/-
  A roll by one column along the ring, read at an index.

  Rolling the 8192 columns of x to the right by one is: the last column, then the first 8191 columns. Entry
  (p, q) of the result is x (p, q - 1) for q > 0 and x (p, 8191) for q = 0: the left neighbour on the ring.
  Rolling to the left by one is: the last 8191 columns, then the first column; entry (p, q) is the right
  neighbour on the ring. Each is a two-piece concatenation of unit-stride slices, read piece by piece.
-/
import Idealize.ShloMosaic.PureOps
import Idealize.ShloMosaic.Lib.ValueIdx
import Idealize.ShloMosaic.Lib.Pipeline.Value
import proofs.«126676_j37838661878516_2_alg».proof.Proof.Spec

noncomputable section

namespace Cert.Band

open Idealize.ShloMosaic Idealize.ShloMosaic.ValueIdx

variable {α : Type}

/-- One column of `x`. -/
abbrev SXc : Shape := ⟨2, ![256, 1]⟩
/-- All columns of `x` but one. -/
abbrev SXr : Shape := ⟨2, ![256, 8191]⟩

/-- The roll to the right: (last column) ++ (first 8191 columns) at (p, q) is x at the LEFT neighbour of q. -/
theorem roll_right_apply (x : SX.Idx → α) (h1 : SX.Slices ![0, 8191] SXc) (h2 : SX.Slices ![0, 0] SXr)
    (hc : Shape.Concatenates [SXc, SXr] SX 1) (p : Fin 256) (q : Fin 8192) :
    concatenate SX 1 [⟨SXc, extractStridedSlice SXc ![0, 8191] x h1⟩, ⟨SXr, extractStridedSlice SXr ![0, 0] x h2⟩] hc (ix2 p q)
      = x (ix2 p (prev q)) := by
  have hqlt := q.isLt
  by_cases hq : q.val = 0
  · -- column 0 comes from the first piece, the single last column
    refine (concatenate_pair_apply_left (t := SX) (s₁ := SXc) (s₂ := SXr) (1 : Fin 2) _ _ hc (ix2 p q) rfl (ix2 p (0 : Fin 1)) ?_).trans ?_
    · intro b
      match b with
      | ⟨0, _⟩ => rfl
      | ⟨1, _⟩ => exact hq.symm
    · refine extractStridedSlice_apply _ x h1 (ix2 p (0 : Fin 1)) (ix2 p (prev q)) ?_
      intro a
      match a with
      | ⟨0, _⟩ => exact (Nat.zero_add _).symm
      | ⟨1, _⟩ =>
        show (prev q).val = 8191 + 0
        rw [prev_val, hq]
  · -- a later column q comes from the second piece at q - 1
    have hq1 : q.val - 1 < 8191 := by omega
    refine (concatenate_pair_apply_right (t := SX) (s₁ := SXc) (s₂ := SXr) (1 : Fin 2) _ _ hc (ix2 p q) rfl rfl (ix2 p (⟨q.val - 1, hq1⟩ : Fin 8191)) ?_ ?_).trans ?_
    · intro b hb
      match b with
      | ⟨0, _⟩ => rfl
      | ⟨1, _⟩ => exact absurd rfl hb
    · show (q.val - 1) + 1 = q.val
      omega
    · refine extractStridedSlice_apply _ x h2 (ix2 p (⟨q.val - 1, hq1⟩ : Fin 8191)) (ix2 p (prev q)) ?_
      intro a
      match a with
      | ⟨0, _⟩ => exact (Nat.zero_add _).symm
      | ⟨1, _⟩ =>
        show (prev q).val = 0 + (q.val - 1)
        rw [prev_val_of_pos q hq]; omega

/-- The roll to the left: (last 8191 columns) ++ (first column) at (p, q) is x at the RIGHT neighbour of q. -/
theorem roll_left_apply (x : SX.Idx → α) (h1 : SX.Slices ![0, 1] SXr) (h2 : SX.Slices ![0, 0] SXc)
    (hc : Shape.Concatenates [SXr, SXc] SX 1) (p : Fin 256) (q : Fin 8192) :
    concatenate SX 1 [⟨SXr, extractStridedSlice SXr ![0, 1] x h1⟩, ⟨SXc, extractStridedSlice SXc ![0, 0] x h2⟩] hc (ix2 p q)
      = x (ix2 p (next q)) := by
  have hqlt := q.isLt
  by_cases hq : q.val = 8191
  · -- the last column comes from the second piece, the single first column
    refine (concatenate_pair_apply_right (t := SX) (s₁ := SXr) (s₂ := SXc) (1 : Fin 2) _ _ hc (ix2 p q) rfl rfl (ix2 p (0 : Fin 1)) ?_ ?_).trans ?_
    · intro b hb
      match b with
      | ⟨0, _⟩ => rfl
      | ⟨1, _⟩ => exact absurd rfl hb
    · show 0 + 8191 = q.val
      omega
    · refine extractStridedSlice_apply _ x h2 (ix2 p (0 : Fin 1)) (ix2 p (next q)) ?_
      intro a
      match a with
      | ⟨0, _⟩ => exact (Nat.zero_add _).symm
      | ⟨1, _⟩ =>
        show (next q).val = 0 + 0
        rw [next_val, hq]
  · -- an earlier column q comes from the first piece at q, which is x's column q + 1
    have hq1 : q.val < 8191 := by omega
    refine (concatenate_pair_apply_left (t := SX) (s₁ := SXr) (s₂ := SXc) (1 : Fin 2) _ _ hc (ix2 p q) rfl (ix2 p (⟨q.val, hq1⟩ : Fin 8191)) ?_).trans ?_
    · intro b
      match b with
      | ⟨0, _⟩ => rfl
      | ⟨1, _⟩ => rfl
    · refine extractStridedSlice_apply _ x h1 (ix2 p (⟨q.val, hq1⟩ : Fin 8191)) (ix2 p (next q)) ?_
      intro a
      match a with
      | ⟨0, _⟩ => exact (Nat.zero_add _).symm
      | ⟨1, _⟩ =>
        show (next q).val = 1 + q.val
        rw [next_val_of_lt q hq]; omega

end Cert.Band

end
-- ==== Proof.RefValue.lean ====
/-
  The reference program computes the ring band.

  Entry `(p, q)` of the result buffer is read off the fold: the final sum there is the right-rotated input (the input at
  the left neighbour `prev q`) times the lower coefficient times the matrix's entry `(q, prev q)`, plus the input times
  the diagonal coefficient times the entry `(q, q)`, plus the left-rotated input (the input at `next q`) times the upper
  coefficient times the entry `(q, next q)` — the first two products added first, as the specification groups them, and each
  factor the coefficient times the matrix entry, in that order. Nothing is rearranged, so no finiteness is used.
-/
import proofs.«126676_j37838661878516_2_alg».proof.Proof.RefFold
import proofs.«126676_j37838661878516_2_alg».proof.Proof.RefRun
import proofs.«126676_j37838661878516_2_alg».proof.Proof.RefDiag
import proofs.«126676_j37838661878516_2_alg».proof.Proof.LibRoll
import proofs.«126676_j37838661878516_2_alg».proof.Proof.Spec

noncomputable section

namespace Cert.ReferenceIdeal.BandValue

open Cert.ReferenceIdeal Cert.ReferenceIdeal.Gen Idealize.ShloMosaic Idealize.ShloMosaic.TcCoe Idealize.SL.Sem Idealize.ShloMosaic.StableHlo Idealize.ShloMosaic.ValueIdx Cert.Band Cert.ReferenceIdeal.BandRun

/-- A vector over the columns, repeated on every row, read at row `p`, column `q`: its entry `q`. -/
theorem spread_apply (v : FVec Ideal S8192 .f32) (p : Fin 256) (q : Fin 8192) :
    spread v (ix2 p q) = v (ix1 q) := by
  unfold spread
  refine (broadcastInDim_apply _ _ _ (ix2 p q) (ix2 (0 : Fin 1) q) (fun a => ?_)).trans ?_
  · match a with
    | ⟨0, _⟩ => rfl
    | ⟨1, _⟩ => rfl
  · refine broadcastInDim_apply _ _ v (ix2 (0 : Fin 1) q) (ix1 q) (fun a => ?_)
    match a with
    | ⟨0, _⟩ => rfl

/-- The final sum at row `p`, column `q`: the three products of that entry, added in the program's order. -/
theorem bandTerm_apply (x xr xl : FVec Ideal S256x8192 .f32) (aL aD aU : FVec Ideal S8192 .f32) (p : Fin 256) (q : Fin 8192) :
    bandTerm x xr xl aL aD aU (ix2 p q)
      = xr (ix2 p q) * aL (ix1 q) + x (ix2 p q) * aD (ix1 q) + xl (ix2 p q) * aU (ix1 q) := by
  unfold bandTerm
  rw [addf_apply, addf_apply, mulf_apply, mulf_apply, mulf_apply, spread_apply, spread_apply, spread_apply]

/-- The right rotation at `(p, q)` is the input at the left neighbour. -/
theorem rollRight_apply (x : FVec Ideal S256x8192 .f32) (p : Fin 256) (q : Fin 8192) :
    rollRight x (ix2 p q) = x (ix2 p (prev q)) := by
  unfold rollRight
  exact roll_right_apply x _ _ _ p q

/-- The left rotation at `(p, q)` is the input at the right neighbour. -/
theorem rollLeft_apply (x : FVec Ideal S256x8192 .f32) (p : Fin 256) (q : Fin 8192) :
    rollLeft x (ix2 p q) = x (ix2 p (next q)) := by
  unfold rollLeft
  exact roll_left_apply x _ _ _ p q

/-- The fold of the whole program at the result buffer is the ring band of the input, the matrix and the bias. -/
theorem value (V : Valuation τ sig (Elt Ideal)) :
    after ops V (main_v92 : DevRef τ sig)
      = Cert.Band.out (coefLower (V (main_arg2 : DevRef τ sig))) (coefDiag (V (main_arg2 : DevRef τ sig)))
          (coefUpper (V (main_arg2 : DevRef τ sig))) (V (main_arg0 : DevRef τ sig)) (V (main_arg1 : DevRef τ sig)) := by
  rw [result_eq]
  funext j
  obtain ⟨p, q, rfl⟩ : ∃ (p : Fin 256) (q : Fin 8192), j = ix2 p q := ⟨j 0, j 1, eq_ix2 j⟩
  rw [bandTerm_apply, rollRight_apply, rollLeft_apply, mulf_apply, mulf_apply, mulf_apply,
    ringDiag_prev, ringDiag_col, ringDiag_next]
  rfl

/-- From any memory with zero counters every fair execution of the reference program terminates with the result buffer
    holding the ring band of the arguments' launch contents, and the three arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v92)
          = Cert.Band.out (coefLower (m ((c.tc : Thread nD τ).loc main_arg2))) (coefDiag (m ((c.tc : Thread nD τ).loc main_arg2)))
              (coefUpper (m ((c.tc : Thread nD τ).loc main_arg2))) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v92).trans (value (launchContents m c)),
      (h c main_arg0).trans (arg0_eq (launchContents m c)),
      (h c main_arg1).trans (arg1_eq (launchContents m c)),
      (h c main_arg2).trans (arg2_eq (launchContents m c))⟩)
    (run_main m ρ)

end Cert.ReferenceIdeal.BandValue

end
-- ==== Proof.lean ====
/-
  The idealized kernel and the idealized reference compute the same ring band.

  Over a ring of 8192 columns, with prev q and next q the left and right neighbours of column q, both programs
  end with the array whose entry (p, q) is

      x (p, prev q) · (cL q · W (q, prev q)) + x (p, q) · (cD q · W (q, q)) + x (p, next q) · (cU q · W (q, next q)),

  where cL, cD, cU are built from the bias alone by the same operations in both programs (one plus the bias, its
  square and its cube, with the two end columns exchanged among them); they are carried as one function of the bias
  and never opened. The reference reads the three ring diagonals of W with three gathers whose column numbers are
  floored remainders by 8192, and the neighbours of x by two rotations of its columns. The kernel program extracts
  the diagonals tile by tile (each entry a masked row sum with a single non-zero term), repairs the 64 + 64 entries
  at tile edges on the host with a gather and an overwrite, and rotates the input inside its second pass. The two
  sides are equal term by term with the sum grouped the same way, so the equality holds on the extended reals as it
  stands: no term is moved, and the finiteness of the inputs is never used.

  The three frames: the two kernel programs' are the generated several-pass frames; the reference's is its run with
  the result forgotten. The idealization rewrote nothing, so there is nothing to preserve.
-/
import proofs.«126676_j37838661878516_2_alg».proof.Defs
import proofs.«126676_j37838661878516_2_alg».proof.Proof.Gen.Kernel
import proofs.«126676_j37838661878516_2_alg».proof.Proof.Gen.Kernel.Frame
import proofs.«126676_j37838661878516_2_alg».proof.Proof.Gen.KernelIdeal
import proofs.«126676_j37838661878516_2_alg».proof.Proof.Gen.KernelIdeal.Frame
import proofs.«126676_j37838661878516_2_alg».proof.Proof.Gen.ReferenceIdeal
import proofs.«126676_j37838661878516_2_alg».proof.Proof.Gen.Pre_finite_inputs
import proofs.«126676_j37838661878516_2_alg».proof.Proof.KernelValue
import proofs.«126676_j37838661878516_2_alg».proof.Proof.RefValue

noncomputable section

namespace Cert.Proof

open Idealize.ShloMosaic Idealize.SL.Sem Cert.Band

/-- Both programs build the coefficient of the lower ring diagonal from the bias by the same operations. -/
theorem coefLower_same (b : SB.Idx → EReal) :
    Cert.ReferenceIdeal.BandValue.coefLower b = Cert.KernelIdeal.BandValue.coefLower b := rfl
/-- Likewise the coefficient of the diagonal. -/
theorem coefDiag_same (b : SB.Idx → EReal) :
    Cert.ReferenceIdeal.BandValue.coefDiag b = Cert.KernelIdeal.BandValue.coefDiag b := rfl
/-- Likewise the coefficient of the upper ring diagonal. -/
theorem coefUpper_same (b : SB.Idx → EReal) :
    Cert.ReferenceIdeal.BandValue.coefUpper b = Cert.KernelIdeal.BandValue.coefUpper b := rfl

/-- The word-level kernel program runs, and its arguments end as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The idealized reference runs, and its arguments end as launched: its run with the result forgotten. -/
theorem frame_referenceIdeal : Cert.frame_ReferenceIdeal := fun m ρ _ =>
  (θ_run Cert.ReferenceIdeal.defs _ _).mono (fun _ h c => (h c).2) (Cert.ReferenceIdeal.BandValue.run m ρ)

/-- From memories agreeing on the three arguments both idealized programs end with the same result array: the
    ring band of the arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.BandValue.kernel_value m ρ c), (h c).2⟩)
    (Cert.KernelIdeal.BandValue.run_result (F := Ideal) m ρ), ?_⟩
  refine (θ_run Cert.ReferenceIdeal.defs _ _).mono (fun r h c => ⟨(h c).1.trans ?_, (h c).2⟩)
    (Cert.ReferenceIdeal.BandValue.run m' ρ')
  rw [(hagree c).1, (hagree c).2.1, (hagree c).2.2, coefLower_same, coefDiag_same, coefUpper_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
